-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S256x64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S256x64 .f32 := Host.absf main_arg12
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x256 .f32) (main_arg9 : FVec F S256 .f32) (main_arg10 : FVec F S256x64 .f32) (main_arg11 : FVec F S64 .f32) (main_arg12 : FVec F S256x64 .f32) (main_arg13 : FVec F S64 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S256x256 .f32) (main_arg6 : FVec F S256x256 .f32) (main_arg7 : FVec F S256 .f32) (main_arg8 : FVec F S128x256 .f32) (main_arg9 : FVec F S256 .f32) (main_arg10 : FVec F S256x64 .f32) (main_arg11 : FVec F S64 .f32) (main_arg12 : FVec F S256x64 .f32) (main_arg13 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x800000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S128x256 .f32) (main_arg9 : FVec F S256 .f32) (main_arg10 : FVec F S256x64 .f32) (main_arg11 : FVec F S64 .f32) (main_arg12 : FVec F S256x64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1x256 : Shape := ⟨2, ![1, 256]⟩
abbrev S800000x128 : Shape := ⟨2, ![800000, 128]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S256x128 : Shape := ⟨2, ![256, 128]⟩
abbrev S800000x256 : Shape := ⟨2, ![800000, 256]⟩
abbrev S128 : Shape := ⟨1, ![128]⟩
abbrev S1x128 : Shape := ⟨2, ![1, 128]⟩
abbrev S100000x64 : Shape := ⟨2, ![100000, 64]⟩

abbrev nBuf : Space → Nat
  | .hbm => 87
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S128x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S256x64, .f32⟩
  | .hbm, ⟨13, _⟩ => ⟨S64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S100000, .f32⟩
  | .hbm, ⟨22, _⟩ => ⟨S800000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S1x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x256, .f32⟩
  | .hbm, ⟨51, _⟩ => ⟨S1x256, .f32⟩
  | .hbm, ⟨52, _⟩ => ⟨S1x256, .f32⟩
  | .hbm, ⟨53, _⟩ => ⟨S256x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S100000x256, .f32⟩
  | .hbm, ⟨65, _⟩ => ⟨S800000x1, .i32⟩
  | .hbm, ⟨66, _⟩ => ⟨S100000x256, .f32⟩
  | .hbm, ⟨67, _⟩ => ⟨S100000x256, .f32⟩
  | .hbm, ⟨68, _⟩ => ⟨S100000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S100000x128, .f32⟩
  | .hbm, ⟨80, _⟩ => ⟨S800000x1, .i32⟩
  | .hbm, ⟨81, _⟩ => ⟨S100000x128, .f32⟩
  | .hbm, ⟨82, _⟩ => ⟨S128, .f32⟩
  | .hbm, ⟨83, _⟩ => ⟨S1x128, .f32⟩
  | .hbm, ⟨84, _⟩ => ⟨S100000x128, .f32⟩
  | .hbm, ⟨85, _⟩ => ⟨S100000x64, .f32⟩
  | .hbm, ⟨86, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S256x256, .f32⟩
  | .local _ .vmem, ⟨22, _⟩ => ⟨S256x256, .f32⟩
  | .local _ .vmem, ⟨23, _⟩ => ⟨S128x256, .f32⟩
  | .local _ .vmem, ⟨24, _⟩ => ⟨S1x256, .f32⟩
  | .local _ .vmem, ⟨25, _⟩ => ⟨S1x256, .f32⟩
  | .local _ .vmem, ⟨26, _⟩ => ⟨S256x128, .f32⟩
  | .local _ .vmem, ⟨27, _⟩ => ⟨S4000x256, .f32⟩
  | .local _ .vmem, ⟨28, _⟩ => ⟨S4000x256, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .f32⟩
  | .local _ .vmem, ⟨36, _⟩ => ⟨S4000x1, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42_0 : Ref sig .tc := ⟨.hbm, 67, rfl⟩
abbrev main_v42_1 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28
abbrev cc1_sem12_0 : DmaSem sig := 29
abbrev cc1_sem12_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem4_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  shapeCasts_S256_S1x256 : S256.ShapeCasts S1x256
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  slices_S4000x256_o0_0_S4000x128 : S4000x256.Slices ![0, 0] S4000x128
  inb_S4000x256_S4000x128_0_0 : ∀ a, (![0, 0] : Fin 2 → Nat) a + S4000x128.size a ≤ S4000x256.size a
  slices_S4000x256_o0_128_S4000x128 : S4000x256.Slices ![0, 128] S4000x128
  inb_S4000x256_S4000x128_0_128 : ∀ a, (![0, 128] : Fin 2 → Nat) a + S4000x128.size a ≤ S4000x256.size a
  concatenates_S256x64_S256x64_S256x128_d1 : Shape.Concatenates [S256x64, S256x64] S256x128 1
  bcast_S_S100000x256 : S_.BroadcastsInDim S100000x256 (![] : Fin 0 → Fin S100000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S4000x1_S4000x256 : S4000x1.Broadcasts S4000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S64_S64_S128_d0 : Shape.Concatenates [S64, S64] S128 0
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S100000x128_S100000x64_0_0 : S100000x128.Slices ![0, 0] S100000x64
  slices_S100000x128_S100000x64_0_64 : S100000x128.Slices ![0, 64] S100000x64
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x256_S4000x256_1_0_0_1_n_n_wf : DotDims.WF S4000x128 S128x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .f32 = 32 ∨ (Rect.block (s := S128x256) S128x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x128.size a ≤ S256x128.size a
  hwx1_10 : ∀ i : grid1.Coords, EltTy.bits .f32 = 32 ∨ (Rect.block (s := S256x128) S256x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x256.size a ≤ S100000x256.size a
  hwx1_11 : ∀ i : grid1.Coords, EltTy.bits .f32 = 32 ∨ (Rect.block (s := S100000x256) S4000x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S4000x128.size a ≤ S100000x128.size a
  hwx1_12 : ∀ i : grid1.Coords, EltTy.bits .f32 = 32 ∨ (Rect.block (s := S100000x128) S4000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S256x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v42_0) S4000x256.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v42_1) S4000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42_1) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S100000x256 : Shape := ⟨2, ![100000, 256]⟩
abbrev S1x256 : Shape := ⟨2, ![1, 256]⟩
abbrev S800000x256 : Shape := ⟨2, ![800000, 256]⟩
abbrev S100000x64 : Shape := ⟨2, ![100000, 64]⟩
abbrev S800000x64 : Shape := ⟨2, ![800000, 64]⟩
abbrev S1x64 : Shape := ⟨2, ![1, 64]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x800000, .i32⟩
  | 2 => ⟨S128x256, .f32⟩
  | 3 => ⟨S128x256, .f32⟩
  | 4 => ⟨S256, .f32⟩
  | 5 => ⟨S256x256, .f32⟩
  | 6 => ⟨S256x256, .f32⟩
  | 7 => ⟨S256, .f32⟩
  | 8 => ⟨S128x256, .f32⟩
  | 9 => ⟨S256, .f32⟩
  | 10 => ⟨S256x64, .f32⟩
  | 11 => ⟨S64, .f32⟩
  | 12 => ⟨S256x64, .f32⟩
  | 13 => ⟨S64, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S100000, .f32⟩
  | 22 => ⟨S800000x1, .i32⟩
  | 23 => ⟨S100000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S100000x128, .f32⟩
  | 35 => ⟨S800000x1, .i32⟩
  | 36 => ⟨S100000x128, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S100000x256, .f32⟩
  | 44 => ⟨S100000x256, .f32⟩
  | 45 => ⟨S100000x256, .f32⟩
  | 46 => ⟨S1x256, .f32⟩
  | 47 => ⟨S100000x256, .f32⟩
  | 48 => ⟨S100000x256, .f32⟩
  | 49 => ⟨S_, .f32⟩
  | 50 => ⟨S100000x256, .f32⟩
  | 51 => ⟨S100000x256, .f32⟩
  | 52 => ⟨S_, .i32⟩
  | 53 => ⟨S_, .f32⟩
  | 54 => ⟨S100000x256, .f32⟩
  | 55 => ⟨S100000x256, .f32⟩
  | 56 => ⟨S_, .f32⟩
  | 57 => ⟨S800000, .f32⟩
  | 58 => ⟨S_, .f32⟩
  | 59 => ⟨S100000, .f32⟩
  | 60 => ⟨S800000x1, .i32⟩
  | 61 => ⟨S100000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x256, .f32⟩
  | 71 => ⟨S_, .f32⟩
  | 72 => ⟨S100000x256, .f32⟩
  | 73 => ⟨S800000x1, .i32⟩
  | 74 => ⟨S100000x256, .f32⟩
  | 75 => ⟨S_, .f32⟩
  | 76 => ⟨S100000, .f32⟩
  | 77 => ⟨S100000, .f32⟩
  | 78 => ⟨S100000x1, .f32⟩
  | 79 => ⟨S100000x256, .f32⟩
  | 80 => ⟨S100000x256, .f32⟩
  | 81 => ⟨S100000x256, .f32⟩
  | 82 => ⟨S100000x256, .f32⟩
  | 83 => ⟨S100000x256, .f32⟩
  | 84 => ⟨S1x256, .f32⟩
  | 85 => ⟨S100000x256, .f32⟩
  | 86 => ⟨S100000x256, .f32⟩
  | 87 => ⟨S_, .f32⟩
  | 88 => ⟨S100000x256, .f32⟩
  | 89 => ⟨S100000x256, .f32⟩
  | 90 => ⟨S100000x256, .f32⟩
  | 91 => ⟨S1x256, .f32⟩
  | 92 => ⟨S100000x256, .f32⟩
  | 93 => ⟨S100000x256, .f32⟩
  | 94 => ⟨S100000x256, .f32⟩
  | 95 => ⟨S100000x64, .f32⟩
  | 96 => ⟨S_, .f32⟩
  | 97 => ⟨S800000, .f32⟩
  | 98 => ⟨S_, .f32⟩
  | 99 => ⟨S100000, .f32⟩
  | 100 => ⟨S800000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000, .f32⟩
  | 124 => ⟨S800000, .f32⟩
  | 125 => ⟨S_, .i32⟩
  | 126 => ⟨S800000, .i32⟩
  | 127 => ⟨S800000, .i1⟩
  | _ => ⟨S100000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S800000x1, .f32⟩
  | 7 => ⟨S800000x64, .f32⟩
  | 8 => ⟨S800000x64, .f32⟩
  | 9 => ⟨S_, .f32⟩
  | 10 => ⟨S100000x64, .f32⟩
  | 11 => ⟨S800000x1, .i32⟩
  | 12 => ⟨S100000x64, .f32⟩
  | 13 => ⟨S_, .f32⟩
  | 14 => ⟨S100000, .f32⟩
  | 15 => ⟨S100000, .f32⟩
  | 16 => ⟨S100000x1, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S800000, .f32⟩
  | 26 => ⟨S_, .f32⟩
  | 27 => ⟨S100000, .f32⟩
  | 28 => ⟨S800000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x1, .f32⟩
  | 63 => ⟨S800000x64, .f32⟩
  | 64 => ⟨S800000x64, .f32⟩
  | 65 => ⟨S_, .f32⟩
  | 66 => ⟨S100000x64, .f32⟩
  | 67 => ⟨S800000x1, .i32⟩
  | 68 => ⟨S100000x64, .f32⟩
  | 69 => ⟨S_, .f32⟩
  | 70 => ⟨S100000, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_call1_v0 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_c_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_16 : Ref sig .tc := ⟨.hbm, 115, rfl⟩
abbrev main_v78 : Ref sig .tc := ⟨.hbm, 116, rfl⟩
abbrev main_v79 : Ref sig .tc := ⟨.hbm, 117, rfl⟩
abbrev main_c_17 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_18 : Ref sig .tc := ⟨.hbm, 125, rfl⟩
abbrev main_v86 : Ref sig .tc := ⟨.hbm, 126, rfl⟩
abbrev main_v87 : Ref sig .tc := ⟨.hbm, 127, rfl⟩
abbrev main_c_19 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_21 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_22 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_24 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_25 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_27 : Ref sig .tc := ⟨.hbm, 171, rfl⟩
abbrev main_v123 : Ref sig .tc := ⟨.hbm, 172, rfl⟩
abbrev main_v124 : Ref sig .tc := ⟨.hbm, 173, rfl⟩
abbrev main_c_28 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_29 : Ref sig .tc := ⟨.hbm, 181, rfl⟩
abbrev main_v131 : Ref sig .tc := ⟨.hbm, 182, rfl⟩
abbrev main_v132 : Ref sig .tc := ⟨.hbm, 183, rfl⟩
abbrev main_c_30 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_31 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_32 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  pads_S100000x128_S100000x256_000_01280 : S100000x128.Pads (![0, 0] : Fin 2 → Nat) ![0, 128] ![0, 0] S100000x256
  h_S_ : 0 < S_.numel
  bcast_S100000x1_S100000x256_0_1 : S100000x1.BroadcastsInDim S100000x256 (![0, 1] : Fin 2 → Fin S100000x256.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.Spec.lean ====
/-
  The mathematics of the two programs, stage by stage, over the extended reals: one function per fused stage, index by
  index, over the literal shapes. N = 100000 nodes; feature widths 128, 256 and 128 (= 64 + 64).

  * `sage1`: the first mean-aggregation layer. Row i of the neighbour sum `agg` is scaled by the reciprocal degree
    `dinv i`, multiplied into `wl`; the node's own row of `x` goes through `wr`; the bias row is added; the result is
    clipped below at zero; the first 128 columns receive the row of `x` once more (the zero-padded residual).
  * `sage2`: the second layer, the same shape at width 256, plus the linear residual `x · wres + br` after the clip.
  * `xws`: the product with the concatenated output weights, each row scaled by the inverse square root degree.
  * `combine`: row i of (neighbour sum + own row) scaled by the inverse square root degree, plus the bias row.
-/
import Idealize.ShloMosaic.PureOps.Ideal
import Idealize.ShloMosaic.Lib.ValueIdx

noncomputable section

namespace Cert.Spec

open Idealize.ShloMosaic Idealize.ShloMosaic.ValueIdx

/-- A matrix of extended reals with `r` rows and `c` columns. -/
abbrev Mat (r c : Nat) : Type := (⟨2, ![r, c]⟩ : Shape).Idx → EReal

/-- The affine part of a mean-aggregation layer at (i, q): (agg i · dinv i) · wl + h i · wr + b, over `K` input features. -/
def lin {K Q : Nat} (agg h : Mat 100000 K) (dinv : Mat 100000 1) (wl wr : Mat K Q) (b : Mat 1 Q)
    (i : Fin 100000) (q : Fin Q) : EReal :=
  (∑ k : Fin K, (agg (ix2 i k) * dinv (ix2 i 0)) * wl (ix2 k q)) + (∑ k : Fin K, h (ix2 i k) * wr (ix2 k q)) + b (ix2 0 q)

/-- The first layer: the clipped affine part, plus the node's own features on the first 128 columns. -/
def sage1 (agg x : Mat 100000 128) (dinv : Mat 100000 1) (wl wr : Mat 128 256) (b : Mat 1 256) : Mat 100000 256 :=
  fun j =>
    if hq : (j 1).val < 128 then max (lin agg x dinv wl wr b (j 0) (j 1)) 0 + x (ix2 (j 0) ⟨(j 1).val, hq⟩)
    else max (lin agg x dinv wl wr b (j 0) (j 1)) 0

/-- The second layer: the clipped affine part at width 256, plus the linear residual of the input features. -/
def sage2 (agg h1 : Mat 100000 256) (x : Mat 100000 128) (dinv : Mat 100000 1) (wl wr : Mat 256 256) (wres : Mat 128 256)
    (b2 br : Mat 1 256) : Mat 100000 256 :=
  fun j => max (lin agg h1 dinv wl wr b2 (j 0) (j 1)) 0 + ((∑ k : Fin 128, x (ix2 (j 0) k) * wres (ix2 k (j 1))) + br (ix2 0 (j 1)))

/-- The output projection with each row scaled by the inverse square root degree. -/
def xws (h2 : Mat 100000 256) (wcat : Mat 256 128) (dinv : Mat 100000 1) : Mat 100000 128 :=
  fun j => (∑ k : Fin 256, h2 (ix2 (j 0) k) * wcat (ix2 k (j 1))) * dinv (ix2 (j 0) 0)

/-- The float one. -/
abbrev one : EReal := Ideal.ofBits .f32 0x3F800000#32

/-- The reciprocal in-degree column, with the degree clipped below at one: 1 / max(deg i, 1). -/
def rdeg (deg : (⟨1, ![100000]⟩ : Shape).Idx → EReal) : Mat 100000 1 :=
  fun j => Ideal.div one (max (deg (ix1 (j 0))) one)

/-- The inverse square root column of the degree counted with a self-loop: (deg i + 1)^(-1/2). -/
def rsdeg (deg : (⟨1, ![100000]⟩ : Shape).Idx → EReal) : Mat 100000 1 :=
  fun j => Ideal.rsqrt (deg (ix1 (j 0)) + one)

/-- The normalised aggregation: dinv i · (neighbour sum + own row) + bias. -/
def combine (scat xw : Mat 100000 128) (dinv : Mat 100000 1) (b : Mat 1 128) : Mat 100000 128 :=
  fun j => dinv (ix2 (j 0) 0) * (scat j + xw j) + b (ix2 0 (j 1))

end Cert.Spec

end
-- ==== Proof.KHost3.lean ====
/-
  The host operations after the third kernel launch: the two results are the left and the right 64 columns of the
  launch's 128-column output.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KHost3

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

set_option maxHeartbeats 2000000 in
/-- The first result at (i, q) is the launch's output at (i, q). -/
theorem v56_apply (c : Dev nD) (OUT : (⟨S100000x128, .f32⟩ : BufTy).Contents (Elt Ideal))
    (h : W6 m ρ c (Proc.devRef .tc main_v55) = OUT) (i : Fin 100000) (q : Fin 64) :
    W7 m ρ c (Proc.devRef .tc main_v56) (ix2 i q) = OUT (ix2 i ⟨q.val, by have := q.isLt; omega⟩) := by
  have e : W7 m ρ c (Proc.devRef .tc main_v56) = extractStridedSlice S100000x64 ![0, 0] OUT Facts₀.slices_S100000x128_S100000x64_0_0 := by
    show StableHlo.after hostOps3 (W6 m ρ c) (Proc.devRef .tc main_v56) = _
    after_results
    rw [h]
  rw [e]
  exact extractStridedSlice_apply ![0, 0] OUT _ (ix2 i q) (ix2 i ⟨q.val, by have := q.isLt; omega⟩) (fun a => by
    match a with
    | ⟨0, _⟩ => show i.val = 0 + i.val; omega
    | ⟨1, _⟩ => show q.val = 0 + q.val; omega)

set_option maxHeartbeats 2000000 in
/-- The second result at (i, q) is the launch's output at (i, 64 + q). -/
theorem v57_apply (c : Dev nD) (OUT : (⟨S100000x128, .f32⟩ : BufTy).Contents (Elt Ideal))
    (h : W6 m ρ c (Proc.devRef .tc main_v55) = OUT) (i : Fin 100000) (q : Fin 64) :
    W7 m ρ c (Proc.devRef .tc main_v57) (ix2 i q) = OUT (ix2 i ⟨64 + q.val, by have := q.isLt; omega⟩) := by
  have e : W7 m ρ c (Proc.devRef .tc main_v57) = extractStridedSlice S100000x64 ![0, 64] OUT Facts₀.slices_S100000x128_S100000x64_0_64 := by
    show StableHlo.after hostOps3 (W6 m ρ c) (Proc.devRef .tc main_v57) = _
    after_results
    rw [h]
  rw [e]
  exact extractStridedSlice_apply ![0, 64] OUT _ (ix2 i q) (ix2 i ⟨64 + q.val, by have := q.isLt; omega⟩) (fun a => by
    match a with
    | ⟨0, _⟩ => show i.val = 0 + i.val; omega
    | ⟨1, _⟩ => show 64 + q.val = 64 + q.val; rfl)

end Cert.KernelIdeal.KHost3

end
-- ==== Proof.KHost0.lean ====
/-
  The host operations before the first kernel launch, read as functions of the argument arrays. The kernel's program
  computes, from the edge list, the in-degree of every node, its clipped reciprocal and the inverse square root of the
  degree counted with a self-loop (each laid out as a column), gathers the source nodes' feature rows and adds them
  into the destination rows. These are the same operations the reference applies, so each array is the reference's
  stage of the same arguments; the two degree columns and the bias row are read index by index.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KHost0

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

set_option maxHeartbeats 2000000 in
theorem v27 (c : Dev nD) : W1 m ρ c (Proc.devRef .tc main_v27) = Cert.ReferenceIdeal.Read.val_main_v17 (F := Ideal) (m ((c.tc : Thread nD τ).loc main_arg0)) (m ((c.tc : Thread nD τ).loc main_arg1)) := by
  show StableHlo.after hostOps0 (W0 m ρ c) (Proc.devRef .tc main_v27) = _
  after_results_simp
  rfl

set_option maxHeartbeats 2000000 in
theorem v1 (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl

set_option maxHeartbeats 2000000 in
theorem v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl

set_option maxHeartbeats 2000000 in
theorem arg0 (c : Dev nD) : W1 m ρ c (Proc.devRef .tc main_arg0) = (m ((c.tc : Thread nD τ).loc main_arg0)) := by
  show StableHlo.after hostOps0 (W0 m ρ c) (Proc.devRef .tc main_arg0) = _
  after_results_simp

set_option maxHeartbeats 2000000 in
theorem arg2 (c : Dev nD) : W1 m ρ c (Proc.devRef .tc main_arg2) = (m ((c.tc : Thread nD τ).loc main_arg2)) := by
  show StableHlo.after hostOps0 (W0 m ρ c) (Proc.devRef .tc main_arg2) = _
  after_results_simp

set_option maxHeartbeats 2000000 in
theorem arg3 (c : Dev nD) : W1 m ρ c (Proc.devRef .tc main_arg3) = (m ((c.tc : Thread nD τ).loc main_arg3)) := by
  show StableHlo.after hostOps0 (W0 m ρ c) (Proc.devRef .tc main_arg3) = _
  after_results_simp

set_option maxHeartbeats 2000000 in
theorem arg1 (c : Dev nD) : W1 m ρ c (Proc.devRef .tc main_arg1) = (m ((c.tc : Thread nD τ).loc main_arg1)) := by
  show StableHlo.after hostOps0 (W0 m ρ c) (Proc.devRef .tc main_arg1) = _
  after_results_simp

set_option maxHeartbeats 2000000 in
theorem arg4 (c : Dev nD) : W1 m ρ c (Proc.devRef .tc main_arg4) = (m ((c.tc : Thread nD τ).loc main_arg4)) := by
  show StableHlo.after hostOps0 (W0 m ρ c) (Proc.devRef .tc main_arg4) = _
  after_results_simp

set_option maxHeartbeats 2000000 in
theorem arg5 (c : Dev nD) : W1 m ρ c (Proc.devRef .tc main_arg5) = (m ((c.tc : Thread nD τ).loc main_arg5)) := by
  show StableHlo.after hostOps0 (W0 m ρ c) (Proc.devRef .tc main_arg5) = _
  after_results_simp

set_option maxHeartbeats 2000000 in
theorem arg6 (c : Dev nD) : W1 m ρ c (Proc.devRef .tc main_arg6) = (m ((c.tc : Thread nD τ).loc main_arg6)) := by
  show StableHlo.after hostOps0 (W0 m ρ c) (Proc.devRef .tc main_arg6) = _
  after_results_simp

set_option maxHeartbeats 2000000 in
theorem arg7 (c : Dev nD) : W1 m ρ c (Proc.devRef .tc main_arg7) = (m ((c.tc : Thread nD τ).loc main_arg7)) := by
  show StableHlo.after hostOps0 (W0 m ρ c) (Proc.devRef .tc main_arg7) = _
  after_results_simp

set_option maxHeartbeats 2000000 in
theorem arg8 (c : Dev nD) : W1 m ρ c (Proc.devRef .tc main_arg8) = (m ((c.tc : Thread nD τ).loc main_arg8)) := by
  show StableHlo.after hostOps0 (W0 m ρ c) (Proc.devRef .tc main_arg8) = _
  after_results_simp

set_option maxHeartbeats 2000000 in
theorem arg9 (c : Dev nD) : W1 m ρ c (Proc.devRef .tc main_arg9) = (m ((c.tc : Thread nD τ).loc main_arg9)) := by
  show StableHlo.after hostOps0 (W0 m ρ c) (Proc.devRef .tc main_arg9) = _
  after_results_simp

set_option maxHeartbeats 2000000 in
theorem arg10 (c : Dev nD) : W1 m ρ c (Proc.devRef .tc main_arg10) = (m ((c.tc : Thread nD τ).loc main_arg10)) := by
  show StableHlo.after hostOps0 (W0 m ρ c) (Proc.devRef .tc main_arg10) = _
  after_results_simp

set_option maxHeartbeats 2000000 in
theorem arg11 (c : Dev nD) : W1 m ρ c (Proc.devRef .tc main_arg11) = (m ((c.tc : Thread nD τ).loc main_arg11)) := by
  show StableHlo.after hostOps0 (W0 m ρ c) (Proc.devRef .tc main_arg11) = _
  after_results_simp

set_option maxHeartbeats 2000000 in
theorem arg12 (c : Dev nD) : W1 m ρ c (Proc.devRef .tc main_arg12) = (m ((c.tc : Thread nD τ).loc main_arg12)) := by
  show StableHlo.after hostOps0 (W0 m ρ c) (Proc.devRef .tc main_arg12) = _
  after_results_simp

set_option maxHeartbeats 2000000 in
theorem arg13 (c : Dev nD) : W1 m ρ c (Proc.devRef .tc main_arg13) = (m ((c.tc : Thread nD τ).loc main_arg13)) := by
  show StableHlo.after hostOps0 (W0 m ρ c) (Proc.devRef .tc main_arg13) = _
  after_results_simp

/-- A vector cast to a one-column matrix reads, at (i, 0), its entry i. -/
theorem col_apply {N : Nat} (v : (⟨1, ![N]⟩ : Shape).Idx → EReal) (h : (⟨1, ![N]⟩ : Shape).ShapeCasts ⟨2, ![N, 1]⟩)
    (j : (⟨2, ![N, 1]⟩ : Shape).Idx) : shapeCast ⟨2, ![N, 1]⟩ v h j = v (ix1 (j 0)) :=
  shapeCast_apply v h j (ix1 (j 0)) (by
    have h1 : (j 1).val < 1 := (j 1).isLt
    rw [Shape.rowMajor_val_one, Shape.rowMajor_val_two]
    show (j 0).val = (j 0).val * 1 + (j 1).val
    omega)

/-- The operations "one divided by the maximum of the degree and one, as a column" are the specification's column. -/
theorem rdeg_ops (D : (⟨1, ![100000]⟩ : Shape).Idx → EReal) (hb : (⟨0, ![]⟩ : Shape).BroadcastsInDim ⟨1, ![100000]⟩ ![])
    (hs : (⟨1, ![100000]⟩ : Shape).ShapeCasts ⟨2, ![100000, 1]⟩) :
    shapeCast ⟨2, ![100000, 1]⟩ (Host.divf (F := Ideal) (φ := .f32)
      (broadcastInDim ⟨1, ![100000]⟩ ![] hb (constant (F := Ideal) ⟨0, ![]⟩ .f32 0x3F800000#32))
      (maximumf D (broadcastInDim ⟨1, ![100000]⟩ ![] hb (constant (F := Ideal) ⟨0, ![]⟩ .f32 0x3F800000#32)))) hs
    = Cert.Spec.rdeg D := by
  funext j
  exact (col_apply _ hs j).trans rfl

/-- The operations "inverse square root of the degree plus one, as a column" are the specification's column. -/
theorem rsdeg_ops (D : (⟨1, ![100000]⟩ : Shape).Idx → EReal) (hb : (⟨0, ![]⟩ : Shape).BroadcastsInDim ⟨1, ![100000]⟩ ![])
    (hs : (⟨1, ![100000]⟩ : Shape).ShapeCasts ⟨2, ![100000, 1]⟩) :
    shapeCast ⟨2, ![100000, 1]⟩ (Host.rsqrt (F := Ideal) (φ := .f32)
      (addf D (broadcastInDim ⟨1, ![100000]⟩ ![] hb (constant (F := Ideal) ⟨0, ![]⟩ .f32 0x3F800000#32)))) hs
    = Cert.Spec.rsdeg D := by
  funext j
  exact (col_apply _ hs j).trans rfl

set_option maxHeartbeats 2000000 in
/-- The reciprocal-degree column: entry (i, 0) is 1 / max(deg i, 1). -/
theorem v12 (c : Dev nD) : W1 m ρ c (Proc.devRef .tc main_v12) = Cert.Spec.rdeg (Cert.ReferenceIdeal.Read.val_main_v7 (F := Ideal) (m ((c.tc : Thread nD τ).loc main_arg1))) := by
  show StableHlo.after hostOps0 (W0 m ρ c) (Proc.devRef .tc main_v12) = _
  after_results_simp
  exact rdeg_ops (Cert.ReferenceIdeal.Read.val_main_v7 (F := Ideal) (m ((c.tc : Thread nD τ).loc main_arg1))) _ _

set_option maxHeartbeats 2000000 in
/-- The inverse-square-root column: entry (i, 0) is (deg i + 1)^(-1/2). -/
theorem v16 (c : Dev nD) : W1 m ρ c (Proc.devRef .tc main_v16) = Cert.Spec.rsdeg (Cert.ReferenceIdeal.Read.val_main_v7 (F := Ideal) (m ((c.tc : Thread nD τ).loc main_arg1))) := by
  show StableHlo.after hostOps0 (W0 m ρ c) (Proc.devRef .tc main_v16) = _
  after_results_simp
  exact rsdeg_ops (Cert.ReferenceIdeal.Read.val_main_v7 (F := Ideal) (m ((c.tc : Thread nD τ).loc main_arg1))) _ _

/-- A vector laid out as one row. -/
def row {n : Nat} (v : (⟨1, ![n]⟩ : Shape).Idx → EReal) : Cert.Spec.Mat 1 n := fun j => v (ix1 (j 1))

set_option maxHeartbeats 2000000 in
/-- The first layer's bias as a row. -/
theorem v17 (c : Dev nD) : W1 m ρ c (Proc.devRef .tc main_v17) = row (m ((c.tc : Thread nD τ).loc main_arg4)) := by
  show StableHlo.after hostOps0 (W0 m ρ c) (Proc.devRef .tc main_v17) = _
  after_results_simp
  funext j
  obtain ⟨u, q, rfl⟩ : ∃ (u : Fin 1) (q : Fin 256), j = ix2 u q := ⟨j 0, j 1, eq_ix2 j⟩
  exact shapeCast_a_1a_apply _ _ u q

end Cert.KernelIdeal.KHost0

end
-- ==== Proof.KHost1.lean ====
/-
  The host operations between the first and the second kernel launch. What the first launch does not write is as the
  first stretch left it; the second stretch gathers the source nodes' rows of the first layer's output and adds them
  into the destination rows, lays the second layer's two bias vectors out as rows and puts the two output weight
  matrices side by side.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost0
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KHost1

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

open Cert.KernelIdeal.KHost0 (row)

/-! ## Across the first launch -/

theorem w2_v1 (c : Dev nD) : W2 m ρ c (Proc.devRef .tc main_v1) = W1 m ρ c (Proc.devRef .tc main_v1) := W2_of_ne m ρ c main_v1 (by decide)

theorem w2_v3 (c : Dev nD) : W2 m ρ c (Proc.devRef .tc main_v3) = W1 m ρ c (Proc.devRef .tc main_v3) := W2_of_ne m ρ c main_v3 (by decide)

theorem w2_v16 (c : Dev nD) : W2 m ρ c (Proc.devRef .tc main_v16) = W1 m ρ c (Proc.devRef .tc main_v16) := W2_of_ne m ρ c main_v16 (by decide)

theorem w2_arg5 (c : Dev nD) : W2 m ρ c (Proc.devRef .tc main_arg5) = (m ((c.tc : Thread nD τ).loc main_arg5)) := (W2_of_ne m ρ c main_arg5 (by decide)).trans (KHost0.arg5 m ρ c)

theorem w2_arg6 (c : Dev nD) : W2 m ρ c (Proc.devRef .tc main_arg6) = (m ((c.tc : Thread nD τ).loc main_arg6)) := (W2_of_ne m ρ c main_arg6 (by decide)).trans (KHost0.arg6 m ρ c)

theorem w2_arg7 (c : Dev nD) : W2 m ρ c (Proc.devRef .tc main_arg7) = (m ((c.tc : Thread nD τ).loc main_arg7)) := (W2_of_ne m ρ c main_arg7 (by decide)).trans (KHost0.arg7 m ρ c)

theorem w2_arg8 (c : Dev nD) : W2 m ρ c (Proc.devRef .tc main_arg8) = (m ((c.tc : Thread nD τ).loc main_arg8)) := (W2_of_ne m ρ c main_arg8 (by decide)).trans (KHost0.arg8 m ρ c)

theorem w2_arg9 (c : Dev nD) : W2 m ρ c (Proc.devRef .tc main_arg9) = (m ((c.tc : Thread nD τ).loc main_arg9)) := (W2_of_ne m ρ c main_arg9 (by decide)).trans (KHost0.arg9 m ρ c)

theorem w2_arg10 (c : Dev nD) : W2 m ρ c (Proc.devRef .tc main_arg10) = (m ((c.tc : Thread nD τ).loc main_arg10)) := (W2_of_ne m ρ c main_arg10 (by decide)).trans (KHost0.arg10 m ρ c)

theorem w2_arg11 (c : Dev nD) : W2 m ρ c (Proc.devRef .tc main_arg11) = (m ((c.tc : Thread nD τ).loc main_arg11)) := (W2_of_ne m ρ c main_arg11 (by decide)).trans (KHost0.arg11 m ρ c)

theorem w2_arg12 (c : Dev nD) : W2 m ρ c (Proc.devRef .tc main_arg12) = (m ((c.tc : Thread nD τ).loc main_arg12)) := (W2_of_ne m ρ c main_arg12 (by decide)).trans (KHost0.arg12 m ρ c)

theorem w2_arg13 (c : Dev nD) : W2 m ρ c (Proc.devRef .tc main_arg13) = (m ((c.tc : Thread nD τ).loc main_arg13)) := (W2_of_ne m ρ c main_arg13 (by decide)).trans (KHost0.arg13 m ρ c)

/-- The node features are the first launch's window 1, read and left as they were. -/
theorem w2_arg0 (c : Dev nD) : W2 m ρ c (Proc.devRef .tc main_arg0) = (m ((c.tc : Thread nD τ).loc main_arg0)) :=
  ((W2_arr m ρ c 1).trans (((dat0 (V1 m ρ) c).arrAt_in 1 rfl _).trans (A_eq0 (V1 m ρ) c 1))).trans (KHost0.arg0 m ρ c)

/-- The reciprocal-degree column is the first launch's window 2, read and left as it was. -/
theorem w2_v12 (c : Dev nD) : W2 m ρ c (Proc.devRef .tc main_v12) = Cert.Spec.rdeg (Cert.ReferenceIdeal.Read.val_main_v7 (F := Ideal) (m ((c.tc : Thread nD τ).loc main_arg1))) :=
  ((W2_arr m ρ c 2).trans (((dat0 (V1 m ρ) c).arrAt_in 2 rfl _).trans (A_eq0 (V1 m ρ) c 2))).trans (KHost0.v12 m ρ c)

/-! ## The second stretch -/

set_option maxHeartbeats 4000000 in
/-- The neighbour sum of the first layer's output `H1`: the rows gathered at the sources, added at the destinations. -/
theorem v41 (c : Dev nD) (H1 : (⟨Cert.ReferenceIdeal.S100000x256, .f32⟩ : BufTy).Contents (Elt Ideal)) (h28 : W2 m ρ c (Proc.devRef .tc main_v28) = H1) :
    W3 m ρ c (Proc.devRef .tc main_v41)
      = Host.scatterAdd (F := Ideal) (φ := .f32) Cert.ReferenceIdeal.scatter_S100000x256_S800000x1_S800000x256_1_0_0_1 (Cert.ReferenceIdeal.Read.val_main_v43 (F := Ideal))
          (Cert.ReferenceIdeal.Read.val_main_v44 (F := Ideal) (m ((c.tc : Thread nD τ).loc main_arg1)))
          (Host.gather Cert.ReferenceIdeal.gather_S100000x256_S800000x1_S800000x256_1_0_n_n_0_1_1256 H1 (Cert.ReferenceIdeal.Read.val_main_v41 (F := Ideal) (m ((c.tc : Thread nD τ).loc main_arg1)))) := by
  show StableHlo.after hostOps1 (W2 m ρ c) (Proc.devRef .tc main_v41) = _
  after_results_simp
  rw [h28, w2_v1, w2_v3, KHost0.v1, KHost0.v3]
  rfl

set_option maxHeartbeats 2000000 in
theorem v28 (c : Dev nD) : W3 m ρ c (Proc.devRef .tc main_v28) = W2 m ρ c (Proc.devRef .tc main_v28) := by
  show StableHlo.after hostOps1 (W2 m ρ c) (Proc.devRef .tc main_v28) = _
  after_results_simp

set_option maxHeartbeats 2000000 in
theorem s_arg0 (c : Dev nD) : W3 m ρ c (Proc.devRef .tc main_arg0) = (m ((c.tc : Thread nD τ).loc main_arg0)) := by
  show StableHlo.after hostOps1 (W2 m ρ c) (Proc.devRef .tc main_arg0) = _
  after_results_simp
  exact w2_arg0 m ρ c

set_option maxHeartbeats 2000000 in
theorem s_v12 (c : Dev nD) : W3 m ρ c (Proc.devRef .tc main_v12) = Cert.Spec.rdeg (Cert.ReferenceIdeal.Read.val_main_v7 (F := Ideal) (m ((c.tc : Thread nD τ).loc main_arg1))) := by
  show StableHlo.after hostOps1 (W2 m ρ c) (Proc.devRef .tc main_v12) = _
  after_results_simp
  exact w2_v12 m ρ c

set_option maxHeartbeats 2000000 in
theorem s_v16 (c : Dev nD) : W3 m ρ c (Proc.devRef .tc main_v16) = Cert.Spec.rsdeg (Cert.ReferenceIdeal.Read.val_main_v7 (F := Ideal) (m ((c.tc : Thread nD τ).loc main_arg1))) := by
  show StableHlo.after hostOps1 (W2 m ρ c) (Proc.devRef .tc main_v16) = _
  after_results_simp
  exact (w2_v16 m ρ c).trans (KHost0.v16 m ρ c)

set_option maxHeartbeats 2000000 in
theorem s_arg5 (c : Dev nD) : W3 m ρ c (Proc.devRef .tc main_arg5) = (m ((c.tc : Thread nD τ).loc main_arg5)) := by
  show StableHlo.after hostOps1 (W2 m ρ c) (Proc.devRef .tc main_arg5) = _
  after_results_simp
  exact w2_arg5 m ρ c

set_option maxHeartbeats 2000000 in
theorem s_arg6 (c : Dev nD) : W3 m ρ c (Proc.devRef .tc main_arg6) = (m ((c.tc : Thread nD τ).loc main_arg6)) := by
  show StableHlo.after hostOps1 (W2 m ρ c) (Proc.devRef .tc main_arg6) = _
  after_results_simp
  exact w2_arg6 m ρ c

set_option maxHeartbeats 2000000 in
theorem s_arg8 (c : Dev nD) : W3 m ρ c (Proc.devRef .tc main_arg8) = (m ((c.tc : Thread nD τ).loc main_arg8)) := by
  show StableHlo.after hostOps1 (W2 m ρ c) (Proc.devRef .tc main_arg8) = _
  after_results_simp
  exact w2_arg8 m ρ c

set_option maxHeartbeats 2000000 in
theorem s_arg10 (c : Dev nD) : W3 m ρ c (Proc.devRef .tc main_arg10) = (m ((c.tc : Thread nD τ).loc main_arg10)) := by
  show StableHlo.after hostOps1 (W2 m ρ c) (Proc.devRef .tc main_arg10) = _
  after_results_simp
  exact w2_arg10 m ρ c

set_option maxHeartbeats 2000000 in
theorem s_arg11 (c : Dev nD) : W3 m ρ c (Proc.devRef .tc main_arg11) = (m ((c.tc : Thread nD τ).loc main_arg11)) := by
  show StableHlo.after hostOps1 (W2 m ρ c) (Proc.devRef .tc main_arg11) = _
  after_results_simp
  exact w2_arg11 m ρ c

set_option maxHeartbeats 2000000 in
theorem s_arg12 (c : Dev nD) : W3 m ρ c (Proc.devRef .tc main_arg12) = (m ((c.tc : Thread nD τ).loc main_arg12)) := by
  show StableHlo.after hostOps1 (W2 m ρ c) (Proc.devRef .tc main_arg12) = _
  after_results_simp
  exact w2_arg12 m ρ c

set_option maxHeartbeats 2000000 in
theorem s_arg13 (c : Dev nD) : W3 m ρ c (Proc.devRef .tc main_arg13) = (m ((c.tc : Thread nD τ).loc main_arg13)) := by
  show StableHlo.after hostOps1 (W2 m ρ c) (Proc.devRef .tc main_arg13) = _
  after_results_simp
  exact w2_arg13 m ρ c

set_option maxHeartbeats 2000000 in
/-- The second layer's bias as a row. -/
theorem v29 (c : Dev nD) : W3 m ρ c (Proc.devRef .tc main_v29) = row (m ((c.tc : Thread nD τ).loc main_arg7)) := by
  show StableHlo.after hostOps1 (W2 m ρ c) (Proc.devRef .tc main_v29) = _
  after_results_simp
  rw [w2_arg7]
  funext j
  obtain ⟨u, q, rfl⟩ : ∃ (u : Fin 1) (q : Fin 256), j = ix2 u q := ⟨j 0, j 1, eq_ix2 j⟩
  exact shapeCast_a_1a_apply _ _ u q

set_option maxHeartbeats 2000000 in
/-- The residual's bias as a row. -/
theorem v30 (c : Dev nD) : W3 m ρ c (Proc.devRef .tc main_v30) = row (m ((c.tc : Thread nD τ).loc main_arg9)) := by
  show StableHlo.after hostOps1 (W2 m ρ c) (Proc.devRef .tc main_v30) = _
  after_results_simp
  rw [w2_arg9]
  funext j
  obtain ⟨u, q, rfl⟩ : ∃ (u : Fin 1) (q : Fin 256), j = ix2 u q := ⟨j 0, j 1, eq_ix2 j⟩
  exact shapeCast_a_1a_apply _ _ u q

set_option maxHeartbeats 2000000 in
/-- The two output weight matrices side by side. -/
theorem v31 (c : Dev nD) : W3 m ρ c (Proc.devRef .tc main_v31)
    = concatenate S256x128 1 [⟨S256x64, (m ((c.tc : Thread nD τ).loc main_arg10))⟩, ⟨S256x64, (m ((c.tc : Thread nD τ).loc main_arg12))⟩] Facts₀.concatenates_S256x64_S256x64_S256x128_d1 := by
  show StableHlo.after hostOps1 (W2 m ρ c) (Proc.devRef .tc main_v31) = _
  after_results
  rw [w2_arg10, w2_arg12]

end Cert.KernelIdeal.KHost1

end
-- ==== Proof.KHost2.lean ====
/-
  The host operations between the second and the third kernel launch. What the second launch does not write is as the
  second stretch left it; the third stretch gathers the source nodes' rows of the scaled projection and adds them into
  the destination rows, and lays the two output bias vectors, one after the other, out as one row.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost1
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KHost2

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The edge lists at the later boundaries -/

set_option maxHeartbeats 2000000 in
theorem w3_v1 (c : Dev nD) : W3 m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results_simp
  exact (KHost1.w2_v1 m ρ c).trans (KHost0.v1 m ρ c)

set_option maxHeartbeats 2000000 in
theorem w3_v3 (c : Dev nD) : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results_simp
  exact (KHost1.w2_v3 m ρ c).trans (KHost0.v3 m ρ c)

theorem w4_v1 (c : Dev nD) : W4 m ρ c (Proc.devRef .tc main_v1) = Cert.ReferenceIdeal.Read.val_main_v1 (F := Ideal) (m ((c.tc : Thread nD τ).loc main_arg1)) :=
  (W4_of_ne m ρ c main_v1 (by decide)).trans (w3_v1 m ρ c)

theorem w4_v3 (c : Dev nD) : W4 m ρ c (Proc.devRef .tc main_v3) = Cert.ReferenceIdeal.Read.val_main_v3 (F := Ideal) (m ((c.tc : Thread nD τ).loc main_arg1)) :=
  (W4_of_ne m ρ c main_v3 (by decide)).trans (w3_v3 m ρ c)

theorem w4_arg11 (c : Dev nD) : W4 m ρ c (Proc.devRef .tc main_arg11) = (m ((c.tc : Thread nD τ).loc main_arg11)) :=
  (W4_of_ne m ρ c main_arg11 (by decide)).trans (KHost1.s_arg11 m ρ c)

theorem w4_arg13 (c : Dev nD) : W4 m ρ c (Proc.devRef .tc main_arg13) = (m ((c.tc : Thread nD τ).loc main_arg13)) :=
  (W4_of_ne m ρ c main_arg13 (by decide)).trans (KHost1.s_arg13 m ρ c)

/-- The inverse-square-root column is the second launch's window 4, read and left as it was. -/
theorem w4_v16 (c : Dev nD) : W4 m ρ c (Proc.devRef .tc main_v16) = Cert.Spec.rsdeg (Cert.ReferenceIdeal.Read.val_main_v7 (F := Ideal) (m ((c.tc : Thread nD τ).loc main_arg1))) :=
  ((W4_arr m ρ c 4).trans (((dat1 (V3 m ρ) c).arrAt_in 4 rfl _).trans (A_eq1 (V3 m ρ) c 4))).trans (KHost1.s_v16 m ρ c)

/-! ## The third stretch -/

set_option maxHeartbeats 4000000 in
/-- The neighbour sum of the scaled projection `XW`: the rows gathered at the sources, added at the destinations. -/
theorem v52 (c : Dev nD) (XW : (⟨Cert.ReferenceIdeal.S100000x128, .f32⟩ : BufTy).Contents (Elt Ideal))
    (h : W4 m ρ c (Proc.devRef .tc main_v42_1) = XW) :
    W5 m ρ c (Proc.devRef .tc main_v52)
      = Host.scatterAdd (F := Ideal) (φ := .f32) Cert.ReferenceIdeal.scatter_S100000x128_S800000x1_S800000x128_1_0_0_1 (Cert.ReferenceIdeal.Read.val_main_v15 (F := Ideal))
          (Cert.ReferenceIdeal.Read.val_main_v16 (F := Ideal) (m ((c.tc : Thread nD τ).loc main_arg1)))
          (Host.gather Cert.ReferenceIdeal.gather_S100000x128_S800000x1_S800000x128_1_0_n_n_0_1_1128 XW (Cert.ReferenceIdeal.Read.val_main_v13 (F := Ideal) (m ((c.tc : Thread nD τ).loc main_arg1)))) := by
  show StableHlo.after hostOps2 (W4 m ρ c) (Proc.devRef .tc main_v52) = _
  after_results_simp
  rw [h, w4_v1, w4_v3]
  rfl

set_option maxHeartbeats 2000000 in
theorem s_v42_1 (c : Dev nD) : W5 m ρ c (Proc.devRef .tc main_v42_1) = W4 m ρ c (Proc.devRef .tc main_v42_1) := by
  show StableHlo.after hostOps2 (W4 m ρ c) (Proc.devRef .tc main_v42_1) = _
  after_results_simp

set_option maxHeartbeats 2000000 in
theorem s_v16 (c : Dev nD) : W5 m ρ c (Proc.devRef .tc main_v16) = Cert.Spec.rsdeg (Cert.ReferenceIdeal.Read.val_main_v7 (F := Ideal) (m ((c.tc : Thread nD τ).loc main_arg1))) := by
  show StableHlo.after hostOps2 (W4 m ρ c) (Proc.devRef .tc main_v16) = _
  after_results_simp
  exact w4_v16 m ρ c

/-- The two output bias vectors, one after the other, as one row. -/
def bcat (b1 b2 : (⟨1, ![64]⟩ : Shape).Idx → EReal) : Cert.Spec.Mat 1 128 :=
  fun j => if h : (j 1).val < 64 then b1 (ix1 ⟨(j 1).val, h⟩) else b2 (ix1 ⟨(j 1).val - 64, by have := (j 1).isLt; simp at this; omega⟩)

set_option maxHeartbeats 2000000 in
theorem v54 (c : Dev nD) : W5 m ρ c (Proc.devRef .tc main_v54) = bcat (m ((c.tc : Thread nD τ).loc main_arg11)) (m ((c.tc : Thread nD τ).loc main_arg13)) := by
  show StableHlo.after hostOps2 (W4 m ρ c) (Proc.devRef .tc main_v54) = _
  after_results
  rw [w4_arg11, w4_arg13]
  funext j
  obtain ⟨u, q, rfl⟩ : ∃ (u : Fin 1) (q : Fin 128), j = ix2 u q := ⟨j 0, j 1, eq_ix2 j⟩
  refine (shapeCast_a_1a_apply _ _ u q).trans ?_
  unfold bcat
  by_cases hq : q.val < 64
  · rw [dif_pos (show ((ix2 u q : (⟨2, ![1, 128]⟩ : Shape).Idx) 1).val < 64 from hq)]
    exact concatenate_pair_apply_left (t := S128) (s₁ := S64) (s₂ := S64) 0 _ _ _ (ix1 q) rfl (ix1 ⟨q.val, hq⟩) (fun b => by
      obtain rfl : b = 0 := Subsingleton.elim _ _
      rfl)
  · rw [dif_neg (show ¬ ((ix2 u q : (⟨2, ![1, 128]⟩ : Shape).Idx) 1).val < 64 from hq)]
    exact concatenate_pair_apply_right (t := S128) (s₁ := S64) (s₂ := S64) 0 _ _ _ (ix1 q) rfl rfl (ix1 ⟨q.val - 64, by have := q.isLt; omega⟩)
      (fun b hb => absurd (Subsingleton.elim _ _) hb)
      (by show q.val - 64 + 64 = q.val; omega)

end Cert.KernelIdeal.KHost2

end
-- ==== Proof.Region0Payload.lean ====
/-
  One block of 4000 rows of the first mean-aggregation layer, read entry by entry over the extended reals.

  For a block of the neighbour sums `agg`, of the node features `x` and of the reciprocal degrees `dinv`, with the
  weight matrices `wl`, `wr` and the bias row `b`, the layer computes at row `p` and column `q`
      max ( Σₖ (agg p k · dinv p) · wl k q  +  Σₖ x p k · wr k q  +  b q , 0 ),
  and adds `x p q` on the columns `q < 128`. The block is produced as two halves of 128 columns: the left half carries
  the residual `x`, the right half does not. Each half is a column slice of one clipped affine map, and each product with
  a weight matrix, accumulated from zero, is the plain sum over the 128 input features.
-/
import proofs.«125124_j61194694033656_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.ValueIdx Cert.KernelIdeal Cert.KernelIdeal.Gen

/-- A column of `a` entries spread along `b` lanes reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Where the block product reads its operands: the left one at (row of the output, contraction index), the right one at
    (contraction index, column of the output). -/
theorem lhs_row (i : S4000x256.Idx) (k : dot_S4000x128_S128x256_S4000x256_1_0_0_1_n_n.contr.Idx) :
    (dot_S4000x128_S128x256_S4000x256_1_0_0_1_n_n.lhsIdx i k 0).val = (i 0).val := by
  unfold DotDims.lhsIdx
  rw [dif_neg (show ¬(0 : Fin S4000x128.rank) ∈ dot_S4000x128_S128x256_S4000x256_1_0_0_1_n_n.lhsBatch by decide),
    dif_pos (show (0 : Fin S4000x128.rank) ∈ dot_S4000x128_S128x256_S4000x256_1_0_0_1_n_n.lhsNonContracting by decide)]
  rfl
theorem lhs_col (i : S4000x256.Idx) (k : dot_S4000x128_S128x256_S4000x256_1_0_0_1_n_n.contr.Idx) :
    (dot_S4000x128_S128x256_S4000x256_1_0_0_1_n_n.lhsIdx i k 1).val = (k ⟨0, by decide⟩).val :=
  dot_S4000x128_S128x256_S4000x256_1_0_0_1_n_n.lhsIdx_val_of_single rfl i k
theorem rhs_row (i : S4000x256.Idx) (k : dot_S4000x128_S128x256_S4000x256_1_0_0_1_n_n.contr.Idx) :
    (dot_S4000x128_S128x256_S4000x256_1_0_0_1_n_n.rhsIdx i k 0).val = (k ⟨0, by decide⟩).val :=
  dot_S4000x128_S128x256_S4000x256_1_0_0_1_n_n.rhsIdx_val_of_single rfl i k
theorem rhs_col (i : S4000x256.Idx) (k : dot_S4000x128_S128x256_S4000x256_1_0_0_1_n_n.contr.Idx) :
    (dot_S4000x128_S128x256_S4000x256_1_0_0_1_n_n.rhsIdx i k 1).val = (i 1).val := by
  unfold DotDims.rhsIdx
  rw [dif_neg (show ¬(1 : Fin S128x256.rank) ∈ dot_S4000x128_S128x256_S4000x256_1_0_0_1_n_n.rhsBatch by decide),
    dif_pos (show (1 : Fin S128x256.rank) ∈ dot_S4000x128_S128x256_S4000x256_1_0_0_1_n_n.rhsNonContracting by decide)]
  rfl

/-- The product of a block of 4000 rows with a 128 × 256 weight matrix, started from zero, at `(p, q)`:
    the sum over the 128 features of row `p` times column `q`. -/
theorem matmul_zero_apply (l : FVec Ideal S4000x128 .f32) (r : FVec Ideal S128x256 .f32) (p : Fin 4000) (q : Fin 256) :
    matmul dot_S4000x128_S128x256_S4000x256_1_0_0_1_n_n (some .fp32) l r (constant (F := Ideal) S4000x256 .f32 0x00000000#32) (ix2 p q)
      = ∑ k : Fin 128, l (ix2 p k) * r (ix2 k q) := by
  refine (Ideal.matmul_constant_zero_apply _ _ l r (ix2 p q)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q)
      ((contrEquiv1 dot_S4000x128_S128x256_S4000x256_1_0_0_1_n_n 128 rfl rfl).symm k) = ix2 p k :=
    funext fun a => Fin.ext (by
      match a with
      | ⟨0, _⟩ => exact lhs_row _ _
      | ⟨1, _⟩ => exact (lhs_col _ _).trans hk)
  have er : dot_S4000x128_S128x256_S4000x256_1_0_0_1_n_n.rhsIdx (ix2 p q)
      ((contrEquiv1 dot_S4000x128_S128x256_S4000x256_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The affine part of the layer on one block, at row `p` of the block and column `q`: the scaled neighbour sum through
    the first weight matrix, the row's own features through the second, and the bias. -/
def blockLin (agg x : Vec Ideal S4000x128 .f32) (dinv : Vec Ideal S4000x1 .f32) (wl wr : Vec Ideal S128x256 .f32)
    (b : Vec Ideal S1x256 .f32) (p : Fin 4000) (q : Fin 256) : EReal :=
  (∑ k : Fin 128, (agg (ix2 p k) * dinv (ix2 p (0 : Fin 1))) * wl (ix2 k q)) + (∑ k : Fin 128, x (ix2 p k) * wr (ix2 k q))
    + b (ix2 (0 : Fin 1) q)

theorem pay1_apply (x0 : Vec Ideal S4000x128 .f32) (x2 : Vec Ideal S4000x1 .f32) (x6 : Vec Ideal S4000x128 .f32)
    (x7 x9 : Vec Ideal S128x256 .f32) (x12 : Vec Ideal S1x256 .f32) (p : Fin 4000) (q : Fin 256) :
    k0_pay1 (F := Ideal) x0 x2 x6 x7 x9 x12 (ix2 p q) = max (blockLin x0 x6 x2 x7 x9 x12 p q) 0 := by
  unfold k0_pay1
  rw [shapeCast_self, shapeCast_self, shapeCast_self]
  show max (matmul dot_S4000x128_S128x256_S4000x256_1_0_0_1_n_n (some .fp32)
        (mulf x0 (broadcastTo S4000x128 x2 broadcasts_S4000x1_S4000x128)) x7 (constant (F := Ideal) S4000x256 .f32 0x00000000#32) (ix2 p q)
      + matmul dot_S4000x128_S128x256_S4000x256_1_0_0_1_n_n (some .fp32) x6 x9 (constant (F := Ideal) S4000x256 .f32 0x00000000#32) (ix2 p q)
      + broadcastTo S4000x256 x12 broadcasts_S1x256_S4000x256 (ix2 p q)) (Ideal.ofBits .f32 0x00000000#32) = _
  rw [matmul_zero_apply, matmul_zero_apply, broadcastTo_1b_ab_apply, Ideal.ofBits_zero_f32]
  unfold blockLin
  simp only [mulf_apply, broadcastTo_a1_ab_apply]

/-- What the layer leaves for one block of 4000 rows, entry by entry: the affine part clipped below at zero, and on the
    first 128 columns the row's own features once more. -/
def blockSage (agg x : Vec Ideal S4000x128 .f32) (dinv : Vec Ideal S4000x1 .f32) (wl wr : Vec Ideal S128x256 .f32)
    (b : Vec Ideal S1x256 .f32) : Vec Ideal S4000x256 .f32 := fun y =>
  if hq : (y 1).val < 128 then max (blockLin agg x dinv wl wr b (y 0) (y 1)) 0 + x (ix2 (y 0) ⟨(y 1).val, hq⟩)
  else max (blockLin agg x dinv wl wr b (y 0) (y 1)) 0

/-- The stored left half (columns 0 … 127): the clipped affine part plus the row's own features. -/
theorem pay2_apply (x0 : Vec Ideal S4000x128 .f32) (x2 : Vec Ideal S4000x1 .f32) (x6 : Vec Ideal S4000x128 .f32)
    (x7 x9 : Vec Ideal S128x256 .f32) (x12 : Vec Ideal S1x256 .f32) (p : Fin 4000) (q : Fin 128) :
    k0_pay2 (F := Ideal) x0 x2 x6 x7 x9 x12 (ix2 p q)
      = blockSage x0 x6 x2 x7 x9 x12 (ix2 p (⟨q.val, by have := q.isLt; omega⟩ : Fin 256)) := by
  unfold k0_pay2
  show extractStridedSlice S4000x128 ![0, 0] (k0_pay1 (F := Ideal) x0 x2 x6 x7 x9 x12) slices_S4000x256_o0_0_S4000x128 (ix2 p q)
      + x6 (ix2 p q) = _
  rw [slice2_axis1_apply 0 _ _ p q (⟨q.val, by have := q.isLt; omega⟩ : Fin 256) (by simp), pay1_apply]
  unfold blockSage
  rw [dif_pos (show ((ix2 p (⟨q.val, by have := q.isLt; omega⟩ : Fin 256) : S4000x256.Idx) 1).val < 128 from q.isLt)]

/-- The stored right half (columns 128 … 255): the clipped affine part alone. -/
theorem pay3_apply (x0 : Vec Ideal S4000x128 .f32) (x2 : Vec Ideal S4000x1 .f32) (x6 : Vec Ideal S4000x128 .f32)
    (x7 x9 : Vec Ideal S128x256 .f32) (x12 : Vec Ideal S1x256 .f32) (p : Fin 4000) (q : Fin 128) :
    k0_pay3 (F := Ideal) x0 x2 x6 x7 x9 x12 (ix2 p q)
      = blockSage x0 x6 x2 x7 x9 x12 (ix2 p (⟨128 + q.val, by have := q.isLt; omega⟩ : Fin 256)) := by
  unfold k0_pay3
  show extractStridedSlice S4000x128 ![0, 128] (k0_pay1 (F := Ideal) x0 x2 x6 x7 x9 x12) slices_S4000x256_o0_128_S4000x128 (ix2 p q) = _
  rw [slice2_axis1_apply 128 _ _ p q (⟨128 + q.val, by have := q.isLt; omega⟩ : Fin 256) rfl, pay1_apply]
  unfold blockSage
  rw [dif_neg (show ¬ ((ix2 p (⟨128 + q.val, by have := q.isLt; omega⟩ : Fin 256) : S4000x256.Idx) 1).val < 128 from
    Nat.not_lt.mpr (Nat.le_add_right 128 q.val))]

end Cert.KernelIdeal.Region0

end
-- ==== Proof.Region0Block.lean ====
/-
  From the two stored halves to one block of the layer, and from a block's inputs to the arrays' rows.

  At grid point `t` (of 25) the first layer works on rows `4000 t … 4000 t + 3999`: it is handed those rows of the
  neighbour sums, of the node features and of the reciprocal degrees, and the two weight matrices and the bias row whole.
  What it leaves for those rows is written as two halves of 128 columns; together they are the block's function
  `blockSage`. An entry of `blockSage` depends only on the block's row `p` and column `q`, and the block's row `p` is
  row `4000 t + p` of each row-blocked array, so the entry is the whole-array layer at `(4000 t + p, q)`.
-/
import proofs.«125124_j61194694033656_2_alg».proof.Proof.Gen.KernelIdeal.Frame
import proofs.«125124_j61194694033656_2_alg».proof.Proof.Spec
import proofs.«125124_j61194694033656_2_alg».proof.Proof.Region0Payload
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The two stored halves together are the block of the layer: each half is the block's function on its own columns, and
    the two column ranges fill the 256 columns. -/
theorem out_eq (x0 x1 : Vec Ideal S4000x128 .f32) (x2 : Vec Ideal S4000x1 .f32) (x3 x4 : Vec Ideal S128x256 .f32)
    (x5 : Vec Ideal S1x256 .f32) : out0_6 (F := Ideal) x0 x1 x2 x3 x4 x5 = blockSage x0 x1 x2 x3 x4 x5 := by
  unfold out0_6
  simp only [View.ld_unit_zero (S := S4000x128) hz, View.ld_unit_zero (S := S4000x1) hz,
    View.ld_unit_zero (S := S128x256) hz, View.ld_unit_zero (S := S1x256) hz]
  funext y
  refine View.canon_apply_of_pieces (blockSage x0 x1 x2 x3 x4 x5) _ ?_ y (cover0_6 _ _ y)
  intro pc hpc x
  rcases List.mem_cons.mp hpc with rfl | hpc
  · obtain ⟨p, q, rfl⟩ : ∃ (p : Fin 4000) (q : Fin 128), x = ix2 p q := ⟨x 0, x 1, @eq_ix2 4000 128 x⟩
    refine (pay3_apply x0 x2 x1 x3 x4 x5 p q).trans (congrArg (blockSage x0 x1 x2 x3 x4 x5) ?_)
    funext a; apply Fin.ext
    match a with
    | ⟨0, _⟩ => show p.val = 0 + 1 * p.val; omega
    | ⟨1, _⟩ => show 128 + q.val = 128 + 1 * q.val; omega
  · obtain rfl := List.mem_singleton.mp hpc
    obtain ⟨p, q, rfl⟩ : ∃ (p : Fin 4000) (q : Fin 128), x = ix2 p q := ⟨x 0, x 1, @eq_ix2 4000 128 x⟩
    refine (pay2_apply x0 x2 x1 x3 x4 x5 p q).trans (congrArg (blockSage x0 x1 x2 x3 x4 x5) ?_)
    funext a; apply Fin.ext
    match a with
    | ⟨0, _⟩ => show p.val = 0 + 1 * p.val; omega
    | ⟨1, _⟩ => show q.val = 0 + 1 * q.val; omega

/-- The block index of every window at every grid point: the row-blocked arrays (neighbour sums, features, reciprocal
    degrees, output) are at row block `t`, column block 0; the weights and the bias are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Block `t` of the neighbour sums is rows `4000 t … 4000 t + 3999` of the array. -/
theorem iblk_agg (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c (Pipeline.arrRef spec0 0) : S100000x128.Idx → EReal) i := by
  obtain ⟨e0, e1, -⟩ := idx_facts t
  unfold iblk0
  rw [View.read_apply]
  show (V c (Pipeline.arrRef spec0 0) : S100000x128.Idx → EReal) _ = _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- Block `t` of the node features is rows `4000 t … 4000 t + 3999` of the array. -/
theorem iblk_x (c : Dev nD) (t : Fin cfg0.N) (y : S4000x128.Idx) (i : S100000x128.Idx)
    (h0 : (i 0).val = t.val * 4000 + (y 0).val) (h1 : (i 1).val = (y 1).val) :
    (iblk0 V c 1 t : Vec Ideal S4000x128 .f32) y = (V c (Pipeline.arrRef spec0 1) : S100000x128.Idx → EReal) i := by
  obtain ⟨-, -, e0, e1, -⟩ := idx_facts t
  unfold iblk0
  rw [View.read_apply]
  show (V c (Pipeline.arrRef spec0 1) : S100000x128.Idx → EReal) _ = _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- Block `t` of the reciprocal degrees is rows `4000 t … 4000 t + 3999` of the column. -/
theorem iblk_dinv (c : Dev nD) (t : Fin cfg0.N) (y : S4000x1.Idx) (i : S100000x1.Idx)
    (h0 : (i 0).val = t.val * 4000 + (y 0).val) (h1 : (i 1).val = (y 1).val) :
    (iblk0 V c 2 t : Vec Ideal S4000x1 .f32) y = (V c (Pipeline.arrRef spec0 2) : S100000x1.Idx → EReal) i := by
  obtain ⟨-, -, -, -, e0, e1, -⟩ := idx_facts t
  unfold iblk0
  rw [View.read_apply]
  show (V c (Pipeline.arrRef spec0 2) : S100000x1.Idx → EReal) _ = _
  congr 1
  funext a
  apply Fin.ext
  match a with
  | ⟨0, _⟩ => show win0_2.index t (0 : Fin 2) * 4000 + 1 * (y 0).val = (i 0).val; rw [e0, h0]; omega
  | ⟨1, _⟩ => show win0_2.index t (1 : Fin 2) * 1 + 1 * (y 1).val = (i 1).val; rw [e1, h1]; omega

/-- The first weight matrix is staged whole at every point. -/
theorem iblk_wl (c : Dev nD) (t : Fin cfg0.N) (y i : S128x256.Idx) (h0 : (i 0).val = (y 0).val) (h1 : (i 1).val = (y 1).val) :
    (iblk0 V c 3 t : Vec Ideal S128x256 .f32) y = (V c (Pipeline.arrRef spec0 3) : S128x256.Idx → EReal) i := by
  obtain ⟨-, -, -, -, -, -, e0, e1, -⟩ := idx_facts t
  unfold iblk0
  rw [View.read_apply]
  show (V c (Pipeline.arrRef spec0 3) : S128x256.Idx → EReal) _ = _
  congr 1
  funext a
  apply Fin.ext
  match a with
  | ⟨0, _⟩ => show win0_3.index t (0 : Fin 2) * 128 + 1 * (y 0).val = (i 0).val; rw [e0, h0]; omega
  | ⟨1, _⟩ => show win0_3.index t (1 : Fin 2) * 256 + 1 * (y 1).val = (i 1).val; rw [e1, h1]; omega

/-- The second weight matrix is staged whole at every point. -/
theorem iblk_wr (c : Dev nD) (t : Fin cfg0.N) (y i : S128x256.Idx) (h0 : (i 0).val = (y 0).val) (h1 : (i 1).val = (y 1).val) :
    (iblk0 V c 4 t : Vec Ideal S128x256 .f32) y = (V c (Pipeline.arrRef spec0 4) : S128x256.Idx → EReal) i := by
  obtain ⟨-, -, -, -, -, -, -, -, e0, e1, -⟩ := idx_facts t
  unfold iblk0
  rw [View.read_apply]
  show (V c (Pipeline.arrRef spec0 4) : S128x256.Idx → EReal) _ = _
  congr 1
  funext a
  apply Fin.ext
  match a with
  | ⟨0, _⟩ => show win0_4.index t (0 : Fin 2) * 128 + 1 * (y 0).val = (i 0).val; rw [e0, h0]; omega
  | ⟨1, _⟩ => show win0_4.index t (1 : Fin 2) * 256 + 1 * (y 1).val = (i 1).val; rw [e1, h1]; omega

/-- The bias row is staged whole at every point. -/
theorem iblk_b (c : Dev nD) (t : Fin cfg0.N) (y i : S1x256.Idx) (h0 : (i 0).val = (y 0).val) (h1 : (i 1).val = (y 1).val) :
    (iblk0 V c 5 t : Vec Ideal S1x256 .f32) y = (V c (Pipeline.arrRef spec0 5) : S1x256.Idx → EReal) i := by
  obtain ⟨-, -, -, -, -, -, -, -, -, -, e0, e1, -⟩ := idx_facts t
  unfold iblk0
  rw [View.read_apply]
  show (V c (Pipeline.arrRef spec0 5) : S1x256.Idx → EReal) _ = _
  congr 1
  funext a
  apply Fin.ext
  match a with
  | ⟨0, _⟩ => show win0_5.index t (0 : Fin 2) * 1 + 1 * (y 0).val = (i 0).val; rw [e0, h0]; omega
  | ⟨1, _⟩ => show win0_5.index t (1 : Fin 2) * 256 + 1 * (y 1).val = (i 1).val; rw [e1, h1]; omega

/-- An entry of a block of the layer is the entry of the whole-array layer at the row and column it stands for, as soon as
    the block's inputs are the arrays' entries on that row and that column. -/
theorem blockSage_eq (A X : Cert.Spec.Mat 100000 128) (D : Cert.Spec.Mat 100000 1) (WL WR : Cert.Spec.Mat 128 256)
    (B : Cert.Spec.Mat 1 256) (x0 x1 : Vec Ideal S4000x128 .f32) (x2 : Vec Ideal S4000x1 .f32)
    (x3 x4 : Vec Ideal S128x256 .f32) (x5 : Vec Ideal S1x256 .f32)
    (y : S4000x256.Idx) (i : S100000x256.Idx) (hcol : (i 1).val = (y 1).val)
    (h0 : ∀ k : Fin 128, x0 (ix2 (y 0) k) = A (ix2 (i 0) k))
    (h1 : ∀ k : Fin 128, x1 (ix2 (y 0) k) = X (ix2 (i 0) k))
    (h2 : x2 (ix2 (y 0) (0 : Fin 1)) = D (ix2 (i 0) (0 : Fin 1)))
    (h3 : ∀ k : Fin 128, x3 (ix2 k (y 1)) = WL (ix2 k (i 1)))
    (h4 : ∀ k : Fin 128, x4 (ix2 k (y 1)) = WR (ix2 k (i 1)))
    (h5 : x5 (ix2 (0 : Fin 1) (y 1)) = B (ix2 (0 : Fin 1) (i 1))) :
    blockSage x0 x1 x2 x3 x4 x5 y = Cert.Spec.sage1 A X D WL WR B i := by
  have hl : blockLin x0 x1 x2 x3 x4 x5 (y 0) (y 1) = Cert.Spec.lin A X D WL WR B (i 0) (i 1) := by
    unfold blockLin Cert.Spec.lin
    simp only [h0, h1, h2, h3, h4, h5]
  unfold blockSage Cert.Spec.sage1
  by_cases hq : (y 1).val < 128
  · have hq' : (i 1).val < 128 := by omega
    rw [dif_pos hq, dif_pos hq', hl]
    congr 1
    have e : (⟨(i 1).val, hq'⟩ : Fin 128) = ⟨(y 1).val, hq⟩ := Fin.ext hcol
    rw [e]
    exact h1 _
  · have hq' : ¬ (i 1).val < 128 := by omega
    rw [dif_neg hq, dif_neg hq', hl]

end Cert.KernelIdeal.Region0

end
-- ==== Proof.Region0.lean ====
/-
  The output of the first layer as ONE function of the arrays the region finds on entry.

  Grid point `t` writes back rows `4000 t … 4000 t + 3999` of the layer `Cert.Spec.sage1` of those arrays; row `r` of the
  100000 rows is written by point `r / 4000`, so after the 25 points every entry of the output array is the layer's.
-/
import proofs.«125124_j61194694033656_2_alg».proof.Proof.Region0Block
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What grid point `t` writes back is rows `4000 t … 4000 t + 3999` of the layer of the arrays found on entry. -/
theorem flushed_eq (c : Dev nD) (t : Fin cfg0.N) :
    (dat0 V c).flushed 6 t = ((cfg0.win 6).blk t).view.read (Elt Ideal)
      (Cert.Spec.sage1 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6, out_eq]
  obtain ⟨-, -, -, -, -, -, -, -, -, -, -, -, e0, e1⟩ := idx_facts t
  funext j
  rw [View.read_apply]
  have hrow : ((((cfg0.win 6).blk t).view.emb j) 0).val = t.val * 4000 + (j 0).val := by
    show win0_6.index t (0 : Fin 2) * 4000 + 1 * (j 0).val = _; rw [e0]; omega
  have hcol : ((((cfg0.win 6).blk t).view.emb j) 1).val = (j 1).val := by
    show win0_6.index t (1 : Fin 2) * 256 + 1 * (j 1).val = _; rw [e1]; omega
  exact blockSage_eq _ _ _ _ _ _ (iblk0 V c 0 t) (iblk0 V c 1 t) (iblk0 V c 2 t) (iblk0 V c 3 t) (iblk0 V c 4 t) (iblk0 V c 5 t)
    ((cfg0.win 6).xinj (grid0.coords t) j) (((cfg0.win 6).blk t).view.emb j) hcol
    (fun k => iblk_agg V c t _ _ hrow rfl) (fun k => iblk_x V c t _ _ hrow rfl) (iblk_dinv V c t _ _ hrow rfl)
    (fun k => iblk_wl V c t _ _ rfl hcol) (fun k => iblk_wr V c t _ _ rfl hcol) (iblk_b V c t _ _ rfl hcol)

/-- An index of the output is in point `t`'s block when its row is among `4000 t … 4000 t + 3999`. -/
theorem mem_blk (t : Fin cfg0.N) (i : S100000x256.Idx) :
    i ∈ ((cfg0.win 6).blk t).view.set ↔ ∀ a : Fin 2, win0_6.index t a * S4000x256.size a ≤ (i a).val
      ∧ (i a).val < win0_6.index t a * S4000x256.size a + S4000x256.size a := by
  show i ∈ ((View.whole main_v28).slice (win0_6.rect t)).set ↔ _
  rw [View.set_slice_whole, Rect.mem_set_unit]
  exact Iff.rfl

/-- Row `r` of the output is written by grid point `r / 4000`. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 256 ≤ (i 1).val ∧ (i 1).val < win0_6.index t (1 : Fin 2) * 256 + 256
    rw [e1]; omega

/-- After the 25 grid points the output array is the layer of the arrays the region found on entry. -/
theorem final0 (c : Dev nD) :
    (((dat0 (F := Ideal) V c).arrAt 6 cfg0.N) : S100000x256.Idx → EReal)
      = Cert.Spec.sage1 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 6 _ (fun t _ => flushed_eq V c t) cover

end Cert.KernelIdeal.Region0

end
-- ==== Proof.KStage1.lean ====
/-
  The first layer's output, as the kernel leaves it: the specification's first-layer function of the neighbour sum of
  the node features, the node features, the reciprocal-degree column, the two weight matrices and the bias row.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost0
import proofs.«125124_j61194694033656_2_alg».proof.Proof.Region0
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KStage1

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

open Cert.KernelIdeal.KHost0 (row)

/-- A vector broadcast along a new leading unit axis is the vector as a row. -/
theorem ref_row26 (x4 : (⟨Cert.ReferenceIdeal.S256, .f32⟩ : BufTy).Contents (Elt Ideal)) :
    Cert.ReferenceIdeal.Read.val_main_v26 (F := Ideal) x4 = row x4 := by
  funext j
  rw [Cert.ReferenceIdeal.Read.val_main_v26_apply]
  exact congrArg x4 (funext fun a => Fin.ext (by match a with | ⟨0, _⟩ => rfl))

theorem ref_row54 (x7 : (⟨Cert.ReferenceIdeal.S256, .f32⟩ : BufTy).Contents (Elt Ideal)) :
    Cert.ReferenceIdeal.Read.val_main_v54 (F := Ideal) x7 = row x7 := by
  funext j
  rw [Cert.ReferenceIdeal.Read.val_main_v54_apply]
  exact congrArg x7 (funext fun a => Fin.ext (by match a with | ⟨0, _⟩ => rfl))

theorem ref_row59 (x9 : (⟨Cert.ReferenceIdeal.S256, .f32⟩ : BufTy).Contents (Elt Ideal)) :
    Cert.ReferenceIdeal.Read.val_main_v59 (F := Ideal) x9 = row x9 := by
  funext j
  rw [Cert.ReferenceIdeal.Read.val_main_v59_apply]
  exact congrArg x9 (funext fun a => Fin.ext (by match a with | ⟨0, _⟩ => rfl))

/-- What the first launch leaves in its output array. -/
theorem h1_spec (c : Dev nD) : W2 m ρ c (Proc.devRef .tc main_v28)
    = Cert.Spec.sage1 (Cert.ReferenceIdeal.Read.val_main_v17 (F := Ideal) (m ((c.tc : Thread nD τ).loc main_arg0)) (m ((c.tc : Thread nD τ).loc main_arg1))) (m ((c.tc : Thread nD τ).loc main_arg0))
        (Cert.Spec.rdeg (Cert.ReferenceIdeal.Read.val_main_v7 (F := Ideal) (m ((c.tc : Thread nD τ).loc main_arg1)))) (m ((c.tc : Thread nD τ).loc main_arg2)) (m ((c.tc : Thread nD τ).loc main_arg3)) (row (m ((c.tc : Thread nD τ).loc main_arg4))) := by
  refine (W2_arr m ρ c 6).trans ?_
  refine (Cert.KernelIdeal.Region0.final0 (V1 m ρ) c).trans ?_
  show Cert.Spec.sage1 (W1 m ρ c (Proc.devRef .tc main_v27)) (W1 m ρ c (Proc.devRef .tc main_arg0))
      (W1 m ρ c (Proc.devRef .tc main_v12)) (W1 m ρ c (Proc.devRef .tc main_arg2)) (W1 m ρ c (Proc.devRef .tc main_arg3))
      (W1 m ρ c (Proc.devRef .tc main_v17)) = _
  rw [KHost0.v27, KHost0.arg0, KHost0.v12, KHost0.arg2, KHost0.arg3, KHost0.v17]

end Cert.KernelIdeal.KStage1

end
-- ==== Proof.Region1Payload.lean ====
import proofs.«125124_j61194694033656_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
  The second layer's block arithmetic, entry by entry, over the extended reals.

  A row block holds 4000 nodes. At row p and column q of the block the layer's value is
  max((Σ_k agg(p,k) · d(p) · wl(k,q)) + (Σ_k h(p,k) · wr(k,q)) + b2(q), 0) + ((Σ_k x(p,k) · wres(k,q)) + br(q)),
  and the projected value is (Σ_k layer(p,k) · wcat(k,q)) · e(p), where d and e are the two per-node columns.
  Each matrix product below is into a zero accumulator, so it is exactly its sum of products.
-/

noncomputable section
namespace Cert.KernelIdeal.Region1
open Idealize.ShloMosaic Idealize.ShloMosaic.ValueIdx Idealize.SL.Sem
open Cert.KernelIdeal Cert.KernelIdeal.Gen

/-! ## A per-node column and a per-feature row spread over a block -/

/-- A 4000×1 column spread along 256 lanes: entry (p, q) is the column's entry for row p. -/
theorem col256_apply (v : FVec Ideal S4000x1 .f32) (p : Fin 4000) (q : Fin 256) :
    broadcastTo S4000x256 v broadcasts_S4000x1_S4000x256 (ix2 p q) = v (ix2 p 0) :=
  broadcastTo_apply v broadcasts_S4000x1_S4000x256 (ix2 p q) (ix2 p 0) (fun a => by
    match a with
    | ⟨0, _⟩ => rfl
    | ⟨1, _⟩ => rfl)

/-- A 4000×1 column spread along 128 lanes: entry (p, q) is the column's entry for row p. -/
theorem col128_apply (v : FVec Ideal S4000x1 .f32) (p : Fin 4000) (q : Fin 128) :
    broadcastTo S4000x128 v broadcasts_S4000x1_S4000x128 (ix2 p q) = v (ix2 p 0) :=
  broadcastTo_apply v broadcasts_S4000x1_S4000x128 (ix2 p q) (ix2 p 0) (fun a => by
    match a with
    | ⟨0, _⟩ => rfl
    | ⟨1, _⟩ => rfl)

/-- A 1×256 row spread down 4000 rows: entry (p, q) is the row's entry for column q. -/
theorem row256_apply (v : FVec Ideal S1x256 .f32) (p : Fin 4000) (q : Fin 256) :
    broadcastTo S4000x256 v broadcasts_S1x256_S4000x256 (ix2 p q) = v (ix2 0 q) :=
  broadcastTo_apply v broadcasts_S1x256_S4000x256 (ix2 p q) (ix2 0 q) (fun a => by
    match a with
    | ⟨0, _⟩ => rfl
    | ⟨1, _⟩ => rfl)

/-! ## The three matrix products, at an entry -/

theorem mmWide_lhs0 (j : S4000x256.Idx) (k : dot_S4000x256_S256x256_S4000x256_1_0_0_1_n_n.contr.Idx) : (dot_S4000x256_S256x256_S4000x256_1_0_0_1_n_n.lhsIdx j k 0).val = (j 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem mmWide_lhs1 (j : S4000x256.Idx) (k : dot_S4000x256_S256x256_S4000x256_1_0_0_1_n_n.contr.Idx) : (dot_S4000x256_S256x256_S4000x256_1_0_0_1_n_n.lhsIdx j k 1).val = (k ⟨0, by decide⟩).val :=
  dot_S4000x256_S256x256_S4000x256_1_0_0_1_n_n.lhsIdx_val_of_single rfl j k
theorem mmWide_rhs0 (j : S4000x256.Idx) (k : dot_S4000x256_S256x256_S4000x256_1_0_0_1_n_n.contr.Idx) : (dot_S4000x256_S256x256_S4000x256_1_0_0_1_n_n.rhsIdx j k 0).val = (k ⟨0, by decide⟩).val :=
  dot_S4000x256_S256x256_S4000x256_1_0_0_1_n_n.rhsIdx_val_of_single rfl j k
theorem mmWide_rhs1 (j : S4000x256.Idx) (k : dot_S4000x256_S256x256_S4000x256_1_0_0_1_n_n.contr.Idx) : (dot_S4000x256_S256x256_S4000x256_1_0_0_1_n_n.rhsIdx j k 1).val = (j 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000×256 block times a 256×256 matrix into a zero accumulator, at row p and column q: the sum over the 256 shared
    coordinates of the row's entry times the column's entry. -/
theorem mmWide_apply (l : FVec Ideal S4000x256 .f32) (r : FVec Ideal S256x256 .f32) (p : Fin 4000) (q : Fin 256) :
    matmul dot_S4000x256_S256x256_S4000x256_1_0_0_1_n_n (some .fp32) l r (constant (F := Ideal) S4000x256 .f32 0x00000000#32) (ix2 p q)
      = ∑ k : Fin 256, l (ix2 p k) * r (ix2 k q) := by
  show FloatOps.matmul _ _ _ _ _ _ = _
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k :=
    funext fun a => Fin.ext (by
      match a with
      | ⟨0, _⟩ => exact mmWide_lhs0 _ _
      | ⟨1, _⟩ => exact (mmWide_lhs1 _ _).trans hk)
  have er : dot_S4000x256_S256x256_S4000x256_1_0_0_1_n_n.rhsIdx (ix2 p q) ((contrEquiv1 dot_S4000x256_S256x256_S4000x256_1_0_0_1_n_n 256 rfl rfl).symm k) = ix2 k q :=
    funext fun a => Fin.ext (by
      match a with
      | ⟨0, _⟩ => exact (mmWide_rhs0 _ _).trans hk
      | ⟨1, _⟩ => exact mmWide_rhs1 _ _)
  rw [el, er]

theorem mmRes_lhs0 (j : S4000x256.Idx) (k : dot_S4000x128_S128x256_S4000x256_1_0_0_1_n_n.contr.Idx) : (dot_S4000x128_S128x256_S4000x256_1_0_0_1_n_n.lhsIdx j k 0).val = (j 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem mmRes_lhs1 (j : S4000x256.Idx) (k : dot_S4000x128_S128x256_S4000x256_1_0_0_1_n_n.contr.Idx) : (dot_S4000x128_S128x256_S4000x256_1_0_0_1_n_n.lhsIdx j k 1).val = (k ⟨0, by decide⟩).val :=
  dot_S4000x128_S128x256_S4000x256_1_0_0_1_n_n.lhsIdx_val_of_single rfl j k
theorem mmRes_rhs0 (j : S4000x256.Idx) (k : dot_S4000x128_S128x256_S4000x256_1_0_0_1_n_n.contr.Idx) : (dot_S4000x128_S128x256_S4000x256_1_0_0_1_n_n.rhsIdx j k 0).val = (k ⟨0, by decide⟩).val :=
  dot_S4000x128_S128x256_S4000x256_1_0_0_1_n_n.rhsIdx_val_of_single rfl j k
theorem mmRes_rhs1 (j : S4000x256.Idx) (k : dot_S4000x128_S128x256_S4000x256_1_0_0_1_n_n.contr.Idx) : (dot_S4000x128_S128x256_S4000x256_1_0_0_1_n_n.rhsIdx j k 1).val = (j 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A 4000×128 block times a 128×256 matrix into a zero accumulator, at row p and column q: the sum over the 128 shared
    coordinates of the row's entry times the column's entry. -/
theorem mmRes_apply (l : FVec Ideal S4000x128 .f32) (r : FVec Ideal S128x256 .f32) (p : Fin 4000) (q : Fin 256) :
    matmul dot_S4000x128_S128x256_S4000x256_1_0_0_1_n_n (some .fp32) l r (constant (F := Ideal) S4000x256 .f32 0x00000000#32) (ix2 p q)
      = ∑ k : Fin 128, l (ix2 p k) * r (ix2 k q) := by
  show FloatOps.matmul _ _ _ _ _ _ = _
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k :=
    funext fun a => Fin.ext (by
      match a with
      | ⟨0, _⟩ => exact mmRes_lhs0 _ _
      | ⟨1, _⟩ => exact (mmRes_lhs1 _ _).trans hk)
  have er : dot_S4000x128_S128x256_S4000x256_1_0_0_1_n_n.rhsIdx (ix2 p q) ((contrEquiv1 dot_S4000x128_S128x256_S4000x256_1_0_0_1_n_n 128 rfl rfl).symm k) = ix2 k q :=
    funext fun a => Fin.ext (by
      match a with
      | ⟨0, _⟩ => exact (mmRes_rhs0 _ _).trans hk
      | ⟨1, _⟩ => exact mmRes_rhs1 _ _)
  rw [el, er]

theorem mmOut_lhs0 (j : S4000x128.Idx) (k : dot_S4000x256_S256x128_S4000x128_1_0_0_1_n_n.contr.Idx) : (dot_S4000x256_S256x128_S4000x128_1_0_0_1_n_n.lhsIdx j k 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem mmOut_lhs1 (j : S4000x128.Idx) (k : dot_S4000x256_S256x128_S4000x128_1_0_0_1_n_n.contr.Idx) : (dot_S4000x256_S256x128_S4000x128_1_0_0_1_n_n.lhsIdx j k 1).val = (k ⟨0, by decide⟩).val :=
  dot_S4000x256_S256x128_S4000x128_1_0_0_1_n_n.lhsIdx_val_of_single rfl j k
theorem mmOut_rhs0 (j : S4000x128.Idx) (k : dot_S4000x256_S256x128_S4000x128_1_0_0_1_n_n.contr.Idx) : (dot_S4000x256_S256x128_S4000x128_1_0_0_1_n_n.rhsIdx j k 0).val = (k ⟨0, by decide⟩).val :=
  dot_S4000x256_S256x128_S4000x128_1_0_0_1_n_n.rhsIdx_val_of_single rfl j k
theorem mmOut_rhs1 (j : S4000x128.Idx) (k : dot_S4000x256_S256x128_S4000x128_1_0_0_1_n_n.contr.Idx) : (dot_S4000x256_S256x128_S4000x128_1_0_0_1_n_n.rhsIdx j k 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- A 4000×256 block times a 256×128 matrix into a zero accumulator, at row p and column q: the sum over the 256 shared
    coordinates of the row's entry times the column's entry. -/
theorem mmOut_apply (l : FVec Ideal S4000x256 .f32) (r : FVec Ideal S256x128 .f32) (p : Fin 4000) (q : Fin 128) :
    matmul dot_S4000x256_S256x128_S4000x128_1_0_0_1_n_n (some .fp32) l r (constant (F := Ideal) S4000x128 .f32 0x00000000#32) (ix2 p q)
      = ∑ k : Fin 256, l (ix2 p k) * r (ix2 k q) := by
  show FloatOps.matmul _ _ _ _ _ _ = _
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k :=
    funext fun a => Fin.ext (by
      match a with
      | ⟨0, _⟩ => exact mmOut_lhs0 _ _
      | ⟨1, _⟩ => exact (mmOut_lhs1 _ _).trans hk)
  have er : dot_S4000x256_S256x128_S4000x128_1_0_0_1_n_n.rhsIdx (ix2 p q) ((contrEquiv1 dot_S4000x256_S256x128_S4000x128_1_0_0_1_n_n 256 rfl rfl).symm k) = ix2 k q :=
    funext fun a => Fin.ext (by
      match a with
      | ⟨0, _⟩ => exact (mmOut_rhs0 _ _).trans hk
      | ⟨1, _⟩ => exact mmOut_rhs1 _ _)
  rw [el, er]

/-! ## The block's two values, at an entry -/

/-- The layer's block value at row p, column q. -/
theorem layer_apply (v0 : Vec Ideal S4000x256 .f32) (v2 : Vec Ideal S4000x1 .f32) (v6 : Vec Ideal S4000x256 .f32)
    (v8 : Vec Ideal S4000x128 .f32) (v9 : Vec Ideal S256x256 .f32) (v11 : Vec Ideal S256x256 .f32) (v14 : Vec Ideal S1x256 .f32)
    (v20 : Vec Ideal S128x256 .f32) (v22 : Vec Ideal S1x256 .f32) (p : Fin 4000) (q : Fin 256) :
    (k1_pay2 (F := Ideal) v0 v2 v6 v8 v9 v11 v14 v20 v22 (ix2 p q) : EReal)
      = max ((∑ k : Fin 256, (v0 (ix2 p k) * v2 (ix2 p 0)) * v9 (ix2 k q)) + (∑ k : Fin 256, v6 (ix2 p k) * v11 (ix2 k q)) + v14 (ix2 0 q)) 0
        + ((∑ k : Fin 128, v8 (ix2 p k) * v20 (ix2 k q)) + v22 (ix2 0 q)) := by
  unfold k1_pay2
  simp only [shapeCast_self, addf_apply, maximumf_apply, broadcast_apply]
  rw [mmWide_apply, mmWide_apply, mmRes_apply, row256_apply, row256_apply]
  simp only [mulf_apply, col256_apply]
  rw [show (Scalar.ofBits (F := Ideal) .f32 0x00000000#32 : EReal) = 0 from Ideal.ofBits_zero_f32]

/-- The projected block value before the per-node scaling, at row p, column q: the layer's row p against column q of the
    output weights. -/
theorem proj_apply (v0 : Vec Ideal S4000x256 .f32) (v2 : Vec Ideal S4000x1 .f32) (v6 : Vec Ideal S4000x256 .f32)
    (v8 : Vec Ideal S4000x128 .f32) (v9 : Vec Ideal S256x256 .f32) (v11 : Vec Ideal S256x256 .f32) (v14 : Vec Ideal S1x256 .f32)
    (v20 : Vec Ideal S128x256 .f32) (v22 : Vec Ideal S1x256 .f32) (v28 : Vec Ideal S256x128 .f32) (p : Fin 4000) (q : Fin 128) :
    (k1_pay3 (F := Ideal) v0 v2 v6 v8 v9 v11 v14 v20 v22 v28 (ix2 p q) : EReal)
      = ∑ k : Fin 256, k1_pay2 (F := Ideal) v0 v2 v6 v8 v9 v11 v14 v20 v22 (ix2 p k) * v28 (ix2 k q) := by
  unfold k1_pay3
  simp only [shapeCast_self]
  rw [mmOut_apply]

/-- The per-node scaling: entry (p, q) times the column's entry for row p. -/
theorem scaled_apply (v30 : FVec Ideal S4000x128 .f32) (v31 : Vec Ideal S4000x1 .f32) (p : Fin 4000) (q : Fin 128) :
    (k1_pay1 (F := Ideal) v30 v31 (ix2 p q) : EReal) = v30 (ix2 p q) * v31 (ix2 p 0) := by
  unfold k1_pay1
  simp only [shapeCast_self, mulf_apply, col128_apply]

end Cert.KernelIdeal.Region1
end
-- ==== Proof.Region1Entry.lean ====
import proofs.«125124_j61194694033656_2_alg».proof.Proof.Gen.KernelIdeal.Frame
import proofs.«125124_j61194694033656_2_alg».proof.Proof.Spec
import proofs.«125124_j61194694033656_2_alg».proof.Proof.Region1Payload
import Idealize.ShloMosaic.Lib.Pipeline.Value
import Idealize.ShloMosaic.Lib.ValueIdx
import Idealize.ShloMosaic.Lib.ValueLayout
import Idealize.ShloMosaic.PureOps.Ideal.Laws

/-!
  One entry of each of the second region's output blocks, as the specification's value at the node's row.

  Nothing here mentions the grid: the block's rows are tied to the arrays' rows by hypotheses, discharged where the blocks
  are read off the arrays.
-/
noncomputable section
namespace Cert.KernelIdeal.Region1
open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a store over a whole block. -/
theorem hz : (![0, 0] : Fin 2 → Nat) = fun _ => 0 := funext fun a => by fin_cases a <;> rfl

/-! ## One entry of each output block, from the rows the input blocks hold -/

/-- The layer's value at row p, column q of a block is the specification's value at row r, column q of the arrays, once the
    block rows p of the neighbour sums, the first layer's output and the features are the arrays' rows r, and the block's
    reciprocal degree at p is the column's at r. -/
theorem layer_entry (A0 A1 : Cert.Spec.Mat 100000 256) (A2 : Cert.Spec.Mat 100000 128) (A3 : Cert.Spec.Mat 100000 1)
    (v0 : Vec Ideal S4000x256 .f32) (v2 : Vec Ideal S4000x1 .f32) (v6 : Vec Ideal S4000x256 .f32)
    (v8 : Vec Ideal S4000x128 .f32) (v9 v11 : Vec Ideal S256x256 .f32) (v14 : Vec Ideal S1x256 .f32)
    (v20 : Vec Ideal S128x256 .f32) (v22 : Vec Ideal S1x256 .f32) (r : Fin 100000) (p : Fin 4000) (q : Fin 256)
    (h0 : ∀ k, v0 (ix2 p k) = A0 (ix2 r k)) (h1 : ∀ k, v6 (ix2 p k) = A1 (ix2 r k)) (h2 : ∀ k, v8 (ix2 p k) = A2 (ix2 r k))
    (h3 : v2 (ix2 p 0) = A3 (ix2 r 0)) :
    (k1_pay2 (F := Ideal) v0 v2 v6 v8 v9 v11 v14 v20 v22 (ix2 p q) : EReal) = Cert.Spec.sage2 A0 A1 A2 A3 v9 v11 v20 v14 v22 (ix2 r q) := by
  rw [layer_apply]
  unfold Cert.Spec.sage2 Cert.Spec.lin
  simp only [h0, h1, h2, h3]

/-- The block the layer's output window holds after the body, at row p, column q. -/
theorem out11_entry (A0 A1 : Cert.Spec.Mat 100000 256) (A2 : Cert.Spec.Mat 100000 128) (A3 : Cert.Spec.Mat 100000 1)
    (A5 A6 : Cert.Spec.Mat 256 256) (A7 : Cert.Spec.Mat 128 256) (A8 A9 : Cert.Spec.Mat 1 256)
    (x0 x1 : Vec Ideal S4000x256 .f32) (x2 : Vec Ideal S4000x128 .f32) (x3 x4 : Vec Ideal S4000x1 .f32)
    (x5 x6 : Vec Ideal S256x256 .f32) (x7 : Vec Ideal S128x256 .f32) (x8 x9 : Vec Ideal S1x256 .f32) (x10 : Vec Ideal S256x128 .f32)
    (r : Fin 100000) (p : Fin 4000) (q : Fin 256)
    (h0 : ∀ k, x0 (ix2 p k) = A0 (ix2 r k)) (h1 : ∀ k, x1 (ix2 p k) = A1 (ix2 r k)) (h2 : ∀ k, x2 (ix2 p k) = A2 (ix2 r k))
    (h3 : x3 (ix2 p 0) = A3 (ix2 r 0)) (h5 : x5 = A5) (h6 : x6 = A6) (h7 : x7 = A7) (h8 : x8 = A8) (h9 : x9 = A9) :
    (out1_11 (F := Ideal) x0 x1 x2 x3 x4 x5 x6 x7 x8 x9 x10 (ix2 p q) : EReal) = Cert.Spec.sage2 A0 A1 A2 A3 A5 A6 A7 A8 A9 (ix2 r q) := by
  subst h5 h6 h7 h8 h9
  unfold out1_11
  rw [View.canon_unit_zero hz]
  simp only [View.ld_unit_zero (S := S4000x256) hz, View.ld_unit_zero (S := S4000x1) hz, View.ld_unit_zero (S := S4000x128) hz,
    View.ld_unit_zero (S := S256x256) hz, View.ld_unit_zero (S := S1x256) hz, View.ld_unit_zero (S := S128x256) hz, View.ld_unit_zero (S := S256x128) hz]
  exact layer_entry A0 A1 A2 A3 x0 x3 x1 x2 x5 x6 x8 x7 x9 r p q h0 h1 h2 h3

/-- The block the projection's output window holds after the body, at row p, column q. -/
theorem out12_entry (A0 A1 : Cert.Spec.Mat 100000 256) (A2 : Cert.Spec.Mat 100000 128) (A3 A4 : Cert.Spec.Mat 100000 1)
    (A5 A6 : Cert.Spec.Mat 256 256) (A7 : Cert.Spec.Mat 128 256) (A8 A9 : Cert.Spec.Mat 1 256) (A10 : Cert.Spec.Mat 256 128)
    (x0 x1 : Vec Ideal S4000x256 .f32) (x2 : Vec Ideal S4000x128 .f32) (x3 x4 : Vec Ideal S4000x1 .f32)
    (x5 x6 : Vec Ideal S256x256 .f32) (x7 : Vec Ideal S128x256 .f32) (x8 x9 : Vec Ideal S1x256 .f32) (x10 : Vec Ideal S256x128 .f32)
    (r : Fin 100000) (p : Fin 4000) (q : Fin 128)
    (h0 : ∀ k, x0 (ix2 p k) = A0 (ix2 r k)) (h1 : ∀ k, x1 (ix2 p k) = A1 (ix2 r k)) (h2 : ∀ k, x2 (ix2 p k) = A2 (ix2 r k))
    (h3 : x3 (ix2 p 0) = A3 (ix2 r 0)) (h4 : x4 (ix2 p 0) = A4 (ix2 r 0))
    (h5 : x5 = A5) (h6 : x6 = A6) (h7 : x7 = A7) (h8 : x8 = A8) (h9 : x9 = A9) (h10 : x10 = A10) :
    (out1_12 (F := Ideal) x0 x1 x2 x3 x4 x5 x6 x7 x8 x9 x10 (ix2 p q) : EReal)
      = Cert.Spec.xws (Cert.Spec.sage2 A0 A1 A2 A3 A5 A6 A7 A8 A9) A10 A4 (ix2 r q) := by
  subst h5 h6 h7 h8 h9 h10
  unfold out1_12
  rw [View.canon_unit_zero hz]
  simp only [View.ld_unit_zero (S := S4000x256) hz, View.ld_unit_zero (S := S4000x1) hz, View.ld_unit_zero (S := S4000x128) hz,
    View.ld_unit_zero (S := S256x256) hz, View.ld_unit_zero (S := S1x256) hz, View.ld_unit_zero (S := S128x256) hz, View.ld_unit_zero (S := S256x128) hz]
  rw [scaled_apply, proj_apply, h4]
  unfold Cert.Spec.xws
  simp only [fun k => layer_entry A0 A1 A2 A3 x0 x3 x1 x2 x5 x6 x8 x7 x9 r p k h0 h1 h2 h3]

end Cert.KernelIdeal.Region1
end
-- ==== Proof.Region1Blocks.lean ====
import proofs.«125124_j61194694033656_2_alg».proof.Proof.Gen.KernelIdeal.Frame

import Idealize.ShloMosaic.Lib.Pipeline.Value
import Idealize.ShloMosaic.Lib.ValueIdx
import Idealize.ShloMosaic.Lib.ValueLayout
import Idealize.ShloMosaic.PureOps.Ideal.Laws

/-!
  The blocks the second region's windows hold at grid point t, read off the arrays the region finds on entry.

  The five per-node arrays are cut in 25 blocks of 4000 rows: row p of block t is row 4000·t + p of the array. The six
  parameter arrays are not cut: each is its own single block at every point.
-/
noncomputable section
namespace Cert.KernelIdeal.Region1
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Where each window's block sits, at every one of the 25 grid points -/

/-- Window 0 moves down its array one block of rows per grid point, in block column 0. -/
theorem idx0 : ∀ t : Fin cfg1.N, win1_0.index t (0 : Fin 2) = t.val ∧ win1_0.index t (1 : Fin 2) = 0 :=
  (by decide +kernel : ∀ t : Fin grid1.N, _)

/-- Window 1 moves down its array one block of rows per grid point, in block column 0. -/
theorem idx1 : ∀ t : Fin cfg1.N, win1_1.index t (0 : Fin 2) = t.val ∧ win1_1.index t (1 : Fin 2) = 0 :=
  (by decide +kernel : ∀ t : Fin grid1.N, _)

/-- Window 2 moves down its array one block of rows per grid point, in block column 0. -/
theorem idx2 : ∀ t : Fin cfg1.N, win1_2.index t (0 : Fin 2) = t.val ∧ win1_2.index t (1 : Fin 2) = 0 :=
  (by decide +kernel : ∀ t : Fin grid1.N, _)

/-- Window 3 moves down its array one block of rows per grid point, in block column 0. -/
theorem idx3 : ∀ t : Fin cfg1.N, win1_3.index t (0 : Fin 2) = t.val ∧ win1_3.index t (1 : Fin 2) = 0 :=
  (by decide +kernel : ∀ t : Fin grid1.N, _)

/-- Window 4 moves down its array one block of rows per grid point, in block column 0. -/
theorem idx4 : ∀ t : Fin cfg1.N, win1_4.index t (0 : Fin 2) = t.val ∧ win1_4.index t (1 : Fin 2) = 0 :=
  (by decide +kernel : ∀ t : Fin grid1.N, _)

/-- Window 5 stays on its whole array. -/
theorem idx5 : ∀ t : Fin cfg1.N, win1_5.index t (0 : Fin 2) = 0 ∧ win1_5.index t (1 : Fin 2) = 0 :=
  (by decide +kernel : ∀ t : Fin grid1.N, _)

/-- Window 6 stays on its whole array. -/
theorem idx6 : ∀ t : Fin cfg1.N, win1_6.index t (0 : Fin 2) = 0 ∧ win1_6.index t (1 : Fin 2) = 0 :=
  (by decide +kernel : ∀ t : Fin grid1.N, _)

/-- Window 7 stays on its whole array. -/
theorem idx7 : ∀ t : Fin cfg1.N, win1_7.index t (0 : Fin 2) = 0 ∧ win1_7.index t (1 : Fin 2) = 0 :=
  (by decide +kernel : ∀ t : Fin grid1.N, _)

/-- Window 8 stays on its whole array. -/
theorem idx8 : ∀ t : Fin cfg1.N, win1_8.index t (0 : Fin 2) = 0 ∧ win1_8.index t (1 : Fin 2) = 0 :=
  (by decide +kernel : ∀ t : Fin grid1.N, _)

/-- Window 9 stays on its whole array. -/
theorem idx9 : ∀ t : Fin cfg1.N, win1_9.index t (0 : Fin 2) = 0 ∧ win1_9.index t (1 : Fin 2) = 0 :=
  (by decide +kernel : ∀ t : Fin grid1.N, _)

/-- Window 10 stays on its whole array. -/
theorem idx10 : ∀ t : Fin cfg1.N, win1_10.index t (0 : Fin 2) = 0 ∧ win1_10.index t (1 : Fin 2) = 0 :=
  (by decide +kernel : ∀ t : Fin grid1.N, _)

/-- Window 11 moves down its array one block of rows per grid point, in block column 0. -/
theorem idx11 : ∀ t : Fin cfg1.N, win1_11.index t (0 : Fin 2) = t.val ∧ win1_11.index t (1 : Fin 2) = 0 :=
  (by decide +kernel : ∀ t : Fin grid1.N, _)

/-- Window 12 moves down its array one block of rows per grid point, in block column 0. -/
theorem idx12 : ∀ t : Fin cfg1.N, win1_12.index t (0 : Fin 2) = t.val ∧ win1_12.index t (1 : Fin 2) = 0 :=
  (by decide +kernel : ∀ t : Fin grid1.N, _)

/-! ## The row-blocked inputs -/

/-- Row p of point t's block of the neighbour sums is row 4000·t + p of the array. -/
theorem rows0 (c : Dev nD) (t : Fin cfg1.N) (p : Fin 4000) (k : Fin 256) (r : Fin 100000) (hr : r.val = 4000 * t.val + p.val) :
    (iblk1 V c 0 t : Vec Ideal S4000x256 .f32) (ix2 p k) = (V c (Pipeline.arrRef spec1 0) : S100000x256.Idx → EReal) (ix2 r k) := by
  obtain ⟨e0, e1⟩ := idx0 t
  show (V c (Pipeline.arrRef spec1 0) : S100000x256.Idx → EReal) (((cfg1.win 0).blk t).view.emb (ix2 p k)) = _
  refine congrArg _ (funext fun a => Fin.ext ?_)
  match a with
  | ⟨0, _⟩ => show win1_0.index t (0 : Fin 2) * 4000 + 1 * p.val = r.val; omega
  | ⟨1, _⟩ => show win1_0.index t (1 : Fin 2) * 256 + 1 * k.val = k.val; omega

/-- Row p of point t's block of the first layer's output is row 4000·t + p of the array. -/
theorem rows1 (c : Dev nD) (t : Fin cfg1.N) (p : Fin 4000) (k : Fin 256) (r : Fin 100000) (hr : r.val = 4000 * t.val + p.val) :
    (iblk1 V c 1 t : Vec Ideal S4000x256 .f32) (ix2 p k) = (V c (Pipeline.arrRef spec1 1) : S100000x256.Idx → EReal) (ix2 r k) := by
  obtain ⟨e0, e1⟩ := idx1 t
  show (V c (Pipeline.arrRef spec1 1) : S100000x256.Idx → EReal) (((cfg1.win 1).blk t).view.emb (ix2 p k)) = _
  refine congrArg _ (funext fun a => Fin.ext ?_)
  match a with
  | ⟨0, _⟩ => show win1_1.index t (0 : Fin 2) * 4000 + 1 * p.val = r.val; omega
  | ⟨1, _⟩ => show win1_1.index t (1 : Fin 2) * 256 + 1 * k.val = k.val; omega

/-- Row p of point t's block of the input features is row 4000·t + p of the array. -/
theorem rows2 (c : Dev nD) (t : Fin cfg1.N) (p : Fin 4000) (k : Fin 128) (r : Fin 100000) (hr : r.val = 4000 * t.val + p.val) :
    (iblk1 V c 2 t : Vec Ideal S4000x128 .f32) (ix2 p k) = (V c (Pipeline.arrRef spec1 2) : S100000x128.Idx → EReal) (ix2 r k) := by
  obtain ⟨e0, e1⟩ := idx2 t
  show (V c (Pipeline.arrRef spec1 2) : S100000x128.Idx → EReal) (((cfg1.win 2).blk t).view.emb (ix2 p k)) = _
  refine congrArg _ (funext fun a => Fin.ext ?_)
  match a with
  | ⟨0, _⟩ => show win1_2.index t (0 : Fin 2) * 4000 + 1 * p.val = r.val; omega
  | ⟨1, _⟩ => show win1_2.index t (1 : Fin 2) * 128 + 1 * k.val = k.val; omega

/-- Entry p of point t's block of the reciprocal degrees is entry 4000·t + p of the column. -/
theorem rows3 (c : Dev nD) (t : Fin cfg1.N) (p : Fin 4000) (r : Fin 100000) (hr : r.val = 4000 * t.val + p.val) :
    (iblk1 V c 3 t : Vec Ideal S4000x1 .f32) (ix2 p 0) = (V c (Pipeline.arrRef spec1 3) : S100000x1.Idx → EReal) (ix2 r 0) := by
  obtain ⟨e0, e1⟩ := idx3 t
  show (V c (Pipeline.arrRef spec1 3) : S100000x1.Idx → EReal) (((cfg1.win 3).blk t).view.emb (ix2 p 0)) = _
  refine congrArg _ (funext fun a => Fin.ext ?_)
  match a with
  | ⟨0, _⟩ => show win1_3.index t (0 : Fin 2) * 4000 + 1 * p.val = r.val; omega
  | ⟨1, _⟩ => show win1_3.index t (1 : Fin 2) * 1 + 1 * 0 = 0; omega

/-- Entry p of point t's block of the inverse square root degrees is entry 4000·t + p of the column. -/
theorem rows4 (c : Dev nD) (t : Fin cfg1.N) (p : Fin 4000) (r : Fin 100000) (hr : r.val = 4000 * t.val + p.val) :
    (iblk1 V c 4 t : Vec Ideal S4000x1 .f32) (ix2 p 0) = (V c (Pipeline.arrRef spec1 4) : S100000x1.Idx → EReal) (ix2 r 0) := by
  obtain ⟨e0, e1⟩ := idx4 t
  show (V c (Pipeline.arrRef spec1 4) : S100000x1.Idx → EReal) (((cfg1.win 4).blk t).view.emb (ix2 p 0)) = _
  refine congrArg _ (funext fun a => Fin.ext ?_)
  match a with
  | ⟨0, _⟩ => show win1_4.index t (0 : Fin 2) * 4000 + 1 * p.val = r.val; omega
  | ⟨1, _⟩ => show win1_4.index t (1 : Fin 2) * 1 + 1 * 0 = 0; omega

/-! ## The parameter arrays: a window over a whole array holds that array at every point -/

theorem whole5 (c : Dev nD) (t : Fin cfg1.N) :
    (iblk1 V c 5 t : Vec Ideal S256x256 .f32) = (V c (Pipeline.arrRef spec1 5) : S256x256.Idx → EReal) := by
  obtain ⟨e0, e1⟩ := idx5 t
  funext y
  show (V c (Pipeline.arrRef spec1 5) : S256x256.Idx → EReal) (((cfg1.win 5).blk t).view.emb y) = _
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

theorem whole6 (c : Dev nD) (t : Fin cfg1.N) :
    (iblk1 V c 6 t : Vec Ideal S256x256 .f32) = (V c (Pipeline.arrRef spec1 6) : S256x256.Idx → EReal) := by
  obtain ⟨e0, e1⟩ := idx6 t
  funext y
  show (V c (Pipeline.arrRef spec1 6) : S256x256.Idx → EReal) (((cfg1.win 6).blk t).view.emb y) = _
  refine congrArg _ (funext fun a => Fin.ext ?_)
  match a with
  | ⟨0, _⟩ => show win1_6.index t (0 : Fin 2) * 256 + 1 * (y 0).val = (y 0).val; omega
  | ⟨1, _⟩ => show win1_6.index t (1 : Fin 2) * 256 + 1 * (y 1).val = (y 1).val; omega

theorem whole7 (c : Dev nD) (t : Fin cfg1.N) :
    (iblk1 V c 7 t : Vec Ideal S128x256 .f32) = (V c (Pipeline.arrRef spec1 7) : S128x256.Idx → EReal) := by
  obtain ⟨e0, e1⟩ := idx7 t
  funext y
  show (V c (Pipeline.arrRef spec1 7) : S128x256.Idx → EReal) (((cfg1.win 7).blk t).view.emb y) = _
  refine congrArg _ (funext fun a => Fin.ext ?_)
  match a with
  | ⟨0, _⟩ => show win1_7.index t (0 : Fin 2) * 128 + 1 * (y 0).val = (y 0).val; omega
  | ⟨1, _⟩ => show win1_7.index t (1 : Fin 2) * 256 + 1 * (y 1).val = (y 1).val; omega

theorem whole8 (c : Dev nD) (t : Fin cfg1.N) :
    (iblk1 V c 8 t : Vec Ideal S1x256 .f32) = (V c (Pipeline.arrRef spec1 8) : S1x256.Idx → EReal) := by
  obtain ⟨e0, e1⟩ := idx8 t
  funext y
  show (V c (Pipeline.arrRef spec1 8) : S1x256.Idx → EReal) (((cfg1.win 8).blk t).view.emb y) = _
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 256 + 1 * (y 1).val = (y 1).val; omega

theorem whole9 (c : Dev nD) (t : Fin cfg1.N) :
    (iblk1 V c 9 t : Vec Ideal S1x256 .f32) = (V c (Pipeline.arrRef spec1 9) : S1x256.Idx → EReal) := by
  obtain ⟨e0, e1⟩ := idx9 t
  funext y
  show (V c (Pipeline.arrRef spec1 9) : S1x256.Idx → EReal) (((cfg1.win 9).blk t).view.emb y) = _
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 256 + 1 * (y 1).val = (y 1).val; omega

theorem whole10 (c : Dev nD) (t : Fin cfg1.N) :
    (iblk1 V c 10 t : Vec Ideal S256x128 .f32) = (V c (Pipeline.arrRef spec1 10) : S256x128.Idx → EReal) := by
  obtain ⟨e0, e1⟩ := idx10 t
  funext y
  show (V c (Pipeline.arrRef spec1 10) : S256x128.Idx → EReal) (((cfg1.win 10).blk t).view.emb y) = _
  refine congrArg _ (funext fun a => Fin.ext ?_)
  match a with
  | ⟨0, _⟩ => show win1_10.index t (0 : Fin 2) * 256 + 1 * (y 0).val = (y 0).val; omega
  | ⟨1, _⟩ => show win1_10.index t (1 : Fin 2) * 128 + 1 * (y 1).val = (y 1).val; omega

end Cert.KernelIdeal.Region1
end
-- ==== Proof.Region1H2.lean ====
import proofs.«125124_j61194694033656_2_alg».proof.Proof.Gen.KernelIdeal.Frame
import proofs.«125124_j61194694033656_2_alg».proof.Proof.Spec
import proofs.«125124_j61194694033656_2_alg».proof.Proof.Region1Entry
import proofs.«125124_j61194694033656_2_alg».proof.Proof.Region1Blocks
import Idealize.ShloMosaic.Lib.Pipeline.Value
import Idealize.ShloMosaic.Lib.ValueIdx
import Idealize.ShloMosaic.Lib.ValueLayout
import Idealize.ShloMosaic.PureOps.Ideal.Laws

/-!
  The second layer's output array after the second region: the 25 row blocks written back, assembled.

  Grid point t writes rows 4000·t … 4000·t + 3999, and each written row is the specification's row; row r is written by
  point r / 4000, so every row of the array is written.
-/
noncomputable section
namespace Cert.KernelIdeal.Region1
open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## What each grid point writes back -/

/-- Point t writes back rows 4000·t … 4000·t + 3999 of the second layer. -/
theorem written11 (c : Dev nD) (t : Fin cfg1.N) :
    (dat1 (F := Ideal) V c).flushed 11 t = ((cfg1.win 11).blk t).view.read (Elt Ideal)
      (Cert.Spec.sage2 (V c (Pipeline.arrRef spec1 0)) (V c (Pipeline.arrRef spec1 1)) (V c (Pipeline.arrRef spec1 2)) (V c (Pipeline.arrRef spec1 3)) (V c (Pipeline.arrRef spec1 5)) (V c (Pipeline.arrRef spec1 6)) (V c (Pipeline.arrRef spec1 7)) (V c (Pipeline.arrRef spec1 8)) (V c (Pipeline.arrRef spec1 9)) : S100000x256.Idx → EReal) := by
  show (cfg1.win 11).cut (grid1.coords t) ((dat1 V c).after 11 t) = _
  rw [after1_11]
  obtain ⟨e0, e1⟩ := idx11 t
  have hN : cfg1.N = 25 := N_1
  have ht : t.val < 25 := hN ▸ t.isLt
  funext j
  obtain ⟨p, q, rfl⟩ : ∃ (p : Fin 4000) (q : Fin 256), j = ix2 p q := ⟨j 0, j 1, eq_ix2 j⟩
  have hp : p.val < 4000 := p.isLt
  have hemb : ((cfg1.win 11).blk t).view.emb (ix2 p q) = ix2 (⟨4000 * t.val + p.val, by omega⟩ : Fin 100000) q :=
    funext fun a => Fin.ext (by
      match a with
      | ⟨0, _⟩ => show win1_11.index t (0 : Fin 2) * 4000 + 1 * p.val = 4000 * t.val + p.val; omega
      | ⟨1, _⟩ => show win1_11.index t (1 : Fin 2) * 256 + 1 * q.val = q.val; omega)
  show out1_11 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
    = (Cert.Spec.sage2 (V c (Pipeline.arrRef spec1 0)) (V c (Pipeline.arrRef spec1 1)) (V c (Pipeline.arrRef spec1 2)) (V c (Pipeline.arrRef spec1 3)) (V c (Pipeline.arrRef spec1 5)) (V c (Pipeline.arrRef spec1 6)) (V c (Pipeline.arrRef spec1 7)) (V c (Pipeline.arrRef spec1 8)) (V c (Pipeline.arrRef spec1 9)) : S100000x256.Idx → EReal) (((cfg1.win 11).blk t).view.emb (ix2 p q))
  rw [hemb]
  exact out11_entry (V c (Pipeline.arrRef spec1 0)) (V c (Pipeline.arrRef spec1 1)) (V c (Pipeline.arrRef spec1 2)) (V c (Pipeline.arrRef spec1 3)) (V c (Pipeline.arrRef spec1 5)) (V c (Pipeline.arrRef spec1 6)) (V c (Pipeline.arrRef spec1 7)) (V c (Pipeline.arrRef spec1 8)) (V c (Pipeline.arrRef spec1 9))
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    ⟨4000 * t.val + p.val, by omega⟩ p q
    (fun k => rows0 V c t p k _ rfl) (fun k => rows1 V c t p k _ rfl) (fun k => rows2 V c t p k _ rfl) (rows3 V c t p _ rfl)
    (whole5 V c t) (whole6 V c t) (whole7 V c t) (whole8 V c t) (whole9 V c t)

/-- An index of the array lies in point t's block exactly when each coordinate lies in the block's range on its axis. -/
theorem mem_blk11 (t : Fin cfg1.N) (i : S100000x256.Idx) :
    i ∈ ((cfg1.win 11).blk t).view.set ↔ ∀ a : Fin 2, win1_11.index t a * S4000x256.size a ≤ (i a).val ∧ (i a).val < win1_11.index t a * S4000x256.size a + S4000x256.size a := by
  show i ∈ ((View.whole main_v42_0).slice (win1_11.rect t)).set ↔ _
  rw [View.set_slice_whole, Rect.mem_set_unit]
  exact Iff.rfl

/-- Row r is written by point r / 4000: the 25 blocks of 4000 rows tile the 100000 rows. -/
theorem cover11 (i : S100000x256.Idx) : ∃ t : Fin cfg1.N, (cfg1.win 11).flush t = true ∧ i ∈ ((cfg1.win 11).blk t).view.set := by
  have hi0 : (i 0).val < 100000 := (i 0).isLt
  have hi1 : (i 1).val < 256 := (i 1).isLt
  have hN : cfg1.N = 25 := N_1
  have hlt : (i 0).val / 4000 < cfg1.N := by rw [hN]; omega
  obtain ⟨e0, e1⟩ := idx11 ⟨(i 0).val / 4000, hlt⟩
  refine ⟨⟨(i 0).val / 4000, hlt⟩, flush1_11 _, ?_⟩
  rw [mem_blk11]
  intro a
  match a with
  | ⟨0, _⟩ =>
    show win1_11.index ⟨(i 0).val / 4000, hlt⟩ (0 : Fin 2) * 4000 ≤ (i 0).val ∧ (i 0).val < win1_11.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_11.index ⟨(i 0).val / 4000, hlt⟩ (1 : Fin 2) * 256 ≤ (i 1).val ∧ (i 1).val < win1_11.index ⟨(i 0).val / 4000, hlt⟩ (1 : Fin 2) * 256 + 256
    rw [e1]; omega

/-! ## The two arrays after the region -/

/-- After the region the layer's output array is the second layer of the entry arrays. -/
theorem final1_11 (c : Dev nD) : ((dat1 (F := Ideal) V c).arrAt 11 cfg1.N : S100000x256.Idx → EReal)
    = Cert.Spec.sage2 (V c (Pipeline.arrRef spec1 0)) (V c (Pipeline.arrRef spec1 1)) (V c (Pipeline.arrRef spec1 2)) (V c (Pipeline.arrRef spec1 3)) (V c (Pipeline.arrRef spec1 5)) (V c (Pipeline.arrRef spec1 6)) (V c (Pipeline.arrRef spec1 7)) (V c (Pipeline.arrRef spec1 8)) (V c (Pipeline.arrRef spec1 9)) :=
  (dat1 (F := Ideal) V c).arrAt_eq_of_cover 11 (Cert.Spec.sage2 (V c (Pipeline.arrRef spec1 0)) (V c (Pipeline.arrRef spec1 1)) (V c (Pipeline.arrRef spec1 2)) (V c (Pipeline.arrRef spec1 3)) (V c (Pipeline.arrRef spec1 5)) (V c (Pipeline.arrRef spec1 6)) (V c (Pipeline.arrRef spec1 7)) (V c (Pipeline.arrRef spec1 8)) (V c (Pipeline.arrRef spec1 9)) : S100000x256.Idx → EReal)
    (fun t _ => written11 V c t) cover11

end Cert.KernelIdeal.Region1
end
-- ==== Proof.Region1Xws.lean ====
/-
  The scaled output projection of the second region as ONE function of the arrays the region finds on entry.

  At grid point `t` (of 25) the region works on rows `4000 t … 4000 t + 3999`. Besides the second layer's block it
  leaves, for those rows, the block's product with the 256 × 128 output weights, each row scaled by the node's inverse
  square root degree. An entry of that block at row `p`, column `q` depends only on row `p` of the row-blocked inputs,
  which is row `4000 t + p` of the arrays, so it is the whole-array projection at `(4000 t + p, q)`. Row `r` of the 100000
  rows is written by point `r / 4000`, so after the 25 points every entry of the array is the projection's.
-/
import proofs.«125124_j61194694033656_2_alg».proof.Proof.Gen.KernelIdeal.Frame
import proofs.«125124_j61194694033656_2_alg».proof.Proof.Spec
import proofs.«125124_j61194694033656_2_alg».proof.Proof.Region1Entry
import proofs.«125124_j61194694033656_2_alg».proof.Proof.Region1Blocks
import Idealize.ShloMosaic.Lib.Pipeline.Value
import Idealize.ShloMosaic.Lib.ValueIdx

noncomputable section

namespace Cert.KernelIdeal.Region1Xws

open Cert.KernelIdeal Cert.KernelIdeal.Gen Cert.KernelIdeal.Region1 Idealize.ShloMosaic Idealize.ShloMosaic.TcCoe Idealize.SL.Sem
open Idealize.ShloMosaic.ValueIdx
open Idealize.ShloMosaic.Pipeline (Dat)

/-- An entry of the projected block against the whole-array projection, at ANY pair of a block index `y` and an array
    index `i` in the same column: it is enough that row `y 0` of each row-blocked input is row `i 0` of its array and that
    the parameter arrays are held whole. -/
theorem entry12 (A0 A1 : Cert.Spec.Mat 100000 256) (A2 : Cert.Spec.Mat 100000 128) (A3 A4 : Cert.Spec.Mat 100000 1)
    (A5 A6 : Cert.Spec.Mat 256 256) (A7 : Cert.Spec.Mat 128 256) (A8 A9 : Cert.Spec.Mat 1 256) (A10 : Cert.Spec.Mat 256 128)
    (x0 x1 : Vec Ideal S4000x256 .f32) (x2 : Vec Ideal S4000x128 .f32) (x3 x4 : Vec Ideal S4000x1 .f32)
    (x5 x6 : Vec Ideal S256x256 .f32) (x7 : Vec Ideal S128x256 .f32) (x8 x9 : Vec Ideal S1x256 .f32) (x10 : Vec Ideal S256x128 .f32)
    (y : S4000x128.Idx) (i : S100000x128.Idx) (hcol : (i 1).val = (y 1).val)
    (h0 : ∀ k : Fin 256, x0 (ix2 (y 0) k) = A0 (ix2 (i 0) k)) (h1 : ∀ k : Fin 256, x1 (ix2 (y 0) k) = A1 (ix2 (i 0) k))
    (h2 : ∀ k : Fin 128, x2 (ix2 (y 0) k) = A2 (ix2 (i 0) k))
    (h3 : x3 (ix2 (y 0) (0 : Fin 1)) = A3 (ix2 (i 0) (0 : Fin 1))) (h4 : x4 (ix2 (y 0) (0 : Fin 1)) = A4 (ix2 (i 0) (0 : Fin 1)))
    (h5 : x5 = A5) (h6 : x6 = A6) (h7 : x7 = A7) (h8 : x8 = A8) (h9 : x9 = A9) (h10 : x10 = A10) :
    (out1_12 (F := Ideal) x0 x1 x2 x3 x4 x5 x6 x7 x8 x9 x10 y : EReal)
      = Cert.Spec.xws (Cert.Spec.sage2 A0 A1 A2 A3 A5 A6 A7 A8 A9) A10 A4 i := by
  obtain ⟨p, q, rfl⟩ : ∃ (p : Fin 4000) (q : Fin 128), y = ix2 p q := ⟨y 0, y 1, @eq_ix2 4000 128 y⟩
  obtain ⟨r, q', rfl⟩ : ∃ (r : Fin 100000) (q' : Fin 128), i = ix2 r q' := ⟨i 0, i 1, @eq_ix2 100000 128 i⟩
  obtain rfl : q' = q := Fin.ext hcol
  exact out12_entry A0 A1 A2 A3 A4 A5 A6 A7 A8 A9 A10 x0 x1 x2 x3 x4 x5 x6 x7 x8 x9 x10 r p q' h0 h1 h2 h3 h4 h5 h6 h7 h8 h9 h10

variable (V : (c : Dev nD) → (b : Ref sig .tc) → Buf (Elt Ideal) ((c : Thread nD τ).loc b))

/-- What grid point `t` writes back to the projection's array is rows `4000 t … 4000 t + 3999` of the projection of the
    second layer of the arrays found on entry, each row scaled by its inverse square root degree. -/
theorem written12 (c : Dev nD) (t : Fin cfg1.N) :
    (dat1 (F := Ideal) V c).flushed 12 t = ((cfg1.win 12).blk t).view.read (Elt Ideal)
      (Cert.Spec.xws (Cert.Spec.sage2 (V c (Pipeline.arrRef spec1 0)) (V c (Pipeline.arrRef spec1 1)) (V c (Pipeline.arrRef spec1 2)) (V c (Pipeline.arrRef spec1 3))
        (V c (Pipeline.arrRef spec1 5)) (V c (Pipeline.arrRef spec1 6)) (V c (Pipeline.arrRef spec1 7)) (V c (Pipeline.arrRef spec1 8)) (V c (Pipeline.arrRef spec1 9)))
      (V c (Pipeline.arrRef spec1 10)) (V c (Pipeline.arrRef spec1 4))) := by
  show (cfg1.win 12).cut (grid1.coords t) ((dat1 V c).after 12 t) = _
  rw [after1_12]
  obtain ⟨e0, e1⟩ := idx12 t
  funext j
  rw [View.read_apply]
  have hrow : ((((cfg1.win 12).blk t).view.emb j) 0).val = 4000 * t.val + (j 0).val := by
    show win1_12.index t (0 : Fin 2) * 4000 + 1 * (j 0).val = _; rw [e0]; omega
  have hcol : ((((cfg1.win 12).blk t).view.emb j) 1).val = (j 1).val := by
    show win1_12.index t (1 : Fin 2) * 128 + 1 * (j 1).val = _; rw [e1]; omega
  exact entry12 _ _ _ _ _ _ _ _ _ _ _
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t)
    ((cfg1.win 12).xinj (grid1.coords t) j) (((cfg1.win 12).blk t).view.emb j) hcol
    (fun k => rows0 V c t _ k _ hrow) (fun k => rows1 V c t _ k _ hrow) (fun k => rows2 V c t _ k _ hrow)
    (rows3 V c t _ _ hrow) (rows4 V c t _ _ hrow)
    (whole5 V c t) (whole6 V c t) (whole7 V c t) (whole8 V c t) (whole9 V c t) (whole10 V c t)

/-- An index of the projection's array is in point `t`'s block when its row is among `4000 t … 4000 t + 3999`. -/
theorem mem_blk12 (t : Fin cfg1.N) (i : S100000x128.Idx) :
    i ∈ ((cfg1.win 12).blk t).view.set ↔ ∀ a : Fin 2, win1_12.index t a * S4000x128.size a ≤ (i a).val
      ∧ (i a).val < win1_12.index t a * S4000x128.size a + S4000x128.size a := by
  show i ∈ ((View.whole main_v42_1).slice (win1_12.rect t)).set ↔ _
  rw [View.set_slice_whole, Rect.mem_set_unit]
  exact Iff.rfl

/-- Row `r` of the projection's array is written by grid point `r / 4000`. -/
theorem cover12 (i : S100000x128.Idx) :
    ∃ t : Fin cfg1.N, (cfg1.win 12).flush t = true ∧ i ∈ ((cfg1.win 12).blk t).view.set := by
  have hi0 : (i 0).val < 100000 := (i 0).isLt
  have hi1 : (i 1).val < 128 := (i 1).isLt
  obtain ⟨t, ht⟩ : ∃ t : Fin cfg1.N, t.val = (i 0).val / 4000 :=
    ⟨⟨(i 0).val / 4000, by rw [show cfg1.N = 25 from N_1]; omega⟩, rfl⟩
  obtain ⟨e0, e1⟩ := idx12 t
  refine ⟨t, flush1_12 t, ?_⟩
  rw [mem_blk12]
  intro a
  match a with
  | ⟨0, _⟩ =>
    show win1_12.index t (0 : Fin 2) * 4000 ≤ (i 0).val ∧ (i 0).val < win1_12.index t (0 : Fin 2) * 4000 + 4000
    rw [e0, ht]; omega
  | ⟨1, _⟩ =>
    show win1_12.index t (1 : Fin 2) * 128 ≤ (i 1).val ∧ (i 1).val < win1_12.index t (1 : Fin 2) * 128 + 128
    rw [e1]; omega

/-- After the 25 grid points the projection's array is the second layer of the arrays found on entry times the output
    weights, each row scaled by its inverse square root degree. -/
theorem final1_12 (c : Dev nD) :
    (((dat1 (F := Ideal) V c).arrAt 12 cfg1.N) : S100000x128.Idx → EReal)
      = Cert.Spec.xws (Cert.Spec.sage2 (V c (Pipeline.arrRef spec1 0)) (V c (Pipeline.arrRef spec1 1)) (V c (Pipeline.arrRef spec1 2)) (V c (Pipeline.arrRef spec1 3))
        (V c (Pipeline.arrRef spec1 5)) (V c (Pipeline.arrRef spec1 6)) (V c (Pipeline.arrRef spec1 7)) (V c (Pipeline.arrRef spec1 8)) (V c (Pipeline.arrRef spec1 9)))
      (V c (Pipeline.arrRef spec1 10)) (V c (Pipeline.arrRef spec1 4)) :=
  (dat1 (F := Ideal) V c).arrAt_eq_of_cover 12 _ (fun t _ => written12 V c t) cover12

end Cert.KernelIdeal.Region1Xws

end
-- ==== Proof.KStage2.lean ====
/-
  The second launch's two outputs, as the kernel leaves them: the second layer's output is the specification's
  second-layer function of the neighbour sum of the first layer's output, that output, the node features, the
  reciprocal-degree column, the weights and the two bias rows; the scaled projection is its product with the two output
  weight matrices side by side, each row scaled by the inverse square root degree.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost1
import proofs.«125124_j61194694033656_2_alg».proof.Proof.KHost2
import proofs.«125124_j61194694033656_2_alg».proof.Proof.KStage1
import proofs.«125124_j61194694033656_2_alg».proof.Proof.Region1H2
import proofs.«125124_j61194694033656_2_alg».proof.Proof.Region1Xws
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KStage2

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

open Cert.KernelIdeal.KHost0 (row)

/-- The first layer's output. -/
abbrev H1s (c : Dev nD) : Cert.Spec.Mat 100000 256 :=
  Cert.Spec.sage1 (Cert.ReferenceIdeal.Read.val_main_v17 (F := Ideal) (m ((c.tc : Thread nD τ).loc main_arg0)) (m ((c.tc : Thread nD τ).loc main_arg1))) (m ((c.tc : Thread nD τ).loc main_arg0)) (Cert.Spec.rdeg (Cert.ReferenceIdeal.Read.val_main_v7 (F := Ideal) (m ((c.tc : Thread nD τ).loc main_arg1)))) (m ((c.tc : Thread nD τ).loc main_arg2)) (m ((c.tc : Thread nD τ).loc main_arg3)) (row (m ((c.tc : Thread nD τ).loc main_arg4)))

/-- The neighbour sum of an array of 256-wide rows: gathered at the wrapped sources, added at the destinations. -/
abbrev agg256 (c : Dev nD) (H : (⟨Cert.ReferenceIdeal.S100000x256, .f32⟩ : BufTy).Contents (Elt Ideal)) :
    (⟨Cert.ReferenceIdeal.S100000x256, .f32⟩ : BufTy).Contents (Elt Ideal) :=
  Host.scatterAdd (F := Ideal) (φ := .f32) Cert.ReferenceIdeal.scatter_S100000x256_S800000x1_S800000x256_1_0_0_1 (Cert.ReferenceIdeal.Read.val_main_v43 (F := Ideal))
    (Cert.ReferenceIdeal.Read.val_main_v44 (F := Ideal) (m ((c.tc : Thread nD τ).loc main_arg1)))
    (Host.gather Cert.ReferenceIdeal.gather_S100000x256_S800000x1_S800000x256_1_0_n_n_0_1_1256 H (Cert.ReferenceIdeal.Read.val_main_v41 (F := Ideal) (m ((c.tc : Thread nD τ).loc main_arg1))))

/-- The second layer's output. -/
abbrev H2s (c : Dev nD) : Cert.Spec.Mat 100000 256 :=
  Cert.Spec.sage2 (agg256 m c (H1s m c)) (H1s m c) (m ((c.tc : Thread nD τ).loc main_arg0)) (Cert.Spec.rdeg (Cert.ReferenceIdeal.Read.val_main_v7 (F := Ideal) (m ((c.tc : Thread nD τ).loc main_arg1)))) (m ((c.tc : Thread nD τ).loc main_arg5)) (m ((c.tc : Thread nD τ).loc main_arg6)) (m ((c.tc : Thread nD τ).loc main_arg8)) (row (m ((c.tc : Thread nD τ).loc main_arg7))) (row (m ((c.tc : Thread nD τ).loc main_arg9)))

/-- The two output weight matrices side by side. -/
abbrev wcat (c : Dev nD) : (⟨S256x128, .f32⟩ : BufTy).Contents (Elt Ideal) :=
  concatenate S256x128 1 [⟨S256x64, (m ((c.tc : Thread nD τ).loc main_arg10))⟩, ⟨S256x64, (m ((c.tc : Thread nD τ).loc main_arg12))⟩] Facts₀.concatenates_S256x64_S256x64_S256x128_d1

/-- What the second launch leaves in its first output array. -/
theorem h2_spec (c : Dev nD) : W4 m ρ c (Proc.devRef .tc main_v42_0) = H2s m c := by
  refine (W4_arr m ρ c 11).trans ?_
  refine (Cert.KernelIdeal.Region1.final1_11 (V3 m ρ) c).trans ?_
  show Cert.Spec.sage2 (W3 m ρ c (Proc.devRef .tc main_v41)) (W3 m ρ c (Proc.devRef .tc main_v28)) (W3 m ρ c (Proc.devRef .tc main_arg0))
      (W3 m ρ c (Proc.devRef .tc main_v12)) (W3 m ρ c (Proc.devRef .tc main_arg5)) (W3 m ρ c (Proc.devRef .tc main_arg6))
      (W3 m ρ c (Proc.devRef .tc main_arg8)) (W3 m ρ c (Proc.devRef .tc main_v29)) (W3 m ρ c (Proc.devRef .tc main_v30)) = _
  rw [KHost1.v41 m ρ c _ (KStage1.h1_spec m ρ c), KHost1.v28, KStage1.h1_spec, KHost1.s_arg0, KHost1.s_v12, KHost1.s_arg5,
    KHost1.s_arg6, KHost1.s_arg8, KHost1.v29, KHost1.v30]

/-- What the second launch leaves in its second output array. -/
theorem xws_spec (c : Dev nD) : W4 m ρ c (Proc.devRef .tc main_v42_1) = Cert.Spec.xws (H2s m c) (wcat m c) (Cert.Spec.rsdeg (Cert.ReferenceIdeal.Read.val_main_v7 (F := Ideal) (m ((c.tc : Thread nD τ).loc main_arg1)))) := by
  refine (W4_arr m ρ c 12).trans ?_
  refine (Cert.KernelIdeal.Region1Xws.final1_12 (V3 m ρ) c).trans ?_
  show Cert.Spec.xws (Cert.Spec.sage2 (W3 m ρ c (Proc.devRef .tc main_v41)) (W3 m ρ c (Proc.devRef .tc main_v28)) (W3 m ρ c (Proc.devRef .tc main_arg0))
      (W3 m ρ c (Proc.devRef .tc main_v12)) (W3 m ρ c (Proc.devRef .tc main_arg5)) (W3 m ρ c (Proc.devRef .tc main_arg6))
      (W3 m ρ c (Proc.devRef .tc main_arg8)) (W3 m ρ c (Proc.devRef .tc main_v29)) (W3 m ρ c (Proc.devRef .tc main_v30)))
      (W3 m ρ c (Proc.devRef .tc main_v31)) (W3 m ρ c (Proc.devRef .tc main_v16)) = _
  rw [KHost1.v41 m ρ c _ (KStage1.h1_spec m ρ c), KHost1.v28, KStage1.h1_spec, KHost1.s_arg0, KHost1.s_v12, KHost1.s_arg5,
    KHost1.s_arg6, KHost1.s_arg8, KHost1.v29, KHost1.v30, KHost1.v31, KHost1.s_v16]

end Cert.KernelIdeal.KStage2

end
-- ==== Proof.Region2.lean ====
/-
  The third fused stage: the normalised aggregation, block by block.

  The stage works on blocks of 4000 consecutive rows. At grid point t it holds rows 4000·t … 4000·t + 3999 of the
  neighbour sum and of the node's own projected features (128 columns each), the same rows of the one-column scale, and
  the whole bias row. Entry (p, q) of what it leaves is
      scale(p) · (sum(p, q) + own(p, q)) + bias(q).
  Row r of the result array is written by point r / 4000 alone, and the twenty-five blocks cover all 100000 rows, so the
  array ends holding that expression at every index: the specification's `combine`.
-/
import proofs.«125124_j61194694033656_2_alg».proof.Proof.Gen.KernelIdeal.Frame
import proofs.«125124_j61194694033656_2_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The zero offsets of a whole-block access, however they are spelt. -/
theorem zero_offsets : (![0, 0] : Fin 2 → Nat) = fun _ => 0 := funext fun a => by fin_cases a <;> rfl

/-- One column spread over `b` columns reads, at `(p, c)`, the column's entry in row `p`. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, q)` of what the stage computes from its four blocks: the scale of row `p` times the sum of the two
    feature entries, plus the bias of column `q`. -/
theorem payload_apply (v0 : Vec Ideal S4000x1 .f32) (v2 v4 : Vec Ideal S4000x128 .f32) (v9 : Vec Ideal S1x128 .f32)
    (p : Fin 4000) (q : Fin 128) :
    k2_pay1 (F := Ideal) v0 v2 v4 v9 (ix2 p q)
      = v0 (ix2 p 0) * (v2 (ix2 p q) + v4 (ix2 p q)) + v9 (ix2 0 q) := by
  unfold k2_pay1
  simp only [shapeCast_self]
  rw [addf_apply, mulf_apply, addf_apply, broadcast_column_apply, broadcastTo_1b_ab_apply]

/-- The same entry at any index `j` of the block, against the specification at an index `i` of the arrays, given that
    each block entry the stage reads is the array entry the specification reads. -/
theorem payload_eq_combine (x0 x1 : Vec Ideal S4000x128 .f32) (x2 : Vec Ideal S4000x1 .f32) (x3 : Vec Ideal S1x128 .f32)
    (scat xw : Spec.Mat 100000 128) (dinv : Spec.Mat 100000 1) (b : Spec.Mat 1 128)
    (j : S4000x128.Idx) (i : S100000x128.Idx)
    (h0 : x0 j = scat i) (h1 : x1 j = xw i) (h2 : x2 (ix2 (j 0) 0) = dinv (ix2 (i 0) 0))
    (h3 : x3 (ix2 0 (j 1)) = b (ix2 0 (i 1))) :
    k2_pay1 (F := Ideal) x2 x0 x1 x3 j = Spec.combine scat xw dinv b i := by
  obtain ⟨p, q, rfl⟩ : ∃ (p : Fin 4000) (q : Fin 128), j = ix2 p q := ⟨j 0, j 1, eq_ix2 j⟩
  rw [payload_apply]
  unfold Spec.combine
  rw [← h0, ← h1, ← h2, ← h3]

variable (V : (c : Dev nD) → (b : Ref sig .tc) → Buf (Elt Ideal) ((c : Thread nD τ).loc b))

/-- The block numbers of the five windows at a grid point: the four row-blocked windows all sit at block `t` of their
    rows and at column block 0; the bias row is always block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of the neighbour sum is rows `4000·t … 4000·t + 3999` of its array. -/
theorem block0_apply (c : Dev nD) (t : Fin cfg2.N) (x : S4000x128.Idx) (k : S100000x128.Idx)
    (hk0 : (k 0).val = 4000 * t.val + (x 0).val) (hk1 : (k 1).val = (x 1).val) :
    (iblk2 V c 0 t : Vec Ideal S4000x128 .f32) x = (V c (Pipeline.arrRef spec2 0) : S100000x128.Idx → EReal) k := by
  obtain ⟨e0, e1, -⟩ := index_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 4000 + 1 * (x 0).val = (k 0).val; omega
  | ⟨1, _⟩ => show win2_0.index t (1 : Fin 2) * 128 + 1 * (x 1).val = (k 1).val; omega

/-- Block `t` of the node's own projected features is the same rows of its array. -/
theorem block1_apply (c : Dev nD) (t : Fin cfg2.N) (x : S4000x128.Idx) (k : S100000x128.Idx)
    (hk0 : (k 0).val = 4000 * t.val + (x 0).val) (hk1 : (k 1).val = (x 1).val) :
    (iblk2 V c 1 t : Vec Ideal S4000x128 .f32) x = (V c (Pipeline.arrRef spec2 1) : S100000x128.Idx → EReal) k := by
  obtain ⟨-, -, e0, e1, -⟩ := index_facts t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 4000 + 1 * (x 0).val = (k 0).val; omega
  | ⟨1, _⟩ => show win2_1.index t (1 : Fin 2) * 128 + 1 * (x 1).val = (k 1).val; omega

/-- Block `t` of the scale column is the same rows of the column. -/
theorem block2_apply (c : Dev nD) (t : Fin cfg2.N) (x : S4000x1.Idx) (k : S100000x1.Idx)
    (hk0 : (k 0).val = 4000 * t.val + (x 0).val) (hk1 : (k 1).val = (x 1).val) :
    (iblk2 V c 2 t : Vec Ideal S4000x1 .f32) x = (V c (Pipeline.arrRef spec2 2) : S100000x1.Idx → EReal) k := by
  obtain ⟨-, -, -, -, e0, e1, -⟩ := index_facts t
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 4000 + 1 * (x 0).val = (k 0).val; omega
  | ⟨1, _⟩ => show win2_2.index t (1 : Fin 2) * 1 + 1 * (x 1).val = (k 1).val; omega

/-- The bias window's one block is the whole bias row at every point. -/
theorem block3_apply (c : Dev nD) (t : Fin cfg2.N) (x : S1x128.Idx) (k : S1x128.Idx)
    (hk0 : (k 0).val = (x 0).val) (hk1 : (k 1).val = (x 1).val) :
    (iblk2 V c 3 t : Vec Ideal S1x128 .f32) x = (V c (Pipeline.arrRef spec2 3) : S1x128.Idx → EReal) k := by
  obtain ⟨-, -, -, -, -, -, e0, e1, -⟩ := index_facts t
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1 + 1 * (x 0).val = (k 0).val; omega
  | ⟨1, _⟩ => show win2_3.index t (1 : Fin 2) * 128 + 1 * (x 1).val = (k 1).val; omega

/-- What grid point `t` writes back is block `t` of the specification's array. -/
theorem flushed_eq (c : Dev nD) (t : Fin cfg2.N) :
    (dat2 (F := Ideal) V c).flushed 4 t = ((cfg2.win 4).blk t).view.read (Elt Ideal)
      (Spec.combine (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S4000x128) zero_offsets, View.ld_unit_zero (S := S4000x1) zero_offsets,
    View.ld_unit_zero (S := S1x128) zero_offsets]
  obtain ⟨-, -, -, -, -, -, -, -, e40, e41⟩ := index_facts t
  refine funext fun (j : S4000x128.Idx) => ?_
  show k2_pay1 (F := Ideal) (iblk2 V c 2 t) (iblk2 V c 0 t) (iblk2 V c 1 t) (iblk2 V c 3 t) j
    = Spec.combine (V c (Pipeline.arrRef spec2 0)) (V c (Pipeline.arrRef spec2 1)) (V c (Pipeline.arrRef spec2 2))
        (V c (Pipeline.arrRef spec2 3)) (((cfg2.win 4).blk t).view.emb j)
  have k0 : ((((cfg2.win 4).blk t).view.emb j : S100000x128.Idx) 0).val = 4000 * t.val + (j 0).val := by
    show win2_4.index t (0 : Fin 2) * 4000 + 1 * (j 0).val = _; omega
  have k1 : ((((cfg2.win 4).blk t).view.emb j : S100000x128.Idx) 1).val = (j 1).val := by
    show win2_4.index t (1 : Fin 2) * 128 + 1 * (j 1).val = _; omega
  exact payload_eq_combine _ _ _ _ _ _ _ _ j _ (block0_apply V c t j _ k0 k1) (block1_apply V c t j _ k0 k1)
    (block2_apply V c t (ix2 (j 0) 0) (ix2 _ 0) k0 rfl) (block3_apply V c t (ix2 0 (j 1)) (ix2 0 _) rfl k1)

/-- An index of the result array is in point `t`'s block exactly when, on each axis, its coordinate is in the block's
    range. -/
theorem mem_block (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v55).slice (win2_4.rect t)).set ↔ _
  rw [View.set_slice_whole, Rect.mem_set_unit]
  exact Iff.rfl

/-- Every index of the result array is in some point's block: row `r` is in the block of point `r / 4000`. -/
theorem covered (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, e40, e41⟩ := index_facts t
  refine ⟨t, flush2_4 t, ?_⟩
  rw [mem_block]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 128 ≤ (i 1).val ∧ (i 1).val < win2_4.index t (1 : Fin 2) * 128 + 128
    omega

/-- After the stage's run the result array holds the specification's normalised aggregation of the four arrays the
    stage was entered with. -/
theorem final2 (c : Dev nD) :
    ((dat2 (F := Ideal) V c).arrAt 4 cfg2.N : S100000x128.Idx → EReal)
      = Spec.combine (V c (Pipeline.arrRef spec2 0)) (V c (Pipeline.arrRef spec2 1)) (V c (Pipeline.arrRef spec2 2))
          (V c (Pipeline.arrRef spec2 3)) :=
  (dat2 (F := Ideal) V c).arrAt_eq_of_cover 4 _ (fun t _ => flushed_eq V c t) covered

end Cert.KernelIdeal.Region2

end
-- ==== Proof.LibRowScatterGather.lean ====
/-
  A table of rows read and accumulated through an array of row numbers.

  A table has N rows of C entries. An array of E row numbers, stored as one column of w-bit words, selects rows of it.
  * Reading: entry (e, c) of the selection is entry c of the row whose number is word e, the word taken as a signed
    integer and moved into the range 0 … N − 1 (a negative number reads row 0, a number past the end reads row N − 1).
  * Accumulating: entry (i, c) of the result is entry (i, c) of the table plus the sum of the entries (e, c) of the update
    rows e whose word, taken as a signed integer, is exactly i; an update row whose number is not a row of the table is
    added nowhere.
  The same two statements for a table with a single entry per row, seen as a vector of length N.
  Every statement is for arbitrary N, E, C and w; the side conditions of the dimension numbers are an argument.
-/
import Idealize.ShloMosaic.PureOps.Ideal
import Idealize.ShloMosaic.Lib.ValueIdx

noncomputable section

open scoped BigOperators

namespace Cert.LibRowScatterGather

open Idealize.ShloMosaic Idealize.ShloMosaic.ValueIdx

/-- On a two-axis shape, axis 1 is not axis 0. -/
private theorem one_ne_zero2 : (1 : Fin 2) ≠ 0 := by decide

/-! ## Reading rows of a table -/

section RowGather
variable {α : Type}

/-- The dimension numbers of a row selection: table `[N, C]`, row numbers `[E, 1]`, selection `[E, C]`. The row axis of
    the table is collapsed and is the one the row number addresses; a whole row (one by `C`) is taken, and its entries
    run along axis 1 of the selection. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of a row selection is entry `c` of the table row numbered by word `e`, the word read as a signed
    integer and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    -- the row coordinate: the clamped row number, nothing added to it
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column coordinate: no row number addresses it, so it is the selection's own column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from
        fun h => absurd (List.mem_singleton.mp h) one_ne_zero2)]
    rw [hs]
    have hk : (1 : Fin 2) ∈ (rowGatherDims N E C wf).sKept :=
      (GatherDims.mem_sKept _ _).mpr ⟨fun h => absurd (List.mem_singleton.mp h) one_ne_zero2, List.not_mem_nil⟩
    unfold GatherDims.offCoord
    rw [dif_pos hk]
    simp only [Nat.zero_add]
    rfl

end RowGather

/-! ## Accumulating update rows into a table -/

section RowScatter

/-- The dimension numbers of a row accumulation: table `[N, C]`, row numbers `[E, 1]`, update rows `[E, C]`. The row
    number addresses the row axis of the table, on which an update row is one entry wide; its `C` entries run along the
    column axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis an update entry `(e, c')` starts at the signed value of word `e`. -/
theorem rowScatter_start_row :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at zero: no word addresses that axis. -/
theorem rowScatter_start_col : (rowScatterDims N E C wf).start (ix2 e c') idx 1 = 0 := by
  unfold ScatterDims.start
  rw [dif_neg (show (1 : Fin 2) ∉ (rowScatterDims N E C wf).scatterDimsToOperandDims from
    fun h => absurd (List.mem_singleton.mp h) one_ne_zero2)]

/-- Within its window an update entry does not move along the row axis … -/
theorem rowScatter_window_row : (rowScatterDims N E C wf).window (ix2 e c') 0 = 0 := by
  unfold ScatterDims.window
  rw [dif_neg (show (0 : Fin 2) ∉ (rowScatterDims N E C wf).sKept from
    fun h => of_decide_eq_true (List.mem_filter.mp h).2 (List.mem_singleton.mpr rfl))]

/-- … and sits at its own column along the column axis. -/
theorem rowScatter_window_col : (rowScatterDims N E C wf).window (ix2 e c') 1 = c'.val := by
  have hk : (1 : Fin 2) ∈ (rowScatterDims N E C wf).sKept :=
    List.mem_filter.mpr ⟨List.mem_finRange _, decide_eq_true (fun h => absurd (List.mem_singleton.mp h) one_ne_zero2)⟩
  unfold ScatterDims.window
  rw [dif_pos hk]
  rfl

/-- Update entry `(e, c')` lands on table entry `(i, c)` exactly when the columns agree and word `e`, read as a signed
    integer, is `i`. -/
theorem rowScatter_resultIdx_iff (i : Fin N) (c : Fin C) :
    (rowScatterDims N E C wf).resultIdx? (ix2 e c') idx = some (ix2 i c)
      ↔ c' = c ∧ (idx (ix2 e 0)).toInt = (i.val : ℤ) := by
  have s0 := rowScatter_start_row wf idx e c'
  have s1 := rowScatter_start_col wf idx e c'
  have w0 := rowScatter_window_row wf e c'
  have w1 := rowScatter_window_col wf e c'
  unfold ScatterDims.resultIdx?
  split
  · next h =>
    rw [Option.some.injEq]
    constructor
    · intro hf
      have h0 : ((rowScatterDims N E C wf).start (ix2 e c') idx 0 + (rowScatterDims N E C wf).window (ix2 e c') 0).toNat
          = i.val := congrArg Fin.val (congrFun hf 0)
      have h1 : ((rowScatterDims N E C wf).start (ix2 e c') idx 1 + (rowScatterDims N E C wf).window (ix2 e c') 1).toNat
          = c.val := congrArg Fin.val (congrFun hf 1)
      have hp := (h 0).1
      rw [s0, w0] at h0 hp
      rw [s1, w1] at h1
      exact ⟨Fin.ext (by omega), by omega⟩
    · rintro ⟨hc, hT⟩
      funext a; refine Fin.ext ?_
      match a with
      | ⟨0, _⟩ =>
        show ((rowScatterDims N E C wf).start (ix2 e c') idx 0 + (rowScatterDims N E C wf).window (ix2 e c') 0).toNat = i.val
        rw [s0, w0]; omega
      | ⟨1, _⟩ =>
        show ((rowScatterDims N E C wf).start (ix2 e c') idx 1 + (rowScatterDims N E C wf).window (ix2 e c') 1).toNat = c.val
        rw [s1, w1, hc]; omega
  · next h =>
    constructor
    · intro hf; cases hf
    · rintro ⟨hc, hT⟩
      refine absurd (fun a => ?_) h
      match a with
      | ⟨0, _⟩ =>
        show 0 ≤ (rowScatterDims N E C wf).start (ix2 e c') idx 0 + ((rowScatterDims N E C wf).window (ix2 e c') 0 : ℕ)
          ∧ (rowScatterDims N E C wf).start (ix2 e c') idx 0 + ((rowScatterDims N E C wf).window (ix2 e c') 0 : ℕ) < (N : ℤ)
        rw [s0, w0]
        have := i.isLt
        omega
      | ⟨1, _⟩ =>
        show 0 ≤ (rowScatterDims N E C wf).start (ix2 e c') idx 1 + ((rowScatterDims N E C wf).window (ix2 e c') 1 : ℕ)
          ∧ (rowScatterDims N E C wf).start (ix2 e c') idx 1 + ((rowScatterDims N E C wf).window (ix2 e c') 1 : ℕ) < (C : ℤ)
        rw [s1, w1]
        have := c'.isLt
        omega

/-- Entry `(i, c)` of a row accumulation is the table's entry plus the sum of the entries `(e, c)` of the update rows
    `e` whose word, read as a signed integer and not clamped, is `i`; an update row numbered outside `[0, N)` is added
    nowhere. -/
theorem scatterAdd_rows_apply (x : (⟨2, ![N, C]⟩ : Shape).Idx → EReal) (upd : (⟨2, ![E, C]⟩ : Shape).Idx → EReal)
    (i : Fin N) (c : Fin C) :
    Ideal.hostScatterAdd (rowScatterDims N E C wf) x idx upd (ix2 i c)
      = x (ix2 i c) + ∑ e ∈ Finset.univ.filter (fun e : Fin E => (idx (ix2 e 0)).toInt = (i.val : ℤ)), upd (ix2 e c) := by
  unfold Ideal.hostScatterAdd
  congr 1
  rw [Finset.sum_filter, Finset.sum_filter, sum_idx2]
  refine Finset.sum_congr rfl fun e _ => ?_
  by_cases hQ : (idx (ix2 e 0)).toInt = (i.val : ℤ)
  · rw [if_pos hQ, Finset.sum_eq_single c]
    · rw [if_pos ((rowScatter_resultIdx_iff wf idx e c i c).2 ⟨rfl, hQ⟩)]
    · intro c' _ hne
      rw [if_neg (fun h => hne ((rowScatter_resultIdx_iff wf idx e c' i c).1 h).1)]
    · intro h; exact absurd (Finset.mem_univ c) h
  · rw [if_neg hQ]
    exact Finset.sum_eq_zero fun c' _ => if_neg (fun h => hQ ((rowScatter_resultIdx_iff wf idx e c' i c).1 h).2)

end RowScatter

/-! ## Reading entries of a vector -/

section VecGather
variable {α : Type}

/-- The dimension numbers of a selection from a vector: vector `[N]`, entry numbers `[E, 1]`, selection `[E]`. The one
    axis of the vector is collapsed and is the one the entry number addresses; one entry is taken. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of a selection from a vector is the vector's entry numbered by word `e`, the word read as a signed
    integer and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating update entries into a vector -/

section VecScatter

/-- A sum over the indices of a vector is the sum over its one coordinate. -/
theorem sum_idx1 {M : Type*} [AddCommMonoid M] {n : Nat} (f : (⟨1, ![n]⟩ : Shape).Idx → M) :
    ∑ j, f j = ∑ a : Fin n, f (ix1 a) := by
  let eqv : (⟨1, ![n]⟩ : Shape).Idx ≃ Fin n :=
    { toFun := fun j => j 0, invFun := fun a => ix1 a, left_inv := fun j => (eq_ix1 j).symm, right_inv := fun _ => rfl }
  exact (Equiv.sum_comp eqv.symm f).symm

/-- The dimension numbers of an accumulation into a vector: vector `[N]`, entry numbers `[E, 1]`, updates `[E]`. The
    entry number addresses the one axis of the vector, on which an update is one entry wide. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- Update entry `e` starts at the signed value of word `e` … -/
theorem vecScatter_start : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and does not move within its window. -/
theorem vecScatter_window : (vecScatterDims N E wf).window (ix1 e) 0 = 0 := by
  unfold ScatterDims.window
  rw [dif_neg (show (0 : Fin 1) ∉ (vecScatterDims N E wf).sKept from
    fun h => of_decide_eq_true (List.mem_filter.mp h).2 (List.mem_singleton.mpr rfl))]

/-- Update entry `e` lands on vector entry `i` exactly when word `e`, read as a signed integer, is `i`. -/
theorem vecScatter_resultIdx_iff (i : Fin N) :
    (vecScatterDims N E wf).resultIdx? (ix1 e) idx = some (ix1 i) ↔ (idx (ix2 e 0)).toInt = (i.val : ℤ) := by
  have s0 := vecScatter_start wf idx e
  have w0 := vecScatter_window wf e
  unfold ScatterDims.resultIdx?
  split
  · next h =>
    rw [Option.some.injEq]
    constructor
    · intro hf
      have h0 : ((vecScatterDims N E wf).start (ix1 e) idx 0 + (vecScatterDims N E wf).window (ix1 e) 0).toNat
          = i.val := congrArg Fin.val (congrFun hf 0)
      have hp := (h 0).1
      rw [s0, w0] at h0 hp
      omega
    · intro hT
      funext a
      obtain rfl : a = 0 := Subsingleton.elim _ _
      refine Fin.ext ?_
      show ((vecScatterDims N E wf).start (ix1 e) idx 0 + (vecScatterDims N E wf).window (ix1 e) 0).toNat = i.val
      rw [s0, w0]; omega
  · next h =>
    constructor
    · intro hf; cases hf
    · intro hT
      refine absurd (fun a => ?_) h
      obtain rfl : a = 0 := Subsingleton.elim _ _
      show 0 ≤ (vecScatterDims N E wf).start (ix1 e) idx 0 + ((vecScatterDims N E wf).window (ix1 e) 0 : ℕ)
        ∧ (vecScatterDims N E wf).start (ix1 e) idx 0 + ((vecScatterDims N E wf).window (ix1 e) 0 : ℕ) < (N : ℤ)
      rw [s0, w0]
      have := i.isLt
      omega

/-- Entry `i` of an accumulation into a vector is the vector's entry plus the sum of the updates `e` whose word, read
    as a signed integer and not clamped, is `i`; an update numbered outside `[0, N)` is added nowhere. -/
theorem scatterAdd_vec_apply (x : (⟨1, ![N]⟩ : Shape).Idx → EReal) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, Finset.sum_filter, sum_idx1]
  exact Finset.sum_congr rfl fun e _ => if_congr (vecScatter_resultIdx_iff wf idx e i) rfl rfl

end VecScatter

end Cert.LibRowScatterGather

end
-- ==== Proof.KGcn.lean ====
/-
  The graph convolution as the kernel computes it, read at one entry.

  The third launch leaves, at row i and column q, the inverse square root degree of node i times the sum of two terms,
  plus the bias of column q. The first term is the neighbour sum: starting from zero, the rows of the scaled projection
  at the (wrapped, then clamped) source nodes of the edges whose destination is i, added up at column q. The second is
  the scaled projection's own entry (i, q). The scaled projection is the second layer's output times the two output
  weight matrices side by side, so its left 64 columns are the product with the first matrix and its right 64 columns the
  product with the second, each row scaled by the inverse square root degree; the bias row is the two bias vectors one
  after the other.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost2
import proofs.«125124_j61194694033656_2_alg».proof.Proof.KStage2
import proofs.«125124_j61194694033656_2_alg».proof.Proof.Region2
import proofs.«125124_j61194694033656_2_alg».proof.Proof.LibRowScatterGather
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KGcn

open Cert.KernelIdeal Cert.KernelIdeal.Gen Idealize.ShloMosaic Idealize.ShloMosaic.TcCoe Idealize.SL.Sem
open Idealize.ShloMosaic.StableHlo Idealize.ShloMosaic.ValueIdx
open Cert.LibRowScatterGather

variable (m : (ℓ : Loc nD τ sig) → Buf (Elt Ideal) ℓ) (ρ : Dev nD → PrngReg)

/-! ## The bias row -/

/-- The left half of the joined bias row is the first bias vector. -/
theorem bcat_left (b1 b2 : (⟨1, ![64]⟩ : Shape).Idx → EReal) (q : Fin 64) :
    KHost2.bcat b1 b2 (ix2 0 ⟨q.val, by omega⟩) = b1 (ix1 q) := by
  unfold KHost2.bcat
  rw [dif_pos (show ((ix2 (0 : Fin 1) (⟨q.val, by omega⟩ : Fin 128) : (⟨2, ![1, 128]⟩ : Shape).Idx) 1).val < 64 from q.isLt)]

/-- The right half of the joined bias row is the second bias vector. -/
theorem bcat_right (b1 b2 : (⟨1, ![64]⟩ : Shape).Idx → EReal) (q : Fin 64) :
    KHost2.bcat b1 b2 (ix2 0 ⟨64 + q.val, by omega⟩) = b2 (ix1 q) := by
  unfold KHost2.bcat
  rw [dif_neg (show ¬ ((ix2 (0 : Fin 1) (⟨64 + q.val, by omega⟩ : Fin 128) : (⟨2, ![1, 128]⟩ : Shape).Idx) 1).val < 64 from by
    show ¬ 64 + q.val < 64; omega)]
  exact congrArg (fun z => b2 (ix1 z)) (Fin.ext (by show 64 + q.val - 64 = q.val; omega))

/-! ## The scaled projection on the two column halves -/

/-- Entry (r, q) of a row-scaled product: the row of the left factor against the column of the right one, times the
    scale of the row. -/
theorem xws_apply (h2 : Cert.Spec.Mat 100000 256) (w : Cert.Spec.Mat 256 128) (d : Cert.Spec.Mat 100000 1)
    (r : Fin 100000) (q : Fin 128) :
    Cert.Spec.xws h2 w d (ix2 r q) = (∑ k : Fin 256, h2 (ix2 r k) * w (ix2 k q)) * d (ix2 r 0) := by
  unfold Cert.Spec.xws
  rfl

/-- The left 64 columns of the two output weight matrices side by side are the first matrix. -/
theorem wcat_left (c : Dev nD) (k : Fin 256) (q : Fin 64) :
    KStage2.wcat m c (ix2 k (⟨q.val, by omega⟩ : Fin 128)) = (m ((c.tc : Thread nD τ).loc main_arg10)) (ix2 k q) :=
  concatenate_pair_apply_left (t := S256x128) (s₁ := S256x64) (s₂ := S256x64) 1 _ _ _ (ix2 k (⟨q.val, by omega⟩ : Fin 128)) rfl (ix2 k q)
    (fun b => by match b with | ⟨0, _⟩ => rfl | ⟨1, _⟩ => rfl)

/-- The right 64 columns are the second matrix. -/
theorem wcat_right (c : Dev nD) (k : Fin 256) (q : Fin 64) :
    KStage2.wcat m c (ix2 k (⟨64 + q.val, by omega⟩ : Fin 128)) = (m ((c.tc : Thread nD τ).loc main_arg12)) (ix2 k q) :=
  concatenate_pair_apply_right (t := S256x128) (s₁ := S256x64) (s₂ := S256x64) 1 _ _ _ (ix2 k (⟨64 + q.val, by omega⟩ : Fin 128)) rfl rfl (ix2 k q)
    (fun b hb => by match b with | ⟨0, _⟩ => rfl | ⟨1, _⟩ => exact absurd rfl hb)
    (by show q.val + 64 = 64 + q.val; omega)

/-- On its left 64 columns the scaled projection is the product with the first output weight matrix, row-scaled. -/
theorem xws_left (c : Dev nD) (r : Fin 100000) (q : Fin 64) :
    (Cert.Spec.xws (KStage2.H2s m c) (KStage2.wcat m c) (Cert.Spec.rsdeg (Cert.ReferenceIdeal.Read.val_main_v7 (F := Ideal) (m ((c.tc : Thread nD τ).loc main_arg1))))) (ix2 r ⟨q.val, by omega⟩)
      = (∑ k : Fin 256, KStage2.H2s m c (ix2 r k) * (m ((c.tc : Thread nD τ).loc main_arg10)) (ix2 k q)) * (Cert.Spec.rsdeg (Cert.ReferenceIdeal.Read.val_main_v7 (F := Ideal) (m ((c.tc : Thread nD τ).loc main_arg1)))) (ix2 r 0) := by
  rw [xws_apply]
  exact congrArg (fun s => s * (Cert.Spec.rsdeg (Cert.ReferenceIdeal.Read.val_main_v7 (F := Ideal) (m ((c.tc : Thread nD τ).loc main_arg1)))) (ix2 r 0))
    (Finset.sum_congr rfl fun k _ => congrArg (fun z => KStage2.H2s m c (ix2 r k) * z) (wcat_left m c k q))

/-- On its right 64 columns it is the product with the second output weight matrix, row-scaled. -/
theorem xws_right (c : Dev nD) (r : Fin 100000) (q : Fin 64) :
    (Cert.Spec.xws (KStage2.H2s m c) (KStage2.wcat m c) (Cert.Spec.rsdeg (Cert.ReferenceIdeal.Read.val_main_v7 (F := Ideal) (m ((c.tc : Thread nD τ).loc main_arg1))))) (ix2 r ⟨64 + q.val, by omega⟩)
      = (∑ k : Fin 256, KStage2.H2s m c (ix2 r k) * (m ((c.tc : Thread nD τ).loc main_arg12)) (ix2 k q)) * (Cert.Spec.rsdeg (Cert.ReferenceIdeal.Read.val_main_v7 (F := Ideal) (m ((c.tc : Thread nD τ).loc main_arg1)))) (ix2 r 0) := by
  rw [xws_apply]
  exact congrArg (fun s => s * (Cert.Spec.rsdeg (Cert.ReferenceIdeal.Read.val_main_v7 (F := Ideal) (m ((c.tc : Thread nD τ).loc main_arg1)))) (ix2 r 0))
    (Finset.sum_congr rfl fun k _ => congrArg (fun z => KStage2.H2s m c (ix2 r k) * z) (wcat_right m c k q))

/-! ## The normalised aggregation of a neighbour sum at an entry -/

/-- The normalised aggregation, at entry (i, q), of an array `XW` whose neighbour sum is formed by reading its rows at
    the (clamped) sources and adding them, from `Z`, at the destinations: the scale of row i times (the entry of `Z`
    plus the sum over the edges into i of the source rows' entries at column q, plus `XW`'s own entry), plus the bias of
    column q. -/
theorem combine_neighbour_sum_apply (wfS : ScatterDims.WF ⟨2, ![100000, 128]⟩ ⟨2, ![800000, 1]⟩ ⟨2, ![800000, 128]⟩ [1] [0] [0] 1) (wfG : GatherDims.WF ⟨2, ![100000, 128]⟩ ⟨2, ![800000, 1]⟩ ⟨2, ![800000, 128]⟩ [1] [0] [] [0] [] 1 ![1, 128])
    (Z XW : Cert.Spec.Mat 100000 128) (R : Cert.Spec.Mat 100000 1) (B : Cert.Spec.Mat 1 128)
    (IDX SRC : IVec ⟨2, ![800000, 1]⟩ 32) (dst srcn : Fin 800000 → BitVec 32) (z : EReal) (i : Fin 100000) (q : Fin 128)
    (hZ : Z (ix2 i q) = z) (hD : ∀ e, IDX (ix2 e 0) = dst e) (hS : ∀ e, SRC (ix2 e 0) = srcn e) :
    Cert.Spec.combine (Ideal.hostScatterAdd (rowScatterDims 100000 800000 128 wfS) Z IDX
        (Host.gather (rowGatherDims 100000 800000 128 wfG) XW SRC)) XW R B (ix2 i q)
      = R (ix2 i 0) * ((z + ∑ e ∈ Finset.univ.filter (fun e : Fin 800000 => (dst e).toInt = (i.val : ℤ)),
            XW (ix2 (⟨min (srcn e).toInt.toNat (100000 - 1), by omega⟩ : Fin 100000) q)) + XW (ix2 i q)) + B (ix2 0 q) := by
  obtain rfl : dst = fun e => IDX (ix2 e 0) := funext fun e => (hD e).symm
  obtain rfl : srcn = fun e => SRC (ix2 e 0) := funext fun e => (hS e).symm
  subst hZ
  unfold Cert.Spec.combine
  show R (ix2 i 0) * (Ideal.hostScatterAdd (rowScatterDims 100000 800000 128 wfS) Z IDX
      (Host.gather (rowGatherDims 100000 800000 128 wfG) XW SRC) (ix2 i q) + XW (ix2 i q)) + B (ix2 0 q) = _
  rw [scatterAdd_rows_apply]
  exact congrArg (fun s => R (ix2 i 0) * ((Z (ix2 i q) + s) + XW (ix2 i q)) + B (ix2 0 q))
    (Finset.sum_congr rfl fun e _ => gather_rows_apply (by omega) wfG XW SRC e q)

/-! ## The third launch's output at an entry -/

/-- The accumulation the host performs is the row accumulation of the general statement. -/
theorem scatter_record_eq (Z : Cert.Spec.Mat 100000 128) (IDX : IVec ⟨2, ![800000, 1]⟩ 32)
    (UPD : (⟨2, ![800000, 128]⟩ : Shape).Idx → EReal) :
    Host.scatterAdd (F := Ideal) (φ := .f32) Cert.ReferenceIdeal.scatter_S100000x128_S800000x1_S800000x128_1_0_0_1 Z IDX UPD
      = Ideal.hostScatterAdd (rowScatterDims 100000 800000 128 Cert.ReferenceIdeal.Facts₀.scatter_S100000x128_S800000x1_S800000x128_1_0_0_1_wf) Z IDX UPD := rfl

/-- The row selection the host performs is the row selection of the general statement. -/
theorem gather_record_eq (XW : Cert.Spec.Mat 100000 128) (SRC : IVec ⟨2, ![800000, 1]⟩ 32) :
    Host.gather Cert.ReferenceIdeal.gather_S100000x128_S800000x1_S800000x128_1_0_n_n_0_1_1128 XW SRC
      = Host.gather (rowGatherDims 100000 800000 128 Cert.ReferenceIdeal.Facts₀.gather_S100000x128_S800000x1_S800000x128_1_0_n_n_0_1_1128_wf) XW SRC := rfl

/-- The destination array as one column of words is the destination list. -/
theorem dst_column (c : Dev nD) (e : Fin 800000) :
    Cert.ReferenceIdeal.Read.val_main_v16 (F := Ideal) (m ((c.tc : Thread nD τ).loc main_arg1)) (ix2 e 0) = (Cert.ReferenceIdeal.Read.val_main_v3 (F := Ideal) (m ((c.tc : Thread nD τ).loc main_arg1)) (ix1 e)) :=
  (Cert.ReferenceIdeal.Read.val_main_v16_apply _ _).trans
    (congrArg _ (funext fun a => Fin.ext (by match a with | ⟨0, _⟩ => rfl)))

/-- The wrapped source array as one column of words is the wrapped source list. -/
theorem src_column (c : Dev nD) (e : Fin 800000) :
    Cert.ReferenceIdeal.Read.val_main_v13 (F := Ideal) (m ((c.tc : Thread nD τ).loc main_arg1)) (ix2 e 0) = (Cert.ReferenceIdeal.Read.val_main_v12 (F := Ideal) (m ((c.tc : Thread nD τ).loc main_arg1)) (ix1 e)) :=
  (Cert.ReferenceIdeal.Read.val_main_v13_apply _ _).trans
    (congrArg _ (funext fun a => Fin.ext (by match a with | ⟨0, _⟩ => rfl)))

/-- The array the neighbour sum starts from is zero everywhere. -/
theorem zeros_apply (j : (⟨2, ![100000, 128]⟩ : Shape).Idx) :
    Cert.ReferenceIdeal.Read.val_main_v15 (F := Ideal) j = (Ideal.ofBits .f32 0x00000000#32 : EReal) :=
  (Cert.ReferenceIdeal.Read.val_main_v15_apply _).trans (Cert.ReferenceIdeal.Read.val_main_cst_2_apply _)

/-- The array the third launch writes is the specification's normalised aggregation of what the third host stretch
    prepared. -/
theorem out_eq_combine (c : Dev nD) :
    W6 m ρ c (Proc.devRef .tc main_v55)
      = Cert.Spec.combine (W5 m ρ c (Proc.devRef .tc main_v52)) (W5 m ρ c (Proc.devRef .tc main_v42_1))
          (W5 m ρ c (Proc.devRef .tc main_v16)) (W5 m ρ c (Proc.devRef .tc main_v54)) :=
  (W6_arr m ρ c 4).trans (Cert.KernelIdeal.Region2.final2 (V5 m ρ) c)

/-- … which is the normalised aggregation of the scaled projection's neighbour sum, the scaled projection, the inverse
    square root degree column and the joined bias row. -/
theorem out_eq_combine_spec (c : Dev nD) :
    W6 m ρ c (Proc.devRef .tc main_v55)
      = Cert.Spec.combine
          (Ideal.hostScatterAdd (rowScatterDims 100000 800000 128 Cert.ReferenceIdeal.Facts₀.scatter_S100000x128_S800000x1_S800000x128_1_0_0_1_wf)
            (Cert.ReferenceIdeal.Read.val_main_v15 (F := Ideal)) (Cert.ReferenceIdeal.Read.val_main_v16 (F := Ideal) (m ((c.tc : Thread nD τ).loc main_arg1)))
            (Host.gather (rowGatherDims 100000 800000 128 Cert.ReferenceIdeal.Facts₀.gather_S100000x128_S800000x1_S800000x128_1_0_n_n_0_1_1128_wf) (Cert.Spec.xws (KStage2.H2s m c) (KStage2.wcat m c) (Cert.Spec.rsdeg (Cert.ReferenceIdeal.Read.val_main_v7 (F := Ideal) (m ((c.tc : Thread nD τ).loc main_arg1))))) (Cert.ReferenceIdeal.Read.val_main_v13 (F := Ideal) (m ((c.tc : Thread nD τ).loc main_arg1)))))
          (Cert.Spec.xws (KStage2.H2s m c) (KStage2.wcat m c) (Cert.Spec.rsdeg (Cert.ReferenceIdeal.Read.val_main_v7 (F := Ideal) (m ((c.tc : Thread nD τ).loc main_arg1))))) (Cert.Spec.rsdeg (Cert.ReferenceIdeal.Read.val_main_v7 (F := Ideal) (m ((c.tc : Thread nD τ).loc main_arg1)))) (KHost2.bcat (m ((c.tc : Thread nD τ).loc main_arg11)) (m ((c.tc : Thread nD τ).loc main_arg13))) := by
  rw [out_eq_combine, KHost2.v52 m ρ c _ (KStage2.xws_spec m ρ c), KHost2.s_v42_1, KStage2.xws_spec, KHost2.s_v16, KHost2.v54,
    scatter_record_eq, gather_record_eq]

/-- Entry (i, q) of the third launch's output: the inverse square root degree of i times (the sum, from zero, of the
    scaled projection's rows at the clamped wrapped sources of the edges into i, at column q, plus the scaled
    projection's own entry), plus the bias of column q. -/
theorem out_apply (c : Dev nD) (i : Fin 100000) (q : Fin 128) :
    (W6 m ρ c (Proc.devRef .tc main_v55) : S100000x128.Idx → EReal) (ix2 i q)
      = (Cert.Spec.rsdeg (Cert.ReferenceIdeal.Read.val_main_v7 (F := Ideal) (m ((c.tc : Thread nD τ).loc main_arg1)))) (ix2 i 0)
          * (((Ideal.ofBits .f32 0x00000000#32 : EReal)
              + ∑ e ∈ Finset.univ.filter (fun e : Fin 800000 => (Cert.ReferenceIdeal.Read.val_main_v3 (F := Ideal) (m ((c.tc : Thread nD τ).loc main_arg1)) (ix1 e)).toInt = (i.val : ℤ)),
                  (Cert.Spec.xws (KStage2.H2s m c) (KStage2.wcat m c) (Cert.Spec.rsdeg (Cert.ReferenceIdeal.Read.val_main_v7 (F := Ideal) (m ((c.tc : Thread nD τ).loc main_arg1))))) (ix2 (⟨min (Cert.ReferenceIdeal.Read.val_main_v12 (F := Ideal) (m ((c.tc : Thread nD τ).loc main_arg1)) (ix1 e)).toInt.toNat (100000 - 1), by omega⟩ : Fin 100000) q))
            + (Cert.Spec.xws (KStage2.H2s m c) (KStage2.wcat m c) (Cert.Spec.rsdeg (Cert.ReferenceIdeal.Read.val_main_v7 (F := Ideal) (m ((c.tc : Thread nD τ).loc main_arg1))))) (ix2 i q))
        + KHost2.bcat (m ((c.tc : Thread nD τ).loc main_arg11)) (m ((c.tc : Thread nD τ).loc main_arg13)) (ix2 0 q) :=
  (congrFun (out_eq_combine_spec m ρ c) (ix2 i q)).trans
    (combine_neighbour_sum_apply _ _ _ _ _ _ _ _ (fun e => (Cert.ReferenceIdeal.Read.val_main_v3 (F := Ideal) (m ((c.tc : Thread nD τ).loc main_arg1)) (ix1 e))) (fun e => (Cert.ReferenceIdeal.Read.val_main_v12 (F := Ideal) (m ((c.tc : Thread nD τ).loc main_arg1)) (ix1 e))) _ i q
      (zeros_apply _) (dst_column m c) (src_column m c))

end Cert.KernelIdeal.KGcn

end
-- ==== Proof.GcnAlgebra.lean ====
/-
  The extended-real algebra that joins the two normalisations of the graph convolution.
  With r = (deg i + 1)^(-1/2) a nonnegative REAL, r · r = 1 / (deg i + 1), and multiplication by a nonnegative real
  distributes over sums of extended reals whatever the summands are (no finiteness of the features is needed):
    r · (Σ_e a_e · ρ_e + A · r) = Σ_e a_e · (ρ_e · r) + A · (1 / (deg i + 1)).
-/
import Idealize.ShloMosaic.PureOps.Ideal

noncomputable section

namespace Cert.GcnAlgebra

open Idealize.ShloMosaic

/-- The float word of 1.0 denotes the real one. -/
theorem ofBits_one : (Ideal.ofBits .f32 0x3F800000#32 : EReal) = ((1 : ℝ) : EReal) := by
  simp [Ideal.ofBits, Ideal.ieee, -EReal.coe_mul]; norm_num

/-- The float word of +0.0 denotes zero. -/
theorem ofBits_zero : (Ideal.ofBits .f32 0x00000000#32 : EReal) = 0 := by
  simp [Ideal.ofBits, Ideal.ieee]

/-- A nonnegative real factor distributes over a finite sum of extended reals. -/
theorem coe_mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- A sum of ones over a finite set is its cardinality, a real. -/
theorem sum_one_eq_card {ι : Type} (s : Finset ι) : (∑ _i ∈ s, ((1 : ℝ) : EReal)) = ((s.card : ℝ) : EReal) := by
  classical
  induction s using Finset.induction_on with
  | empty => simp
  | insert a s ha ih =>
    rw [Finset.sum_insert ha, ih, Finset.card_insert_of_notMem ha, ← EReal.coe_add]
    congr 1; push_cast; ring

/-- The inverse square root of a count plus one is a nonnegative real whose square is the reciprocal. -/
theorem rsqrt_succ (n : ℕ) : ∃ r : ℝ, 0 ≤ r ∧ Ideal.rsqrt (((n : ℝ) : EReal) + ((1 : ℝ) : EReal)) = (r : EReal)
    ∧ r * r = 1 / ((n : ℝ) + 1) := by
  have hpos : (0 : ℝ) < (n : ℝ) + 1 := by positivity
  refine ⟨(Real.sqrt ((n : ℝ) + 1))⁻¹, by positivity, ?_, ?_⟩
  · rw [← EReal.coe_add, Ideal.rsqrt_coe, if_neg (not_lt.mpr hpos.le), if_neg hpos.ne']
  · rw [← mul_inv, Real.mul_self_sqrt hpos.le, one_div]

/-- One over a count plus one, as the exact quotient. -/
theorem div_one_succ (n : ℕ) : Ideal.div ((1 : ℝ) : EReal) (((n : ℝ) : EReal) + ((1 : ℝ) : EReal)) = ((1 / ((n : ℝ) + 1) : ℝ) : EReal) := by
  have hpos : (0 : ℝ) < (n : ℝ) + 1 := by positivity
  rw [← EReal.coe_add, Ideal.div_coe hpos.ne', EReal.coe_one, one_mul]

/-- The entry identity of the convolution: the scale r pulled inside the neighbour sum and squared on the node's own term. -/
theorem gcn_entry {ι : Type} (r q : ℝ) (hr : 0 ≤ r) (hq : r * r = q) (s : Finset ι) (a ρ : ι → EReal) (A b : EReal) :
    (r : EReal) * (((0 : EReal) + ∑ e ∈ s, a e * ρ e) + A * (r : EReal)) + b
      = (((0 : EReal) + ∑ e ∈ s, a e * (ρ e * (r : EReal))) + A * ((q : ℝ) : EReal)) + b := by
  have hr' : (0 : EReal) ≤ (r : EReal) := by exact_mod_cast hr
  rw [EReal.left_distrib_of_nonneg_of_ne_top hr' (EReal.coe_ne_top r), zero_add, zero_add, coe_mul_sum r hr]
  congr 2
  · refine Finset.sum_congr rfl fun e _ => ?_
    rw [mul_comm (r : EReal), mul_assoc]
  · rw [mul_comm (r : EReal), mul_assoc, ← EReal.coe_mul, hq]

end Cert.GcnAlgebra

end
-- ==== Proof.RefDeg.lean ====
/-
  The in-degree of a node is a count: the reference adds a one for every edge whose destination is the node, so the
  degree array holds, at each node, the number of such edges as a real. The reference computes this array four times
  over, by the same operations.
-/
import proofs.«125124_j61194694033656_2_alg».proof.Proof.Gen.ReferenceIdeal.Read
import proofs.«125124_j61194694033656_2_alg».proof.Proof.LibRowScatterGather
import proofs.«125124_j61194694033656_2_alg».proof.Proof.GcnAlgebra
import Idealize.ShloMosaic.Lib.ValueIdx
import Idealize.ShloMosaic.PureOps.Ideal

set_option maxRecDepth 16384

noncomputable section

namespace Cert.ReferenceIdeal.RefDeg

open Cert.ReferenceIdeal Cert.ReferenceIdeal.Read Idealize.ShloMosaic Idealize.ShloMosaic.ValueIdx Cert.LibRowScatterGather

variable (x1 : (⟨S2x800000, .i32⟩ : BufTy).Contents (Elt Ideal))

/-- The rank-1 scatter-add read at a node: the operand there plus the updates of the edges whose index, read signed, is
    the node. -/
theorem scatter_vec (x : (⟨S100000, .f32⟩ : BufTy).Contents (Elt Ideal)) (idx : (⟨S800000x1, .i32⟩ : BufTy).Contents (Elt Ideal))
    (upd : (⟨S800000, .f32⟩ : BufTy).Contents (Elt Ideal)) (i : Fin 100000) :
    Host.scatterAdd (F := Ideal) (φ := .f32) scatter_S100000_S800000x1_S800000_n_0_0_1 x idx upd (ix1 i)
      = x (ix1 i) + ∑ e ∈ Finset.univ.filter (fun e : Fin 800000 => (idx (ix2 e (0 : Fin 1))).toInt = (i.val : ℤ)), upd (ix1 e) := by
  show Ideal.hostScatterAdd (vecScatterDims 100000 800000 Facts₀.scatter_S100000_S800000x1_S800000_n_0_0_1_wf) x idx upd (ix1 i) = _
  rw [scatterAdd_vec_apply]

/-- The degree of node i is the number of edges whose destination index, read signed, is i. -/
theorem deg_nat (i : Fin 100000) : ∃ n : ℕ, val_main_v7 (F := Ideal) x1 (ix1 i) = ((n : ℝ) : EReal) := by
  refine ⟨(Finset.univ.filter (fun e : Fin 800000 => (val_main_v6 (F := Ideal) x1 (ix2 e (0 : Fin 1))).toInt = (i.val : ℤ))).card, ?_⟩
  unfold val_main_v7
  rw [scatter_vec]
  have h5 : val_main_v5 (F := Ideal) (ix1 i) = 0 := by
    rw [val_main_v5_apply, val_main_cst_0_apply]; exact Cert.GcnAlgebra.ofBits_zero
  have h4 : ∀ e : Fin 800000, val_main_v4 (F := Ideal) (ix1 e) = ((1 : ℝ) : EReal) := fun e => by
    rw [val_main_v4_apply, val_main_cst_apply]; exact Cert.GcnAlgebra.ofBits_one
  rw [h5, zero_add, Finset.sum_congr rfl (fun e _ => h4 e), Cert.GcnAlgebra.sum_one_eq_card]

end Cert.ReferenceIdeal.RefDeg

end
-- ==== Proof.RefStages1.lean ====
/-
  The reference's first mean-aggregation layer is the specification's `sage1`.

  At node `i`, column `q` the program computes
      pad(x)(i, q) + max( Σₖ (nb i k / max(deg i, 1)) · wl k q + Σₖ x i k · wr k q + b q , 0 ),
  where `nb` is the neighbour sum, `deg` the in-degree, and pad(x) is `x` followed by 128 zero columns. The specification
  multiplies `nb i k` by the reciprocal `1 / max(deg i, 1)` instead of dividing, and adds `x i q` after the clip, on the
  first 128 columns only. Since `deg i` is a count, `max(deg i, 1)` is a nonzero real and division by it is
  multiplication by its reciprocal for every extended real; the rest is commutativity of one addition and `0 + a = a`.
  Each operation is read at the entry on its own, so the neighbour sum and the in-degree stay named arrays throughout.
-/
import proofs.«125124_j61194694033656_2_alg».proof.Proof.Gen.ReferenceIdeal.Read
import proofs.«125124_j61194694033656_2_alg».proof.Proof.Spec
import proofs.«125124_j61194694033656_2_alg».proof.Proof.GcnAlgebra
import Idealize.ShloMosaic.Lib.ValueIdx
import Idealize.ShloMosaic.PureOps.Ideal.Laws

noncomputable section

namespace Cert.ReferenceIdeal.RefStages1

open Cert.ReferenceIdeal Cert.ReferenceIdeal.Gen Idealize.ShloMosaic Idealize.ShloMosaic.ValueIdx
open scoped BigOperators

/-- Dividing by a count clipped below at one is multiplying by the reciprocal of the clipped count: the divisor is a
    nonzero real, so the law holds whatever extended real is divided. -/
theorem div_clip (a : EReal) (n : ℕ) :
    Ideal.div a (max ((n : ℝ) : EReal) Cert.Spec.one) = a * Ideal.div Cert.Spec.one (max ((n : ℝ) : EReal) Cert.Spec.one) := by
  have h1 : Cert.Spec.one = ((1 : ℝ) : EReal) := Cert.GcnAlgebra.ofBits_one
  have hy : max (n : ℝ) 1 ≠ 0 := by
    have : (1 : ℝ) ≤ max (n : ℝ) 1 := le_max_right _ _
    linarith
  rw [h1, ← EReal.coe_strictMono.monotone.map_max, Ideal.div_coe hy, Ideal.div_coe hy, EReal.coe_one, one_mul]

/-- The padding value: the integer zero read as a float is the real zero. -/
theorem pad_value (i : S_.Idx) : Read.val_main_call1_v0 (F := Ideal) i = 0 := by
  rw [Read.val_main_call1_v0_apply, Read.val_main_c_4_apply]
  show (((0#32 : BitVec 32).toInt : ℝ) : EReal) = 0
  simp

/-- The features padded with 128 zero columns, at `(i, q)`: the feature on the first 128 columns, zero on the others. -/
theorem pad_apply (x0 : (⟨S100000x128, .f32⟩ : BufTy).Contents (Elt Ideal)) (i : Fin 100000) (q : Fin 256) :
    Read.val_main_v30 (F := Ideal) x0 (ix2 i q) = if hq : q.val < 128 then x0 (ix2 i ⟨q.val, hq⟩) else 0 := by
  unfold Read.val_main_v30 pad
  by_cases hq : q.val < 128
  · rw [dif_pos hq]
    split
    · refine congrArg x0 (funext fun a => Fin.ext ?_)
      match a with
      | ⟨0, _⟩ => show (i.val - 0) / (0 + 1) = i.val; omega
      | ⟨1, _⟩ => show (q.val - 0) / (0 + 1) = q.val; omega
    · rename_i hn
      refine absurd (fun a => ?_) hn
      match a with
      | ⟨0, _⟩ =>
        exact ⟨Nat.zero_le _, (by show (i.val - 0) % (0 + 1) = 0; omega),
          (by show (i.val - 0) / (0 + 1) < 100000; have := i.isLt; omega)⟩
      | ⟨1, _⟩ =>
        exact ⟨Nat.zero_le _, (by show (q.val - 0) % (0 + 1) = 0; omega), (by show (q.val - 0) / (0 + 1) < 128; omega)⟩
  · rw [dif_neg hq]
    split
    · rename_i hin
      have h := (hin (⟨1, by decide⟩ : Fin 2)).2.2
      have h' : (q.val - 0) / (0 + 1) < 128 := h
      exact absurd (by omega) hq
    · exact pad_value _

/-- One entry of the first layer as the program computes it — the neighbour sums divided by the clipped degree, through
    the weights, clipped below at zero, the padded features added in front — is the specification's entry, in which the
    neighbour sums are multiplied by the reciprocal of the clipped degree and the features are added behind. -/
theorem entry (G x0 : Cert.Spec.Mat 100000 128) (D : (⟨1, ![100000]⟩ : Shape).Idx → EReal) (x2 x3 : Cert.Spec.Mat 128 256)
    (B : Cert.Spec.Mat 1 256) (i : Fin 100000) (q : Fin 256) (n : ℕ) (hn : D (ix1 i) = ((n : ℝ) : EReal)) :
    (if hq : q.val < 128 then x0 (ix2 i ⟨q.val, hq⟩) else 0)
      + max ((∑ k : Fin 128, Ideal.div (G (ix2 i k)) (max (D (ix1 i)) Cert.Spec.one) * x2 (ix2 k q))
            + (∑ k : Fin 128, x0 (ix2 i k) * x3 (ix2 k q)) + B (ix2 (0 : Fin 1) q)) 0
      = Cert.Spec.sage1 G x0 (Cert.Spec.rdeg D) x2 x3 B (ix2 i q) := by
  have hd : ∀ a : EReal, Ideal.div a (max (D (ix1 i)) Cert.Spec.one) = a * Cert.Spec.rdeg D (ix2 i (0 : Fin 1)) := by
    intro a
    show _ = a * Ideal.div Cert.Spec.one (max (D (ix1 i)) Cert.Spec.one)
    rw [hn]
    exact div_clip a n
  simp only [hd]
  unfold Cert.Spec.sage1 Cert.Spec.lin
  by_cases hq : q.val < 128
  · rw [dif_pos hq, dif_pos (show ((ix2 i q : (⟨2, ![100000, 256]⟩ : Shape).Idx) 1).val < 128 from hq)]
    exact add_comm _ _
  · rw [dif_neg hq, dif_neg (show ¬ ((ix2 i q : (⟨2, ![100000, 256]⟩ : Shape).Idx) 1).val < 128 from hq)]
    exact zero_add _

/-- The clipped degree spread along a row: at `(i, k)` it is the in-degree of `i` clipped below at one. -/
theorem clip_apply (x1 : (⟨S2x800000, .i32⟩ : BufTy).Contents (Elt Ideal)) (i : Fin 100000) (k : Fin 128) :
    Read.val_main_v21 (F := Ideal) x1 (ix2 i k) = max (Read.val_main_v7 (F := Ideal) x1 (ix1 i)) Cert.Spec.one := by
  have h : Read.idx_main_v20 (Read.idx_main_v21 (ix2 i k)) = ix1 i :=
    funext fun a => Fin.ext (by match a with | ⟨0, _⟩ => rfl)
  rw [Read.val_main_v21_apply, Read.val_main_v20_apply, Read.val_main_v19_apply, Read.val_main_v18_apply,
    Read.val_main_cst_3_apply, h, Ideal.maximumf_def, Ideal.ofBits_def]

/-- The mean of the neighbours' features at `(i, k)`: the neighbour sum divided by the clipped degree. -/
theorem mean_apply (x0 : (⟨S100000x128, .f32⟩ : BufTy).Contents (Elt Ideal)) (x1 : (⟨S2x800000, .i32⟩ : BufTy).Contents (Elt Ideal)) (i : Fin 100000) (k : Fin 128) :
    Read.val_main_v22 (F := Ideal) x0 x1 (ix2 i k)
      = Ideal.div (Read.val_main_v17 (F := Ideal) x0 x1 (ix2 i k)) (max (Read.val_main_v7 (F := Ideal) x1 (ix1 i)) Cert.Spec.one) := by
  rw [Read.val_main_v22_apply, clip_apply, Ideal.hostDivf_def]

/-- The neighbours' term of the affine part at `(i, q)`. -/
theorem left_apply (x0 : (⟨S100000x128, .f32⟩ : BufTy).Contents (Elt Ideal)) (x1 : (⟨S2x800000, .i32⟩ : BufTy).Contents (Elt Ideal)) (x2 : (⟨S128x256, .f32⟩ : BufTy).Contents (Elt Ideal)) (i : Fin 100000) (q : Fin 256) :
    Read.val_main_v23 (F := Ideal) x0 x1 x2 (ix2 i q)
      = ∑ k : Fin 128, Ideal.div (Read.val_main_v17 (F := Ideal) x0 x1 (ix2 i k))
          (max (Read.val_main_v7 (F := Ideal) x1 (ix1 i)) Cert.Spec.one) * x2 (ix2 k q) := by
  rw [Read.val_main_v23_apply]
  refine Finset.sum_congr rfl fun k _ => ?_
  have hl : Read.lidx_main_v23 (ix2 i q) k = ix2 i k :=
    funext fun a => Fin.ext (by match a with | ⟨0, _⟩ => rfl | ⟨1, _⟩ => rfl)
  have hr : Read.ridx_main_v23 (ix2 i q) k = ix2 k q :=
    funext fun a => Fin.ext (by match a with | ⟨0, _⟩ => rfl | ⟨1, _⟩ => rfl)
  rw [hl, hr, mean_apply]

/-- The node's own term of the affine part at `(i, q)`. -/
theorem right_apply (x0 : (⟨S100000x128, .f32⟩ : BufTy).Contents (Elt Ideal)) (x3 : (⟨S128x256, .f32⟩ : BufTy).Contents (Elt Ideal)) (i : Fin 100000) (q : Fin 256) :
    Read.val_main_v24 (F := Ideal) x0 x3 (ix2 i q) = ∑ k : Fin 128, x0 (ix2 i k) * x3 (ix2 k q) := by
  rw [Read.val_main_v24_apply]
  refine Finset.sum_congr rfl fun k _ => ?_
  have hl : Read.lidx_main_v24 (ix2 i q) k = ix2 i k :=
    funext fun a => Fin.ext (by match a with | ⟨0, _⟩ => rfl | ⟨1, _⟩ => rfl)
  have hr : Read.ridx_main_v24 (ix2 i q) k = ix2 k q :=
    funext fun a => Fin.ext (by match a with | ⟨0, _⟩ => rfl | ⟨1, _⟩ => rfl)
  rw [hl, hr]

/-- The bias spread over the rows: at `(i, q)` it is the bias row's entry `q`. -/
theorem bias_apply (x4 : (⟨S256, .f32⟩ : BufTy).Contents (Elt Ideal)) (i : Fin 100000) (q : Fin 256) :
    Read.val_main_v27 (F := Ideal) x4 (ix2 i q) = Read.val_main_v26 (F := Ideal) x4 (ix2 (0 : Fin 1) q) := by
  have h : Read.idx_main_v27 (ix2 i q) = ix2 (0 : Fin 1) q :=
    funext fun a => Fin.ext (by match a with | ⟨0, _⟩ => rfl | ⟨1, _⟩ => rfl)
  rw [Read.val_main_v27_apply, h]

/-- The clip's lower bound is zero everywhere. -/
theorem floor_apply (j : S100000x256.Idx) : Read.val_main_call0_v0 (F := Ideal) j = 0 := by
  rw [Read.val_main_call0_v0_apply, Read.val_main_call0_cst_apply, Ideal.ofBits_def, Ideal.ofBits_zero_f32]

/-- The clipped affine part at `(i, q)`. -/
theorem relu_apply (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal)) (i : Fin 100000) (q : Fin 256) :
    Read.val_main_v29 (F := Ideal) x0 x1 x2 x3 x4 (ix2 i q)
      = max ((∑ k : Fin 128, Ideal.div (Read.val_main_v17 (F := Ideal) x0 x1 (ix2 i k))
              (max (Read.val_main_v7 (F := Ideal) x1 (ix1 i)) Cert.Spec.one) * x2 (ix2 k q))
            + (∑ k : Fin 128, x0 (ix2 i k) * x3 (ix2 k q)) + Read.val_main_v26 (F := Ideal) x4 (ix2 (0 : Fin 1) q)) 0 := by
  rw [Read.val_main_v29_apply, Read.val_main_v28_apply, Read.val_main_v25_apply, left_apply, right_apply, bias_apply,
    floor_apply, Ideal.maximumf_def, Ideal.addf_def, Ideal.addf_def]

/-- The reference's first layer is the specification's, over the neighbour sums and the in-degree the program computes,
    provided every in-degree is a natural number (a count). -/
theorem ref_h1 (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (hdeg : ∀ i : Fin 100000, ∃ n : ℕ, Read.val_main_v7 (F := Ideal) x1 (ix1 i) = ((n : ℝ) : EReal)) :
    Read.val_main_v31 (F := Ideal) x0 x1 x2 x3 x4
      = Cert.Spec.sage1 (Read.val_main_v17 (F := Ideal) x0 x1) x0 (Cert.Spec.rdeg (Read.val_main_v7 (F := Ideal) x1)) x2 x3
          (Read.val_main_v26 (F := Ideal) x4) := by
  funext j
  obtain ⟨i, q, rfl⟩ : ∃ (i : Fin 100000) (q : Fin 256), j = ix2 i q := ⟨j 0, j 1, @eq_ix2 100000 256 j⟩
  obtain ⟨n, hn⟩ := hdeg i
  rw [Read.val_main_v31_apply, pad_apply, relu_apply, Ideal.addf_def]
  generalize Read.val_main_v7 (F := Ideal) x1 = D at hn ⊢
  generalize Read.val_main_v17 (F := Ideal) x0 x1 = G
  generalize Read.val_main_v26 (F := Ideal) x4 = B
  exact entry G x0 D x2 x3 B i q n hn

end Cert.ReferenceIdeal.RefStages1

end
-- ==== Proof.RefStages2.lean ====
import proofs.«125124_j61194694033656_2_alg».proof.Proof.Gen.ReferenceIdeal.Read
import proofs.«125124_j61194694033656_2_alg».proof.Proof.Spec
import Idealize.ShloMosaic.Lib.Pipeline.Value
import Idealize.ShloMosaic.Lib.ValueIdx
import Idealize.ShloMosaic.PureOps.Ideal.Laws

/-!
  The reference's second layer is the specification's second layer.

  At node i and feature q the reference computes
  max((Σ_k (agg(i,k) / max(deg i, 1)) · wl(k,q)) + (Σ_k h1(i,k) · wr(k,q)) + b2(q), 0) + ((Σ_k x(i,k) · wres(k,q)) + br(q)),
  where agg is the neighbour sum of the first layer's output h1. The specification multiplies by the reciprocal
  1 / max(deg i, 1) where the reference divides. The degree is a count, so max(deg i, 1) is a real number that is at least one, and over
  the extended reals dividing by a nonzero real is multiplying by its reciprocal; that is the only step that is not a
  reading of the two sides at an entry.
-/

noncomputable section
namespace Cert.ReferenceIdeal.RefStages2
open Cert.ReferenceIdeal Cert.ReferenceIdeal.Gen Idealize.ShloMosaic Idealize.ShloMosaic.ValueIdx

/-! ## Dividing by a clipped count -/

/-- The float word of 1.0 is the real number one. -/
theorem ofBits_one : (Ideal.ofBits .f32 0x3F800000#32 : EReal) = ((1 : ℝ) : EReal) := by
  simp [Ideal.ofBits, Ideal.ieee, -EReal.coe_mul]; norm_num

/-- Dividing by a count clipped below at one is multiplying by the reciprocal of the clipped count. -/
theorem div_clip (a : EReal) (n : ℕ) :
    Ideal.div a (max ((n : ℝ) : EReal) (Ideal.ofBits .f32 0x3F800000#32))
      = a * Ideal.div (Ideal.ofBits .f32 0x3F800000#32) (max ((n : ℝ) : EReal) (Ideal.ofBits .f32 0x3F800000#32)) := by
  have hy : max (n : ℝ) 1 ≠ 0 := by
    have : (1 : ℝ) ≤ max (n : ℝ) 1 := le_max_right _ _
    linarith
  rw [ofBits_one, ← EReal.coe_strictMono.monotone.map_max, Ideal.div_coe hy, Ideal.div_coe hy, EReal.coe_one, one_mul]

/-- The layer with the neighbour sum DIVIDED by the clipped degree is the specification's layer, which multiplies by the
    reciprocal clipped degree, at a node whose degree is a natural number. -/
theorem layer_div_eq (agg h1 : Cert.Spec.Mat 100000 256) (x : Cert.Spec.Mat 100000 128) (deg : (⟨1, ![100000]⟩ : Shape).Idx → EReal)
    (wl wr : Cert.Spec.Mat 256 256) (wres : Cert.Spec.Mat 128 256) (b2 br : Cert.Spec.Mat 1 256) (i : Fin 100000) (q : Fin 256)
    (n : ℕ) (hn : deg (ix1 i) = ((n : ℝ) : EReal)) :
    max ((∑ k : Fin 256, Ideal.div (agg (ix2 i k)) (max (deg (ix1 i)) (Ideal.ofBits .f32 0x3F800000#32)) * wl (ix2 k q))
          + (∑ k : Fin 256, h1 (ix2 i k) * wr (ix2 k q)) + b2 (ix2 0 q)) 0
        + ((∑ k : Fin 128, x (ix2 i k) * wres (ix2 k q)) + br (ix2 0 q))
      = Cert.Spec.sage2 agg h1 x (Cert.Spec.rdeg deg) wl wr wres b2 br (ix2 i q) := by
  show _ = max ((∑ k : Fin 256, (agg (ix2 i k) * Ideal.div (Ideal.ofBits .f32 0x3F800000#32) (max (deg (ix1 i)) (Ideal.ofBits .f32 0x3F800000#32))) * wl (ix2 k q))
          + (∑ k : Fin 256, h1 (ix2 i k) * wr (ix2 k q)) + b2 (ix2 0 q)) 0
        + ((∑ k : Fin 128, x (ix2 i k) * wres (ix2 k q)) + br (ix2 0 q))
  rw [hn]
  have e : ∀ k : Fin 256, Ideal.div (agg (ix2 i k)) (max ((n : ℝ) : EReal) (Ideal.ofBits .f32 0x3F800000#32)) * wl (ix2 k q)
      = (agg (ix2 i k) * Ideal.div (Ideal.ofBits .f32 0x3F800000#32) (max ((n : ℝ) : EReal) (Ideal.ofBits .f32 0x3F800000#32))) * wl (ix2 k q) :=
    fun k => by rw [div_clip]
  simp only [e]

/-! ## The reference's operations of the second layer, each read at node i, feature q -/

/-- The clipped degree spread along a row: at (i, k) it is max(deg i, 1). -/
theorem clipdeg_at (x1 : (⟨S2x800000, .i32⟩ : BufTy).Contents (Elt Ideal)) (i : Fin 100000) (k : Fin 256) :
    Read.val_main_v49 (F := Ideal) x1 (ix2 i k)
      = max (Read.val_main_v35 (F := Ideal) x1 (ix1 i)) (Ideal.ofBits .f32 0x3F800000#32) := by
  have h : Read.idx_main_v48 (Read.idx_main_v49 (ix2 i k)) = ix1 i := funext fun a => Fin.ext (by match a with | ⟨0, _⟩ => rfl)
  rw [Read.val_main_v49_apply, Read.val_main_v48_apply, h, Read.val_main_v47_apply, Read.val_main_v46_apply, Read.val_main_cst_10_apply]
  rfl

/-- The first bias row spread down the nodes. -/
theorem bias2_at (x7 : (⟨S256, .f32⟩ : BufTy).Contents (Elt Ideal)) (i : Fin 100000) (q : Fin 256) :
    Read.val_main_v55 (F := Ideal) x7 (ix2 i q) = Read.val_main_v54 (F := Ideal) x7 (ix2 0 q) := by
  have h : Read.idx_main_v55 (ix2 i q) = ix2 0 q := funext fun a => Fin.ext (by match a with | ⟨0, _⟩ => rfl | ⟨1, _⟩ => rfl)
  rw [Read.val_main_v55_apply, h]

/-- The residual's bias row spread down the nodes. -/
theorem biasr_at (x9 : (⟨S256, .f32⟩ : BufTy).Contents (Elt Ideal)) (i : Fin 100000) (q : Fin 256) :
    Read.val_main_v60 (F := Ideal) x9 (ix2 i q) = Read.val_main_v59 (F := Ideal) x9 (ix2 0 q) := by
  have h : Read.idx_main_v60 (ix2 i q) = ix2 0 q := funext fun a => Fin.ext (by match a with | ⟨0, _⟩ => rfl | ⟨1, _⟩ => rfl)
  rw [Read.val_main_v60_apply, h]

/-- The clip's lower bound is zero everywhere. -/
theorem relu0_at (j : S100000x256.Idx) : Read.val_main_call2_v0 (F := Ideal) j = 0 := by
  rw [Read.val_main_call2_v0_apply, Read.val_main_call2_cst_apply]
  exact Ideal.ofBits_zero_f32

/-- The residual's product: the node's features against column q of the residual weights. -/
theorem resid_at (x0 : (⟨S100000x128, .f32⟩ : BufTy).Contents (Elt Ideal)) (x8 : (⟨S128x256, .f32⟩ : BufTy).Contents (Elt Ideal)) (i : Fin 100000) (q : Fin 256) :
    Read.val_main_v58 (F := Ideal) x0 x8 (ix2 i q) = ∑ k : Fin 128, x0 (ix2 i k) * x8 (ix2 k q) := by
  have hl : ∀ k : Fin 128, Read.lidx_main_v58 (ix2 i q) k = ix2 i k := fun k => funext fun a => Fin.ext (by match a with | ⟨0, _⟩ => rfl | ⟨1, _⟩ => rfl)
  have hr : ∀ k : Fin 128, Read.ridx_main_v58 (ix2 i q) k = ix2 k q := fun k => funext fun a => Fin.ext (by match a with | ⟨0, _⟩ => rfl | ⟨1, _⟩ => rfl)
  rw [Read.val_main_v58_apply]
  simp only [hl, hr]

/-- The node's own term: its first-layer row against column q of the second weights. -/
theorem own_at (x0 : (⟨S100000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal))
    (x6 : (⟨S256x256, .f32⟩ : BufTy).Contents (Elt Ideal)) (i : Fin 100000) (q : Fin 256) :
    Read.val_main_v52 (F := Ideal) x0 x1 x2 x3 x4 x6 (ix2 i q)
      = ∑ k : Fin 256, Read.val_main_v31 (F := Ideal) x0 x1 x2 x3 x4 (ix2 i k) * x6 (ix2 k q) := by
  have hl : ∀ k : Fin 256, Read.lidx_main_v52 (ix2 i q) k = ix2 i k := fun k => funext fun a => Fin.ext (by match a with | ⟨0, _⟩ => rfl | ⟨1, _⟩ => rfl)
  have hr : ∀ k : Fin 256, Read.ridx_main_v52 (ix2 i q) k = ix2 k q := fun k => funext fun a => Fin.ext (by match a with | ⟨0, _⟩ => rfl | ⟨1, _⟩ => rfl)
  rw [Read.val_main_v52_apply]
  refine Finset.sum_congr rfl fun k _ => ?_
  rw [hl k, hr k]

/-- The neighbours' term: the neighbour sum's row, each entry divided by the clipped degree, against column q of the first
    weights. -/
theorem mean_at (x0 : (⟨S100000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal))
    (x5 : (⟨S256x256, .f32⟩ : BufTy).Contents (Elt Ideal)) (i : Fin 100000) (q : Fin 256) :
    Read.val_main_v51 (F := Ideal) x0 x1 x2 x3 x4 x5 (ix2 i q)
      = ∑ k : Fin 256, Ideal.div (Read.val_main_v45 (F := Ideal) x0 x1 x2 x3 x4 (ix2 i k))
          (max (Read.val_main_v35 (F := Ideal) x1 (ix1 i)) (Ideal.ofBits .f32 0x3F800000#32)) * x5 (ix2 k q) := by
  have hl : ∀ k : Fin 256, Read.lidx_main_v51 (ix2 i q) k = ix2 i k := fun k => funext fun a => Fin.ext (by match a with | ⟨0, _⟩ => rfl | ⟨1, _⟩ => rfl)
  have hr : ∀ k : Fin 256, Read.ridx_main_v51 (ix2 i q) k = ix2 k q := fun k => funext fun a => Fin.ext (by match a with | ⟨0, _⟩ => rfl | ⟨1, _⟩ => rfl)
  rw [Read.val_main_v51_apply]
  refine Finset.sum_congr rfl fun k _ => ?_
  rw [hl k, hr k, Read.val_main_v50_apply, clipdeg_at, Ideal.hostDivf_def]

/-! ## The layer -/

/-- The reference's second layer, as a whole array, is the specification's second layer of: the neighbour sum of the first
    layer's output, that output, the input features, the reciprocal clipped degree, and the layer's parameters — given that
    every node's degree is a natural number. -/
theorem ref_h2 (x0 : (⟨S100000x128, .f32⟩ : BufTy).Contents (Elt Ideal)) (x1 : (⟨S2x800000, .i32⟩ : BufTy).Contents (Elt Ideal)) (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal)) (x8 : (⟨S128x256, .f32⟩ : BufTy).Contents (Elt Ideal)) (x9 : (⟨S256, .f32⟩ : BufTy).Contents (Elt Ideal))
    (hdeg : ∀ i : Fin 100000, ∃ n : ℕ, Read.val_main_v35 (F := Ideal) x1 (ix1 i) = ((n : ℝ) : EReal)) :
    Read.val_main_v62 (F := Ideal) x0 x1 x2 x3 x4 x5 x6 x7 x8 x9
      = Cert.Spec.sage2 (Read.val_main_v45 (F := Ideal) x0 x1 x2 x3 x4) (Read.val_main_v31 (F := Ideal) x0 x1 x2 x3 x4) x0
          (Cert.Spec.rdeg (Read.val_main_v35 (F := Ideal) x1)) x5 x6 x8 (Read.val_main_v54 (F := Ideal) x7) (Read.val_main_v59 (F := Ideal) x9) := by
  funext j
  obtain ⟨i, q, rfl⟩ : ∃ (i : Fin 100000) (q : Fin 256), j = ix2 i q := ⟨j 0, j 1, eq_ix2 j⟩
  obtain ⟨n, hn⟩ := hdeg i
  rw [Read.val_main_v62_apply, Read.val_main_v57_apply, Read.val_main_v56_apply, Read.val_main_v53_apply, Read.val_main_v61_apply,
    mean_at, own_at, bias2_at, relu0_at, resid_at, biasr_at,
    Ideal.addf_def, Ideal.addf_def, Ideal.addf_def, Ideal.addf_def, Ideal.maximumf_def]
  exact layer_div_eq (Read.val_main_v45 (F := Ideal) x0 x1 x2 x3 x4) (Read.val_main_v31 (F := Ideal) x0 x1 x2 x3 x4) x0 (Read.val_main_v35 (F := Ideal) x1) x5 x6 x8
    (Read.val_main_v54 (F := Ideal) x7) (Read.val_main_v59 (F := Ideal) x9) i q n hn

end Cert.ReferenceIdeal.RefStages2
end
-- ==== Proof.KRef.lean ====
/-
  The specification's layer outputs are the reference's stages: the first layer's output is the reference's stage 31,
  the neighbour sum of it is stage 45, and the second layer's output is stage 62, all of the same argument arrays.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KStage1
import proofs.«125124_j61194694033656_2_alg».proof.Proof.KStage2
import proofs.«125124_j61194694033656_2_alg».proof.Proof.RefDeg
import proofs.«125124_j61194694033656_2_alg».proof.Proof.RefStages1
import proofs.«125124_j61194694033656_2_alg».proof.Proof.RefStages2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KRef

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

open Cert.KernelIdeal.KHost0 (row)
open Cert.KernelIdeal.KStage1 (ref_row26 ref_row54 ref_row59)

/-- The degree recomputed for the second layer is the first computation. -/
theorem deg_eq_35 (x1 : (⟨Cert.ReferenceIdeal.S2x800000, .i32⟩ : BufTy).Contents (Elt Ideal)) :
    Cert.ReferenceIdeal.Read.val_main_v35 (F := Ideal) x1 = Cert.ReferenceIdeal.Read.val_main_v7 (F := Ideal) x1 := rfl

/-- The first layer's output is the reference's. -/
theorem h1_ref (c : Dev nD) : KStage2.H1s m c = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e := Cert.ReferenceIdeal.RefStages1.ref_h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (Cert.ReferenceIdeal.RefDeg.deg_nat (m ((c.tc : Thread nD τ).loc main_arg1)))
  rw [ref_row26] at e
  exact e.symm

/-- The neighbour sum of the reference's first-layer output is the reference's stage. -/
theorem agg_ref (c : Dev nD) : KStage2.agg256 m c (Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The second layer's output is the reference's. -/
theorem h2_ref (c : Dev nD) : KStage2.H2s m c = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e := Cert.ReferenceIdeal.RefStages2.ref_h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    (fun i => by rw [deg_eq_35]; exact Cert.ReferenceIdeal.RefDeg.deg_nat (m ((c.tc : Thread nD τ).loc main_arg1)) i)
  rw [deg_eq_35, ref_row54, ref_row59, ← agg_ref m c, ← h1_ref m c] at e
  exact e.symm

end Cert.KernelIdeal.KRef

end
-- ==== Proof.RefGcn.lean ====
/-
  The reference's two graph convolutions, read at one entry.

  Both convolutions do the same thing to a 100000 × 64 table of projected node features `xw`. With `deg₁ i` the number of
  edges whose destination word is `i`, plus one, and `rs i = (deg₁ i)^(-1/2)`: every edge `e` sends row `src e` of `xw`,
  scaled by `rs (src e) · rs (dst e)`, to the row numbered by its RAW destination word (an edge whose raw word is not a row
  number is added nowhere), where `src e`, `dst e` are the edge's index words with negative words wrapped by adding
  100000, read as signed integers and clamped into the rows; the node's own row is added divided by `deg₁ i`; and the bias
  row is added. At node `i`, feature `c` this is
      0 + Σ_{e : raw dst e = i} xw (src e) c · (rs (src e) · rs (dst e))  +  xw i c · (1 / deg₁ i)  +  b c.
  The row selections and the row accumulation are read by the lemmas on one-word row numbers; everything upstream of them
  (the projection, the degree count, its inverse square root, the wrapped index words) stays a named array.
-/
import proofs.«125124_j61194694033656_2_alg».proof.Proof.Gen.ReferenceIdeal.Read
import proofs.«125124_j61194694033656_2_alg».proof.Proof.Spec
import proofs.«125124_j61194694033656_2_alg».proof.Proof.LibRowScatterGather
import Idealize.ShloMosaic.Lib.ValueIdx
import Idealize.ShloMosaic.PureOps.Ideal.Laws

noncomputable section

namespace Cert.ReferenceIdeal.RefGcn

open Cert.ReferenceIdeal Cert.ReferenceIdeal.Gen Idealize.ShloMosaic Idealize.ShloMosaic.ValueIdx Cert.LibRowScatterGather
open scoped BigOperators

/-- A row index out of an index word: the word read as a signed integer, clamped into the 100000 rows. -/
abbrev cl (v : BitVec 32) : Fin 100000 := ⟨min v.toInt.toNat (100000 - 1), by omega⟩

/-- Rows added into a 100000 × 64 table at the rows numbered by 800000 index words, read at an entry. -/
theorem scatter_rows64 (x : (⟨S100000x64, .f32⟩ : BufTy).Contents (Elt Ideal)) (idx : (⟨S800000x1, .i32⟩ : BufTy).Contents (Elt Ideal))
    (upd : (⟨S800000x64, .f32⟩ : BufTy).Contents (Elt Ideal)) (i : Fin 100000) (c : Fin 64) :
    Host.scatterAdd (F := Ideal) (φ := .f32) scatter_S100000x64_S800000x1_S800000x64_1_0_0_1 x idx upd (ix2 i c)
      = x (ix2 i c) + ∑ e ∈ Finset.univ.filter (fun e : Fin 800000 => (idx (ix2 e (0 : Fin 1))).toInt = (i.val : ℤ)), upd (ix2 e c) := by
  show Ideal.hostScatterAdd (rowScatterDims 100000 800000 64 scatter_S100000x64_S800000x1_S800000x64_1_0_0_1_wf) x idx upd (ix2 i c) = _
  rw [scatterAdd_rows_apply]

/-- Rows of a 100000 × 64 table selected by 800000 index words, read at an entry. -/
theorem gather_rows64 (x : (⟨S100000x64, .f32⟩ : BufTy).Contents (Elt Ideal)) (idx : (⟨S800000x1, .i32⟩ : BufTy).Contents (Elt Ideal))
    (e : Fin 800000) (c : Fin 64) :
    Host.gather gather_S100000x64_S800000x1_S800000x64_1_0_n_n_0_1_164 x idx (ix2 e c) = x (ix2 (cl (idx (ix2 e (0 : Fin 1)))) c) := by
  show Host.gather (rowGatherDims 100000 800000 64 gather_S100000x64_S800000x1_S800000x64_1_0_n_n_0_1_164_wf) x idx (ix2 e c) = _
  rw [gather_rows_apply (by omega)]

/-- Entries of a vector of 100000 selected by 800000 index words, read at an entry. -/
theorem gather_vec (x : (⟨S100000, .f32⟩ : BufTy).Contents (Elt Ideal)) (idx : (⟨S800000x1, .i32⟩ : BufTy).Contents (Elt Ideal))
    (e : Fin 800000) :
    Host.gather gather_S100000_S800000x1_S800000_n_0_n_n_0_1_1 x idx (ix1 e) = x (ix1 (cl (idx (ix2 e (0 : Fin 1))))) := by
  show Host.gather (vecGatherDims 100000 800000 gather_S100000_S800000x1_S800000_n_0_n_n_0_1_1_wf) x idx (ix1 e) = _
  rw [gather_vec_apply (by omega)]

/-- The wrapped source indices are computed twice by the program; the two copies are the same array. -/
theorem wrapped_src_eq (x1 : (⟨S2x800000, .i32⟩ : BufTy).Contents (Elt Ideal)) :
    Read.val_main_v90 (F := Ideal) x1 = Read.val_main_v75 (F := Ideal) x1 := rfl

/-- The first graph convolution at node `i`, feature `c`: the sum over the edges whose destination word is `i` of the
    projected features of the edge's source, weighted by the inverse square roots of the two end nodes' degrees, plus the
    node's own projected features divided by its degree, plus the bias. -/
theorem ref_mu_apply (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 : (⟨S128x256, .f32⟩ : BufTy).Contents (Elt Ideal)) (x9 : (⟨S256, .f32⟩ : BufTy).Contents (Elt Ideal)) (x10 : (⟨S256x64, .f32⟩ : BufTy).Contents (Elt Ideal))
    (x11 : (⟨S64, .f32⟩ : BufTy).Contents (Elt Ideal)) (i : Fin 100000) (c : Fin 64) :
    Read.val_main_v107 (F := Ideal) x0 x1 x2 x3 x4 x5 x6 x7 x8 x9 x10 x11 (ix2 i c)
      = ((Ideal.ofBits .f32 0x00000000#32 : EReal)
          + ∑ e ∈ Finset.univ.filter (fun e : Fin 800000 => (Read.val_main_v3 (F := Ideal) x1 (ix1 e)).toInt = (i.val : ℤ)),
              Read.val_main_v63 (F := Ideal) x0 x1 x2 x3 x4 x5 x6 x7 x8 x9 x10 (ix2 (cl (Read.val_main_v75 (F := Ideal) x1 (ix1 e))) c)
                * (Read.val_main_v70 (F := Ideal) x1 (ix1 (cl (Read.val_main_v75 (F := Ideal) x1 (ix1 e))))
                    * Read.val_main_v70 (F := Ideal) x1 (ix1 (cl (Read.val_main_v82 (F := Ideal) x1 (ix1 e))))))
        + Read.val_main_v63 (F := Ideal) x0 x1 x2 x3 x4 x5 x6 x7 x8 x9 x10 (ix2 i c)
            * Ideal.div Cert.Spec.one (Read.val_main_v69 (F := Ideal) x1 (ix1 i))
        + x11 (ix1 c) := by
  have hdst : ∀ e : Fin 800000, Read.val_main_v97 (F := Ideal) x1 (ix2 e (0 : Fin 1)) = Read.val_main_v3 (F := Ideal) x1 (ix1 e) :=
    fun e => (Read.val_main_v97_apply x1 _).trans
      (congrArg (Read.val_main_v3 (F := Ideal) x1) (funext fun a => Fin.ext (by match a with | ⟨0, _⟩ => rfl)))
  have hupd : ∀ e : Fin 800000, Read.val_main_v95 (F := Ideal) x0 x1 x2 x3 x4 x5 x6 x7 x8 x9 x10 (ix2 e c)
      = Read.val_main_v63 (F := Ideal) x0 x1 x2 x3 x4 x5 x6 x7 x8 x9 x10 (ix2 (cl (Read.val_main_v75 (F := Ideal) x1 (ix1 e))) c)
          * (Read.val_main_v70 (F := Ideal) x1 (ix1 (cl (Read.val_main_v75 (F := Ideal) x1 (ix1 e))))
              * Read.val_main_v70 (F := Ideal) x1 (ix1 (cl (Read.val_main_v82 (F := Ideal) x1 (ix1 e))))) := fun e => by
    have jw : Read.idx_main_v93 (Read.idx_main_v94 (ix2 e c)) = ix1 e :=
      funext fun a => Fin.ext (by match a with | ⟨0, _⟩ => rfl)
    have jrow : Read.idx_main_v91 (ix2 e (0 : Fin 1)) = ix1 e := funext fun a => Fin.ext (by match a with | ⟨0, _⟩ => rfl)
    have jsrc : Read.idx_main_v76 (ix2 e (0 : Fin 1)) = ix1 e := funext fun a => Fin.ext (by match a with | ⟨0, _⟩ => rfl)
    have jdst : Read.idx_main_v83 (ix2 e (0 : Fin 1)) = ix1 e := funext fun a => Fin.ext (by match a with | ⟨0, _⟩ => rfl)
    rw [Read.val_main_v95_apply, Read.val_main_v94_apply, Read.val_main_v93_apply, Read.val_main_v85_apply, jw]
    unfold Read.val_main_v92 Read.val_main_v77 Read.val_main_v84
    rw [gather_rows64, gather_vec, gather_vec, Read.val_main_v91_apply, Read.val_main_v76_apply, Read.val_main_v83_apply,
      jrow, jsrc, jdst, wrapped_src_eq]
    rfl
  have iself : Read.idx_main_v101 (Read.idx_main_v102 (ix2 i c)) = ix1 i :=
    funext fun a => Fin.ext (by match a with | ⟨0, _⟩ => rfl)
  have ibias : Read.idx_main_v105 (Read.idx_main_v106 (ix2 i c)) = ix1 c :=
    funext fun a => Fin.ext (by match a with | ⟨0, _⟩ => rfl)
  rw [Read.val_main_v107_apply, Read.val_main_v104_apply, Read.val_main_v103_apply, Read.val_main_v106_apply,
    Read.val_main_v105_apply, Read.val_main_v102_apply, Read.val_main_v101_apply, Read.val_main_v100_apply,
    Read.val_main_v99_apply, Read.val_main_cst_21_apply, iself, ibias]
  unfold Read.val_main_v98
  rw [scatter_rows64, Read.val_main_v96_apply, Read.val_main_cst_20_apply]
  simp only [hdst, hupd]
  rfl

/-- The same for the second convolution's two copies of the wrapped source indices. -/
theorem wrapped_src_eq_ls (x1 : (⟨S2x800000, .i32⟩ : BufTy).Contents (Elt Ideal)) :
    Read.val_main_v135 (F := Ideal) x1 = Read.val_main_v120 (F := Ideal) x1 := rfl

/-- The second graph convolution (the same operations on the second projection) at node `i`, feature `c`: the sum over the edges whose destination word is `i` of the
    projected features of the edge's source, weighted by the inverse square roots of the two end nodes' degrees, plus the
    node's own projected features divided by its degree, plus the bias. -/
theorem ref_ls_apply (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 : (⟨S128x256, .f32⟩ : BufTy).Contents (Elt Ideal)) (x9 : (⟨S256, .f32⟩ : BufTy).Contents (Elt Ideal)) (x12 : (⟨S256x64, .f32⟩ : BufTy).Contents (Elt Ideal))
    (x13 : (⟨S64, .f32⟩ : BufTy).Contents (Elt Ideal)) (i : Fin 100000) (c : Fin 64) :
    Read.val_main_v152 (F := Ideal) x0 x1 x2 x3 x4 x5 x6 x7 x8 x9 x12 x13 (ix2 i c)
      = ((Ideal.ofBits .f32 0x00000000#32 : EReal)
          + ∑ e ∈ Finset.univ.filter (fun e : Fin 800000 => (Read.val_main_v3 (F := Ideal) x1 (ix1 e)).toInt = (i.val : ℤ)),
              Read.val_main_v108 (F := Ideal) x0 x1 x2 x3 x4 x5 x6 x7 x8 x9 x12 (ix2 (cl (Read.val_main_v120 (F := Ideal) x1 (ix1 e))) c)
                * (Read.val_main_v115 (F := Ideal) x1 (ix1 (cl (Read.val_main_v120 (F := Ideal) x1 (ix1 e))))
                    * Read.val_main_v115 (F := Ideal) x1 (ix1 (cl (Read.val_main_v127 (F := Ideal) x1 (ix1 e))))))
        + Read.val_main_v108 (F := Ideal) x0 x1 x2 x3 x4 x5 x6 x7 x8 x9 x12 (ix2 i c)
            * Ideal.div Cert.Spec.one (Read.val_main_v114 (F := Ideal) x1 (ix1 i))
        + x13 (ix1 c) := by
  have hdst : ∀ e : Fin 800000, Read.val_main_v142 (F := Ideal) x1 (ix2 e (0 : Fin 1)) = Read.val_main_v3 (F := Ideal) x1 (ix1 e) :=
    fun e => (Read.val_main_v142_apply x1 _).trans
      (congrArg (Read.val_main_v3 (F := Ideal) x1) (funext fun a => Fin.ext (by match a with | ⟨0, _⟩ => rfl)))
  have hupd : ∀ e : Fin 800000, Read.val_main_v140 (F := Ideal) x0 x1 x2 x3 x4 x5 x6 x7 x8 x9 x12 (ix2 e c)
      = Read.val_main_v108 (F := Ideal) x0 x1 x2 x3 x4 x5 x6 x7 x8 x9 x12 (ix2 (cl (Read.val_main_v120 (F := Ideal) x1 (ix1 e))) c)
          * (Read.val_main_v115 (F := Ideal) x1 (ix1 (cl (Read.val_main_v120 (F := Ideal) x1 (ix1 e))))
              * Read.val_main_v115 (F := Ideal) x1 (ix1 (cl (Read.val_main_v127 (F := Ideal) x1 (ix1 e))))) := fun e => by
    have jw : Read.idx_main_v138 (Read.idx_main_v139 (ix2 e c)) = ix1 e :=
      funext fun a => Fin.ext (by match a with | ⟨0, _⟩ => rfl)
    have jrow : Read.idx_main_v136 (ix2 e (0 : Fin 1)) = ix1 e := funext fun a => Fin.ext (by match a with | ⟨0, _⟩ => rfl)
    have jsrc : Read.idx_main_v121 (ix2 e (0 : Fin 1)) = ix1 e := funext fun a => Fin.ext (by match a with | ⟨0, _⟩ => rfl)
    have jdst : Read.idx_main_v128 (ix2 e (0 : Fin 1)) = ix1 e := funext fun a => Fin.ext (by match a with | ⟨0, _⟩ => rfl)
    rw [Read.val_main_v140_apply, Read.val_main_v139_apply, Read.val_main_v138_apply, Read.val_main_v130_apply, jw]
    unfold Read.val_main_v137 Read.val_main_v122 Read.val_main_v129
    rw [gather_rows64, gather_vec, gather_vec, Read.val_main_v136_apply, Read.val_main_v121_apply, Read.val_main_v128_apply,
      jrow, jsrc, jdst, wrapped_src_eq_ls]
    rfl
  have iself : Read.idx_main_v146 (Read.idx_main_v147 (ix2 i c)) = ix1 i :=
    funext fun a => Fin.ext (by match a with | ⟨0, _⟩ => rfl)
  have ibias : Read.idx_main_v150 (Read.idx_main_v151 (ix2 i c)) = ix1 c :=
    funext fun a => Fin.ext (by match a with | ⟨0, _⟩ => rfl)
  rw [Read.val_main_v152_apply, Read.val_main_v149_apply, Read.val_main_v148_apply, Read.val_main_v151_apply,
    Read.val_main_v150_apply, Read.val_main_v147_apply, Read.val_main_v146_apply, Read.val_main_v145_apply,
    Read.val_main_v144_apply, Read.val_main_cst_32_apply, iself, ibias]
  unfold Read.val_main_v143
  rw [scatter_rows64, Read.val_main_v141_apply, Read.val_main_cst_31_apply]
  simp only [hdst, hupd]
  rfl

/-- The second convolution recomputes the degrees, their inverse square roots and the wrapped indices; they are the first
    convolution's arrays. -/
theorem deg_ls_eq (x1 : (⟨S2x800000, .i32⟩ : BufTy).Contents (Elt Ideal)) :
    Read.val_main_v114 (F := Ideal) x1 = Read.val_main_v69 (F := Ideal) x1 := rfl
theorem rs_ls_eq (x1 : (⟨S2x800000, .i32⟩ : BufTy).Contents (Elt Ideal)) :
    Read.val_main_v115 (F := Ideal) x1 = Read.val_main_v70 (F := Ideal) x1 := rfl
theorem src_ls_eq (x1 : (⟨S2x800000, .i32⟩ : BufTy).Contents (Elt Ideal)) :
    Read.val_main_v120 (F := Ideal) x1 = Read.val_main_v75 (F := Ideal) x1 := rfl
theorem dst_ls_eq (x1 : (⟨S2x800000, .i32⟩ : BufTy).Contents (Elt Ideal)) :
    Read.val_main_v127 (F := Ideal) x1 = Read.val_main_v82 (F := Ideal) x1 := rfl

/-- The second graph convolution over the SAME degree, scale and index arrays as the first: only the projected features
    and the bias differ. -/
theorem ref_ls_apply_shared (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 : (⟨S128x256, .f32⟩ : BufTy).Contents (Elt Ideal)) (x9 : (⟨S256, .f32⟩ : BufTy).Contents (Elt Ideal)) (x12 : (⟨S256x64, .f32⟩ : BufTy).Contents (Elt Ideal))
    (x13 : (⟨S64, .f32⟩ : BufTy).Contents (Elt Ideal)) (i : Fin 100000) (c : Fin 64) :
    Read.val_main_v152 (F := Ideal) x0 x1 x2 x3 x4 x5 x6 x7 x8 x9 x12 x13 (ix2 i c)
      = ((Ideal.ofBits .f32 0x00000000#32 : EReal)
          + ∑ e ∈ Finset.univ.filter (fun e : Fin 800000 => (Read.val_main_v3 (F := Ideal) x1 (ix1 e)).toInt = (i.val : ℤ)),
              Read.val_main_v108 (F := Ideal) x0 x1 x2 x3 x4 x5 x6 x7 x8 x9 x12 (ix2 (cl (Read.val_main_v75 (F := Ideal) x1 (ix1 e))) c)
                * (Read.val_main_v70 (F := Ideal) x1 (ix1 (cl (Read.val_main_v75 (F := Ideal) x1 (ix1 e))))
                    * Read.val_main_v70 (F := Ideal) x1 (ix1 (cl (Read.val_main_v82 (F := Ideal) x1 (ix1 e))))))
        + Read.val_main_v108 (F := Ideal) x0 x1 x2 x3 x4 x5 x6 x7 x8 x9 x12 (ix2 i c)
            * Ideal.div Cert.Spec.one (Read.val_main_v69 (F := Ideal) x1 (ix1 i))
        + x13 (ix1 c) := by
  rw [ref_ls_apply, deg_ls_eq, rs_ls_eq, src_ls_eq, dst_ls_eq]

end Cert.ReferenceIdeal.RefGcn

end
-- ==== Proof.WrapIndex.lean ====
/-
  Index arithmetic on 32-bit words: an index whose signed value is a row number of a table of 100000 rows is left
  alone by the wrap of negative indices (add the table's height when negative), and the clamp into the table's rows
  returns that row.
-/
import Idealize.ShloMosaic.PureOps.Ideal

noncomputable section

namespace Cert.WrapIndex

open Idealize.ShloMosaic

/-- A word with a nonnegative signed value is not wrapped. -/
theorem wrap_nonneg (d : BitVec 32) (h : 0 ≤ d.toInt) :
    Scalar.select (IntOp.cmpi .slt d 0#32) (IntOp.addi d 100000#32) d = d := by
  have hs : d.slt 0#32 = false := by
    simp only [BitVec.slt, BitVec.toInt_zero, decide_eq_false_iff_not, not_lt]
    exact h
  simp [Scalar.select, IntOp.cmpi, hs]

/-- A word whose signed value is the row number i clamps to i. -/
theorem clamp_eq (d : BitVec 32) (i : Fin 100000) (h : d.toInt = (i.val : ℤ)) :
    min d.toInt.toNat (100000 - 1) = i.val := by
  rw [h, Int.toNat_natCast]
  have := i.isLt
  omega

end Cert.WrapIndex

end
-- ==== Proof.RefBridge.lean ====
/-
  Small facts about the reference's named arrays, for the comparison with the kernel's stages.

  The degree counted with a self-loop is the in-degree plus one, and a node's scale is its inverse square root; a
  destination word that is a row number is left alone by the wrap of negative words and clamps to that row; the wrapped
  source words of the convolutions are those of the first layer's selection; and each projection is, entry by entry, the
  second layer's row against a column of the projection's weights.
-/
import proofs.«125124_j61194694033656_2_alg».proof.Proof.Gen.ReferenceIdeal.Read
import proofs.«125124_j61194694033656_2_alg».proof.Proof.Spec
import proofs.«125124_j61194694033656_2_alg».proof.Proof.RefGcn
import proofs.«125124_j61194694033656_2_alg».proof.Proof.WrapIndex
import Idealize.ShloMosaic.Lib.ValueIdx
import Idealize.ShloMosaic.PureOps.Ideal.Laws

noncomputable section

namespace Cert.ReferenceIdeal.RefBridge

open Cert.ReferenceIdeal Cert.ReferenceIdeal.Gen Idealize.ShloMosaic Idealize.ShloMosaic.ValueIdx
open scoped BigOperators

/-- The in-degree count is computed twice by the program; the second copy is the first. -/
theorem deg_copy_eq (x1 : (⟨S2x800000, .i32⟩ : BufTy).Contents (Elt Ideal)) : Read.val_main_v67 (F := Ideal) x1 = Read.val_main_v7 (F := Ideal) x1 := rfl

/-- The degree counted with a self-loop: the in-degree plus one. -/
theorem deg1_eq (x1 : (⟨S2x800000, .i32⟩ : BufTy).Contents (Elt Ideal)) (i : Fin 100000) :
    Read.val_main_v69 (F := Ideal) x1 (ix1 i) = Read.val_main_v7 (F := Ideal) x1 (ix1 i) + Cert.Spec.one := by
  rw [Read.val_main_v69_apply, Read.val_main_v68_apply, Read.val_main_cst_13_apply, deg_copy_eq]
  rfl

/-- The scale of node `r`: the inverse square root of its degree counted with a self-loop. -/
theorem rs_eq (x1 : (⟨S2x800000, .i32⟩ : BufTy).Contents (Elt Ideal)) (r : Fin 100000) :
    Read.val_main_v70 (F := Ideal) x1 (ix1 r) = Cert.Spec.rsdeg (Read.val_main_v7 (F := Ideal) x1) (ix2 r (0 : Fin 1)) := by
  rw [Read.val_main_v70_apply, deg1_eq, Ideal.hostUnary_rsqrt_def]
  unfold Cert.Spec.rsdeg
  rfl

/-- A destination word that is a row number is not wrapped, and clamps to that row. -/
theorem cl_dst (x1 : (⟨S2x800000, .i32⟩ : BufTy).Contents (Elt Ideal)) (e : Fin 800000) (i : Fin 100000)
    (h : (Read.val_main_v3 (F := Ideal) x1 (ix1 e)).toInt = (i.val : ℤ)) :
    RefGcn.cl (Read.val_main_v82 (F := Ideal) x1 (ix1 e)) = i := by
  have hw : Read.val_main_v82 (F := Ideal) x1 (ix1 e) = Read.val_main_v3 (F := Ideal) x1 (ix1 e) := by
    rw [Read.val_main_v82_apply, Read.val_main_v79_apply, Read.val_main_v81_apply, Read.val_main_v78_apply,
      Read.val_main_v80_apply, Read.val_main_c_16_apply, Read.val_main_c_17_apply]
    exact Cert.WrapIndex.wrap_nonneg _ (by rw [h]; exact Int.natCast_nonneg _)
  rw [hw]
  exact Fin.ext (Cert.WrapIndex.clamp_eq _ i h)

/-- The wrapped source indices of the convolutions are the wrapped source indices the first layer's gather used. -/
theorem srcn_eq (x1 : (⟨S2x800000, .i32⟩ : BufTy).Contents (Elt Ideal)) : Read.val_main_v75 (F := Ideal) x1 = Read.val_main_v12 (F := Ideal) x1 := rfl

/-- The first projection at row `r`, feature `q`: the second layer's row `r` against column `q` of the weights. -/
theorem xw_mu_apply (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 : (⟨S128x256, .f32⟩ : BufTy).Contents (Elt Ideal)) (x9 : (⟨S256, .f32⟩ : BufTy).Contents (Elt Ideal)) (x10 : (⟨S256x64, .f32⟩ : BufTy).Contents (Elt Ideal)) (r : Fin 100000) (q : Fin 64) :
    Read.val_main_v63 (F := Ideal) x0 x1 x2 x3 x4 x5 x6 x7 x8 x9 x10 (ix2 r q)
      = ∑ k : Fin 256, Read.val_main_v62 (F := Ideal) x0 x1 x2 x3 x4 x5 x6 x7 x8 x9 (ix2 r k) * x10 (ix2 k q) := by
  rw [Read.val_main_v63_apply]
  refine Finset.sum_congr rfl fun k _ => ?_
  have hl : Read.lidx_main_v63 (ix2 r q) k = ix2 r k :=
    funext fun a => Fin.ext (by match a with | ⟨0, _⟩ => rfl | ⟨1, _⟩ => rfl)
  have hr : Read.ridx_main_v63 (ix2 r q) k = ix2 k q :=
    funext fun a => Fin.ext (by match a with | ⟨0, _⟩ => rfl | ⟨1, _⟩ => rfl)
  rw [hl, hr]

/-- The second projection likewise. -/
theorem xw_ls_apply (x0 : (⟨S100000x128, .f32⟩ : BufTy).Contents (Elt Ideal)) (x1 : (⟨S2x800000, .i32⟩ : BufTy).Contents (Elt Ideal))
    (x2 x3 : (⟨S128x256, .f32⟩ : BufTy).Contents (Elt Ideal)) (x4 : (⟨S256, .f32⟩ : BufTy).Contents (Elt Ideal))
    (x5 x6 : (⟨S256x256, .f32⟩ : BufTy).Contents (Elt Ideal)) (x7 : (⟨S256, .f32⟩ : BufTy).Contents (Elt Ideal))
    (x8 : (⟨S128x256, .f32⟩ : BufTy).Contents (Elt Ideal)) (x9 : (⟨S256, .f32⟩ : BufTy).Contents (Elt Ideal)) (x12 : (⟨S256x64, .f32⟩ : BufTy).Contents (Elt Ideal)) (r : Fin 100000) (q : Fin 64) :
    Read.val_main_v108 (F := Ideal) x0 x1 x2 x3 x4 x5 x6 x7 x8 x9 x12 (ix2 r q)
      = ∑ k : Fin 256, Read.val_main_v62 (F := Ideal) x0 x1 x2 x3 x4 x5 x6 x7 x8 x9 (ix2 r k) * x12 (ix2 k q) := by
  rw [Read.val_main_v108_apply]
  refine Finset.sum_congr rfl fun k _ => ?_
  have hl : Read.lidx_main_v108 (ix2 r q) k = ix2 r k :=
    funext fun a => Fin.ext (by match a with | ⟨0, _⟩ => rfl | ⟨1, _⟩ => rfl)
  have hr : Read.ridx_main_v108 (ix2 r q) k = ix2 k q :=
    funext fun a => Fin.ext (by match a with | ⟨0, _⟩ => rfl | ⟨1, _⟩ => rfl)
  rw [hl, hr]

end Cert.ReferenceIdeal.RefBridge

end
-- ==== Proof.GcnEntry.lean ====
/-
  The entry identity of the graph convolution over variables: with D a count, R = (D + 1)^(-1/2) and any summands,
    R · ((0 + Σ_e a_e · ρ_e) + A · R) + b = ((0 + Σ_e a_e · (ρ_e · R)) + A · (1 / (D + 1))) + b.
-/
import proofs.«125124_j61194694033656_2_alg».proof.Proof.Spec
import proofs.«125124_j61194694033656_2_alg».proof.Proof.GcnAlgebra

noncomputable section

namespace Cert.GcnEntry

open Idealize.ShloMosaic

theorem entry {ι : Type} (n : ℕ) (D R : EReal) (hD : D = ((n : ℝ) : EReal)) (hR : R = Ideal.rsqrt (D + Cert.Spec.one))
    (s : Finset ι) (a ρ : ι → EReal) (A b : EReal) :
    R * (((Ideal.ofBits .f32 0x00000000#32 : EReal) + ∑ e ∈ s, a e * ρ e) + A * R) + b
      = (((Ideal.ofBits .f32 0x00000000#32 : EReal) + ∑ e ∈ s, a e * (ρ e * R)) + A * Ideal.div Cert.Spec.one (D + Cert.Spec.one)) + b := by
  obtain ⟨r, hr0, hrs, hrr⟩ := Cert.GcnAlgebra.rsqrt_succ n
  have h1 : Cert.Spec.one = ((1 : ℝ) : EReal) := Cert.GcnAlgebra.ofBits_one
  subst hD
  rw [h1] at hR ⊢
  rw [hrs] at hR
  subst hR
  rw [Cert.GcnAlgebra.div_one_succ, Cert.GcnAlgebra.ofBits_zero]
  exact Cert.GcnAlgebra.gcn_entry r _ hr0 hrr s a ρ A b

end Cert.GcnEntry

end
-- ==== Proof.KFinal.lean ====
/-
  The two results, entry by entry. At node i and column q the kernel holds
    r_i · ((0 + Σ_e (h2 · W)(s_e, q) · r_{s_e}) + (h2 · W)(i, q) · r_i) + b_q
  over the edges e whose destination is i, s_e the (wrapped, clamped) source and r = (deg + 1)^(-1/2); the reference holds
    ((0 + Σ_e (h2 · W)(s_e, q) · (r_{s_e} · r_{d_e})) + (h2 · W)(i, q) · (1 / (deg i + 1))) + b_q
  with d_e the wrapped, clamped destination, which is i. The degree is a count, so r_i is a nonnegative real whose
  square is 1 / (deg i + 1), and the two agree.
-/
import proofs.«125124_j61194694033656_2_alg».proof.Proof.Gen.KernelIdeal.Frame
import proofs.«125124_j61194694033656_2_alg».proof.Proof.Gen.ReferenceIdeal.Read
import proofs.«125124_j61194694033656_2_alg».proof.Proof.Spec
import proofs.«125124_j61194694033656_2_alg».proof.Proof.KHost3
import proofs.«125124_j61194694033656_2_alg».proof.Proof.KGcn
import proofs.«125124_j61194694033656_2_alg».proof.Proof.KRef
import proofs.«125124_j61194694033656_2_alg».proof.Proof.RefDeg
import proofs.«125124_j61194694033656_2_alg».proof.Proof.RefGcn
import proofs.«125124_j61194694033656_2_alg».proof.Proof.RefBridge
import proofs.«125124_j61194694033656_2_alg».proof.Proof.GcnEntry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.KFinal

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The inverse-square-root degree column. -/
abbrev RSc (c : Dev nD) : Cert.Spec.Mat 100000 1 := Cert.Spec.rsdeg (Cert.ReferenceIdeal.Read.val_main_v7 (F := Ideal) (m ((c.tc : Thread nD τ).loc main_arg1)))

/-- The row a source index reads: wrapped when negative, clamped into the table. -/
abbrev clK (c : Dev nD) (e : Fin 800000) : Fin 100000 :=
  ⟨min (Cert.ReferenceIdeal.Read.val_main_v12 (F := Ideal) (m ((c.tc : Thread nD τ).loc main_arg1)) (ix1 e)).toInt.toNat (100000 - 1), by omega⟩

/-- The inverse-square-root column at node r. -/
theorem rsdeg_apply (D : (⟨1, ![100000]⟩ : Shape).Idx → EReal) (r : Fin 100000) :
    Cert.Spec.rsdeg D (ix2 r 0) = Ideal.rsqrt (D (ix1 r) + Cert.Spec.one) := rfl

set_option maxHeartbeats 2000000 in
/-- The first result at (i, q): the kernel's entry is the reference's. -/
theorem v56_entry (c : Dev nD) (i : Fin 100000) (q : Fin 64) :
    W7 m ρ c (Proc.devRef .tc main_v56) (ix2 i q) = Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 i q) := by
  obtain ⟨n, hn⟩ := Cert.ReferenceIdeal.RefDeg.deg_nat (m ((c.tc : Thread nD τ).loc main_arg1)) i
  have hK : W7 m ρ c (Proc.devRef .tc main_v56) (ix2 i q)
      = RSc m c (ix2 i 0) * (((Ideal.ofBits .f32 0x00000000#32 : EReal)
          + ∑ e ∈ Finset.univ.filter (fun e : Fin 800000 => (Cert.ReferenceIdeal.Read.val_main_v3 (F := Ideal) (m ((c.tc : Thread nD τ).loc main_arg1)) (ix1 e)).toInt = (i.val : ℤ)),
              (∑ k : Fin 256, KStage2.H2s m c (ix2 (clK m c e) k) * (m ((c.tc : Thread nD τ).loc main_arg10)) (ix2 k q)) * RSc m c (ix2 (clK m c e) 0))
          + (∑ k : Fin 256, KStage2.H2s m c (ix2 i k) * (m ((c.tc : Thread nD τ).loc main_arg10)) (ix2 k q)) * RSc m c (ix2 i 0)) + (m ((c.tc : Thread nD τ).loc main_arg11)) (ix1 q) := by
    rw [KHost3.v56_apply m ρ c _ rfl i q, KGcn.out_apply m ρ c i _, KGcn.xws_left m c i q, KGcn.bcat_left]
    rw [Finset.sum_congr rfl (fun e _ => KGcn.xws_left m c (clK m c e) q)]
  have hR : Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 i q)
      = (((Ideal.ofBits .f32 0x00000000#32 : EReal)
          + ∑ e ∈ Finset.univ.filter (fun e : Fin 800000 => (Cert.ReferenceIdeal.Read.val_main_v3 (F := Ideal) (m ((c.tc : Thread nD τ).loc main_arg1)) (ix1 e)).toInt = (i.val : ℤ)),
              (∑ k : Fin 256, KStage2.H2s m c (ix2 (clK m c e) k) * (m ((c.tc : Thread nD τ).loc main_arg10)) (ix2 k q)) * (RSc m c (ix2 (clK m c e) 0) * RSc m c (ix2 i 0)))
          + (∑ k : Fin 256, KStage2.H2s m c (ix2 i k) * (m ((c.tc : Thread nD τ).loc main_arg10)) (ix2 k q))
              * Ideal.div Cert.Spec.one (Cert.ReferenceIdeal.Read.val_main_v7 (F := Ideal) (m ((c.tc : Thread nD τ).loc main_arg1)) (ix1 i) + Cert.Spec.one)) + (m ((c.tc : Thread nD τ).loc main_arg11)) (ix1 q) := by
    have hsum : ∀ e ∈ Finset.univ.filter (fun e : Fin 800000 => (Cert.ReferenceIdeal.Read.val_main_v3 (F := Ideal) (m ((c.tc : Thread nD τ).loc main_arg1)) (ix1 e)).toInt = (i.val : ℤ)),
        Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 (Cert.ReferenceIdeal.RefGcn.cl (Cert.ReferenceIdeal.Read.val_main_v75 (F := Ideal) (m ((c.tc : Thread nD τ).loc main_arg1)) (ix1 e))) q)
          * (Cert.ReferenceIdeal.Read.val_main_v70 (F := Ideal) (m ((c.tc : Thread nD τ).loc main_arg1)) (ix1 (Cert.ReferenceIdeal.RefGcn.cl (Cert.ReferenceIdeal.Read.val_main_v75 (F := Ideal) (m ((c.tc : Thread nD τ).loc main_arg1)) (ix1 e))))
            * Cert.ReferenceIdeal.Read.val_main_v70 (F := Ideal) (m ((c.tc : Thread nD τ).loc main_arg1)) (ix1 (Cert.ReferenceIdeal.RefGcn.cl (Cert.ReferenceIdeal.Read.val_main_v82 (F := Ideal) (m ((c.tc : Thread nD τ).loc main_arg1)) (ix1 e)))))
        = (∑ k : Fin 256, KStage2.H2s m c (ix2 (clK m c e) k) * (m ((c.tc : Thread nD τ).loc main_arg10)) (ix2 k q)) * (RSc m c (ix2 (clK m c e) 0) * RSc m c (ix2 i 0)) := fun e he => by
      rw [Cert.ReferenceIdeal.RefBridge.xw_mu_apply, ← KRef.h2_ref m c, Cert.ReferenceIdeal.RefBridge.rs_eq, Cert.ReferenceIdeal.RefBridge.rs_eq,
        Cert.ReferenceIdeal.RefBridge.cl_dst (m ((c.tc : Thread nD τ).loc main_arg1)) e i (Finset.mem_filter.mp he).2, Cert.ReferenceIdeal.RefBridge.srcn_eq]
    rw [Cert.ReferenceIdeal.RefGcn.ref_mu_apply, Cert.ReferenceIdeal.RefBridge.xw_mu_apply, Cert.ReferenceIdeal.RefBridge.deg1_eq, ← KRef.h2_ref m c,
      Finset.sum_congr rfl hsum]
  rw [hK, hR]
  exact Cert.GcnEntry.entry n (Cert.ReferenceIdeal.Read.val_main_v7 (F := Ideal) (m ((c.tc : Thread nD τ).loc main_arg1)) (ix1 i)) (RSc m c (ix2 i 0)) hn (rsdeg_apply _ i) _
    (fun e => ∑ k : Fin 256, KStage2.H2s m c (ix2 (clK m c e) k) * (m ((c.tc : Thread nD τ).loc main_arg10)) (ix2 k q)) (fun e => RSc m c (ix2 (clK m c e) 0)) _ _

/-- The first result array is the reference's. -/
theorem v56_eq (c : Dev nD) : W7 m ρ c (Proc.devRef .tc main_v56) = Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext j
  obtain ⟨i, q, rfl⟩ : ∃ (i : Fin 100000) (q : Fin 64), j = ix2 i q := ⟨j 0, j 1, eq_ix2 j⟩
  exact v56_entry m ρ c i q

set_option maxHeartbeats 2000000 in
/-- The second result at (i, q): the kernel's entry is the reference's. -/
theorem v57_entry (c : Dev nD) (i : Fin 100000) (q : Fin 64) :
    W7 m ρ c (Proc.devRef .tc main_v57) (ix2 i q) = Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (ix2 i q) := by
  obtain ⟨n, hn⟩ := Cert.ReferenceIdeal.RefDeg.deg_nat (m ((c.tc : Thread nD τ).loc main_arg1)) i
  have hK : W7 m ρ c (Proc.devRef .tc main_v57) (ix2 i q)
      = RSc m c (ix2 i 0) * (((Ideal.ofBits .f32 0x00000000#32 : EReal)
          + ∑ e ∈ Finset.univ.filter (fun e : Fin 800000 => (Cert.ReferenceIdeal.Read.val_main_v3 (F := Ideal) (m ((c.tc : Thread nD τ).loc main_arg1)) (ix1 e)).toInt = (i.val : ℤ)),
              (∑ k : Fin 256, KStage2.H2s m c (ix2 (clK m c e) k) * (m ((c.tc : Thread nD τ).loc main_arg12)) (ix2 k q)) * RSc m c (ix2 (clK m c e) 0))
          + (∑ k : Fin 256, KStage2.H2s m c (ix2 i k) * (m ((c.tc : Thread nD τ).loc main_arg12)) (ix2 k q)) * RSc m c (ix2 i 0)) + (m ((c.tc : Thread nD τ).loc main_arg13)) (ix1 q) := by
    rw [KHost3.v57_apply m ρ c _ rfl i q, KGcn.out_apply m ρ c i _, KGcn.xws_right m c i q, KGcn.bcat_right]
    rw [Finset.sum_congr rfl (fun e _ => KGcn.xws_right m c (clK m c e) q)]
  have hR : Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) (ix2 i q)
      = (((Ideal.ofBits .f32 0x00000000#32 : EReal)
          + ∑ e ∈ Finset.univ.filter (fun e : Fin 800000 => (Cert.ReferenceIdeal.Read.val_main_v3 (F := Ideal) (m ((c.tc : Thread nD τ).loc main_arg1)) (ix1 e)).toInt = (i.val : ℤ)),
              (∑ k : Fin 256, KStage2.H2s m c (ix2 (clK m c e) k) * (m ((c.tc : Thread nD τ).loc main_arg12)) (ix2 k q)) * (RSc m c (ix2 (clK m c e) 0) * RSc m c (ix2 i 0)))
          + (∑ k : Fin 256, KStage2.H2s m c (ix2 i k) * (m ((c.tc : Thread nD τ).loc main_arg12)) (ix2 k q))
              * Ideal.div Cert.Spec.one (Cert.ReferenceIdeal.Read.val_main_v7 (F := Ideal) (m ((c.tc : Thread nD τ).loc main_arg1)) (ix1 i) + Cert.Spec.one)) + (m ((c.tc : Thread nD τ).loc main_arg13)) (ix1 q) := by
    have hsum : ∀ e ∈ Finset.univ.filter (fun e : Fin 800000 => (Cert.ReferenceIdeal.Read.val_main_v3 (F := Ideal) (m ((c.tc : Thread nD τ).loc main_arg1)) (ix1 e)).toInt = (i.val : ℤ)),
        Cert.ReferenceIdeal.Read.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (ix2 (Cert.ReferenceIdeal.RefGcn.cl (Cert.ReferenceIdeal.Read.val_main_v75 (F := Ideal) (m ((c.tc : Thread nD τ).loc main_arg1)) (ix1 e))) q)
          * (Cert.ReferenceIdeal.Read.val_main_v70 (F := Ideal) (m ((c.tc : Thread nD τ).loc main_arg1)) (ix1 (Cert.ReferenceIdeal.RefGcn.cl (Cert.ReferenceIdeal.Read.val_main_v75 (F := Ideal) (m ((c.tc : Thread nD τ).loc main_arg1)) (ix1 e))))
            * Cert.ReferenceIdeal.Read.val_main_v70 (F := Ideal) (m ((c.tc : Thread nD τ).loc main_arg1)) (ix1 (Cert.ReferenceIdeal.RefGcn.cl (Cert.ReferenceIdeal.Read.val_main_v82 (F := Ideal) (m ((c.tc : Thread nD τ).loc main_arg1)) (ix1 e)))))
        = (∑ k : Fin 256, KStage2.H2s m c (ix2 (clK m c e) k) * (m ((c.tc : Thread nD τ).loc main_arg12)) (ix2 k q)) * (RSc m c (ix2 (clK m c e) 0) * RSc m c (ix2 i 0)) := fun e he => by
      rw [Cert.ReferenceIdeal.RefBridge.xw_ls_apply, ← KRef.h2_ref m c, Cert.ReferenceIdeal.RefBridge.rs_eq, Cert.ReferenceIdeal.RefBridge.rs_eq,
        Cert.ReferenceIdeal.RefBridge.cl_dst (m ((c.tc : Thread nD τ).loc main_arg1)) e i (Finset.mem_filter.mp he).2, Cert.ReferenceIdeal.RefBridge.srcn_eq]
    rw [Cert.ReferenceIdeal.RefGcn.ref_ls_apply_shared, Cert.ReferenceIdeal.RefBridge.xw_ls_apply, Cert.ReferenceIdeal.RefBridge.deg1_eq, ← KRef.h2_ref m c,
      Finset.sum_congr rfl hsum]
  rw [hK, hR]
  exact Cert.GcnEntry.entry n (Cert.ReferenceIdeal.Read.val_main_v7 (F := Ideal) (m ((c.tc : Thread nD τ).loc main_arg1)) (ix1 i)) (RSc m c (ix2 i 0)) hn (rsdeg_apply _ i) _
    (fun e => ∑ k : Fin 256, KStage2.H2s m c (ix2 (clK m c e) k) * (m ((c.tc : Thread nD τ).loc main_arg12)) (ix2 k q)) (fun e => RSc m c (ix2 (clK m c e) 0)) _ _

/-- The second result array is the reference's. -/
theorem v57_eq (c : Dev nD) : W7 m ρ c (Proc.devRef .tc main_v57) = Cert.ReferenceIdeal.Read.val_main_v152 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  funext j
  obtain ⟨i, q, rfl⟩ : ∃ (i : Fin 100000) (q : Fin 64), j = ix2 i q := ⟨j 0, j 1, eq_ix2 j⟩
  exact v57_entry m ρ c i q

end Cert.KernelIdeal.KFinal

end
-- ==== Proof.lean ====
/-
  Equivalence, over the extended reals, of a graph auto-encoder written as three fused row-blocked kernels around
  native gathers and scatter-adds, and its reference: two mean-aggregation layers (neighbour sums scaled by the
  reciprocal in-degree, two matrix products, bias, clip at zero; a zero-padded residual after the first, a linear
  residual after the second) followed by two symmetric-normalised graph convolutions with self-loops.

  The two programs apply the same operations up to and including the second layer, except that the kernel multiplies
  the neighbour sums by 1 / max(deg, 1) where the reference divides by max(deg, 1): the same number, the degree being
  a count. In the convolutions the kernel scales every projected row once by r_j = (deg j + 1)^(-1/2), adds the rows
  of the in-neighbours to the node's own, and scales the result by r_i; the reference weights each in-neighbour's row
  by r_j · r_i and the node's own row by 1 / (deg i + 1). These agree because r_i is a nonnegative real with
  r_i · r_i = 1 / (deg i + 1), and a nonnegative real factor distributes over sums of extended reals; no finiteness of
  the features is used. The kernel projects onto both output spaces at once (the two weight matrices side by side,
  the two biases one after the other) and splits the 128 columns at the end.

  The three frames are the generated ones (the reference's is its generated run with the results dropped); the
  idealization rewrote nothing, so there is nothing to preserve.
-/
import proofs.«125124_j61194694033656_2_alg».proof.Defs
import proofs.«125124_j61194694033656_2_alg».proof.Proof.Gen.Kernel
import proofs.«125124_j61194694033656_2_alg».proof.Proof.Gen.Kernel.Skeleton
import proofs.«125124_j61194694033656_2_alg».proof.Proof.Gen.Kernel.Launch
import proofs.«125124_j61194694033656_2_alg».proof.Proof.Gen.Kernel.Points
import proofs.«125124_j61194694033656_2_alg».proof.Proof.Gen.Kernel.Frame
import proofs.«125124_j61194694033656_2_alg».proof.Proof.Gen.KernelIdeal
import proofs.«125124_j61194694033656_2_alg».proof.Proof.Gen.KernelIdeal.Skeleton
import proofs.«125124_j61194694033656_2_alg».proof.Proof.Gen.KernelIdeal.Launch
import proofs.«125124_j61194694033656_2_alg».proof.Proof.Gen.KernelIdeal.Points
import proofs.«125124_j61194694033656_2_alg».proof.Proof.Gen.KernelIdeal.Frame
import proofs.«125124_j61194694033656_2_alg».proof.Proof.Gen.ReferenceIdeal
import proofs.«125124_j61194694033656_2_alg».proof.Proof.Gen.ReferenceIdeal.Run
import proofs.«125124_j61194694033656_2_alg».proof.Proof.Gen.ReferenceIdeal.Read
import proofs.«125124_j61194694033656_2_alg».proof.Proof.Gen.Pre_finite_inputs
import proofs.«125124_j61194694033656_2_alg».proof.Proof.KernelRun
import proofs.«125124_j61194694033656_2_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the same two result arrays: the kernel's
    own, which are the reference's stages of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v56),
    fun c => Cert.KernelIdeal.Gen.W7 m ρ c (Proc.devRef .tc Cert.KernelIdeal.main_v57),
    Cert.KernelIdeal.GenRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13⟩ := hagree c
    rw [Cert.ReferenceIdeal.Read.val_main_v107_eq, h0, h1, h2, h3, h4, h5, h6, h7, h8, h9, h10, h11]
    exact (Cert.KernelIdeal.KFinal.v56_eq m ρ c).symm
  · obtain ⟨h0, h1, h2, h3, h4, h5, h6, h7, h8, h9, h10, h11, h12, h13⟩ := hagree c
    rw [Cert.ReferenceIdeal.Read.val_main_v152_eq, h0, h1, h2, h3, h4, h5, h6, h7, h8, h9, h12, h13]
    exact (Cert.KernelIdeal.KFinal.v57_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
